-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x128 : Shape := ⟨2, ![512, 128]⟩
abbrev S128 : Shape := ⟨1, ![128]⟩
abbrev S640x128 : Shape := ⟨2, ![640, 128]⟩
abbrev S768x128 : Shape := ⟨2, ![768, 128]⟩
abbrev S896x128 : Shape := ⟨2, ![896, 128]⟩
abbrev S1024x40 : Shape := ⟨2, ![1024, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S640x128 : S_.BroadcastsInDim S640x128 (![] : Fin 0 → Fin S640x128.rank)
  reducesTo_S640x128_S_d0_1 : S640x128.ReducesTo [0, 1] S_
  bcast_S_S768x128 : S_.BroadcastsInDim S768x128 (![] : Fin 0 → Fin S768x128.rank)
  reducesTo_S768x128_S_d0_1 : S768x128.ReducesTo [0, 1] S_
  bcast_S_S896x128 : S_.BroadcastsInDim S896x128 (![] : Fin 0 → Fin S896x128.rank)
  reducesTo_S896x128_S_d0_1 : S896x128.ReducesTo [0, 1] S_
  bcast_S_S1024x40 : S_.BroadcastsInDim S1024x40 (![] : Fin 0 → Fin S1024x40.rank)
  reducesTo_S1024x40_S_d0_1 : S1024x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg13 : FVec F S40 .f32) (main_v48 : IVec S_ 1) (main_v49 : FVec F S1024x40 .f32) (main_v50 : FVec F S1024x40 .f32) : IVec S_ 1 :=
  let main_v51 : IVec S1024x40 1 := cmpf .olt main_v49 main_v50
  let main_c_19 : IVec S_ 1 := constantI S_ 1 1#1
  let main_v52 : IVec S_ 1 := (fun x v => Host.reduce IntOp.andi x v reducesTo_S1024x40_S_d0_1 h_S_) main_v51 main_c_19
  let main_v53 : IVec S_ 1 := andi main_v48 main_v52
  let main_v54 : FVec F S40 .f32 := Host.absf main_arg13
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  main_v58

def fn_part2 {F : FTy → Type} [FloatOps F] (main_arg9 : FVec F S128 .f32) (main_arg10 : FVec F S896x128 .f32) (main_arg11 : FVec F S128 .f32) (main_arg12 : FVec F S1024x40 .f32) (main_arg13 : FVec F S40 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S896x128 .f32 := Host.absf main_arg10
  let main_cst_14 : FVec F S_ .f32 := constant S_ .f32 0x7F800000#32
  let main_v40 : FVec F S896x128 .f32 := broadcastInDim S896x128 ![] bcast_S_S896x128 main_cst_14
  let main_v41 : IVec S896x128 1 := cmpf .olt main_v39 main_v40
  let main_c_15 : IVec S_ 1 := constantI S_ 1 1#1
  let main_v42 : IVec S_ 1 := (fun x v => Host.reduce IntOp.andi x v reducesTo_S896x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S1024x40 .f32 := Host.absf main_arg12
  let main_cst_18 : FVec F S_ .f32 := constant S_ .f32 0x7F800000#32
  let main_v50 : FVec F S1024x40 .f32 := broadcastInDim S1024x40 ![] bcast_S_S1024x40 main_cst_18
  fn_part3 (F := F) main_arg13 main_v48 main_v49 main_v50

def fn_part1 {F : FTy → Type} [FloatOps F] (main_arg6 : FVec F S640x128 .f32) (main_arg7 : FVec F S128 .f32) (main_arg8 : FVec F S768x128 .f32) (main_arg9 : FVec F S128 .f32) (main_arg10 : FVec F S896x128 .f32) (main_arg11 : FVec F S128 .f32) (main_arg12 : FVec F S1024x40 .f32) (main_arg13 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S640x128 .f32 := Host.absf main_arg6
  let main_cst_6 : FVec F S_ .f32 := constant S_ .f32 0x7F800000#32
  let main_v20 : FVec F S640x128 .f32 := broadcastInDim S640x128 ![] bcast_S_S640x128 main_cst_6
  let main_v21 : IVec S640x128 1 := cmpf .olt main_v19 main_v20
  let main_c_7 : IVec S_ 1 := constantI S_ 1 1#1
  let main_v22 : IVec S_ 1 := (fun x v => Host.reduce IntOp.andi x v reducesTo_S640x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S768x128 .f32 := Host.absf main_arg8
  let main_cst_10 : FVec F S_ .f32 := constant S_ .f32 0x7F800000#32
  let main_v30 : FVec F S768x128 .f32 := broadcastInDim S768x128 ![] bcast_S_S768x128 main_cst_10
  let main_v31 : IVec S768x128 1 := cmpf .olt main_v29 main_v30
  let main_c_11 : IVec S_ 1 := constantI S_ 1 1#1
  let main_v32 : IVec S_ 1 := (fun x v => Host.reduce IntOp.andi x v reducesTo_S768x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x512 .f32) (main_arg1 : IVec S800000 32) (main_arg2 : IVec S800000 32) (main_arg3 : FVec F S800000 .f32) (main_arg4 : FVec F S512x128 .f32) (main_arg5 : FVec F S128 .f32) (main_arg6 : FVec F S640x128 .f32) (main_arg7 : FVec F S128 .f32) (main_arg8 : FVec F S768x128 .f32) (main_arg9 : FVec F S128 .f32) (main_arg10 : FVec F S896x128 .f32) (main_arg11 : FVec F S128 .f32) (main_arg12 : FVec F S1024x40 .f32) (main_arg13 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S50000x512 : Shape := ⟨2, ![50000, 512]⟩
abbrev S800000 : Shape := ⟨1, ![800000]⟩
abbrev S512x128 : Shape := ⟨2, ![512, 128]⟩
abbrev S128 : Shape := ⟨1, ![128]⟩
abbrev S640x128 : Shape := ⟨2, ![640, 128]⟩
abbrev S768x128 : Shape := ⟨2, ![768, 128]⟩
abbrev S896x128 : Shape := ⟨2, ![896, 128]⟩
abbrev S1024x40 : Shape := ⟨2, ![1024, 40]⟩
abbrev S40 : Shape := ⟨1, ![40]⟩
abbrev S50000x128 : Shape := ⟨2, ![50000, 128]⟩
abbrev S2000x512 : Shape := ⟨2, ![2000, 512]⟩
abbrev S2000x128 : Shape := ⟨2, ![2000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S128x128 : Shape := ⟨2, ![128, 128]⟩
abbrev S512x40 : Shape := ⟨2, ![512, 40]⟩
abbrev S128x40 : Shape := ⟨2, ![128, 40]⟩
abbrev S50000x40 : Shape := ⟨2, ![50000, 40]⟩
abbrev S2000x40 : Shape := ⟨2, ![2000, 40]⟩
abbrev S800000x40 : Shape := ⟨2, ![800000, 40]⟩
abbrev S1x40 : Shape := ⟨2, ![1, 40]⟩

abbrev nBuf : Space → Nat
  | .hbm => 140
  | .vmem => 55
  | .smem => 0
  | _ => 0

abbrev hbmTy0_0 (i : Nat) : BufTy := match i % 128 with
  | 0 => ⟨S50000x512, .f32⟩
  | 1 => ⟨S800000, .i32⟩
  | 2 => ⟨S800000, .i32⟩
  | 3 => ⟨S800000, .f32⟩
  | 4 => ⟨S512x128, .f32⟩
  | 5 => ⟨S128, .f32⟩
  | 6 => ⟨S640x128, .f32⟩
  | 7 => ⟨S128, .f32⟩
  | 8 => ⟨S768x128, .f32⟩
  | 9 => ⟨S128, .f32⟩
  | 10 => ⟨S896x128, .f32⟩
  | 11 => ⟨S128, .f32⟩
  | 12 => ⟨S1024x40, .f32⟩
  | 13 => ⟨S40, .f32⟩
  | 14 => ⟨S50000x128, .f32⟩
  | 15 => ⟨S800000x1, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S800000x128, .f32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S1x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S512x128, .f32⟩
  | 38 => ⟨S128x128, .f32⟩
  | 39 => ⟨S50000x128, .f32⟩
  | 40 => ⟨S800000x1, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S800000x128, .f32⟩
  | 51 => ⟨S800000x128, .f32⟩
  | 52 => ⟨S_, .f32⟩
  | 53 => ⟨S50000x128, .f32⟩
  | 54 => ⟨S800000x1, .i32⟩
  | 55 => ⟨S50000x128, .f32⟩
  | 56 => ⟨S1x128, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S512x128, .f32⟩
  | 63 => ⟨S128x128, .f32⟩
  | 64 => ⟨S128x128, .f32⟩
  | 65 => ⟨S50000x128, .f32⟩
  | 66 => ⟨S800000x1, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x128, .f32⟩
  | 76 => ⟨S800000x128, .f32⟩
  | 77 => ⟨S800000x128, .f32⟩
  | 78 => ⟨S_, .f32⟩
  | 79 => ⟨S50000x128, .f32⟩
  | 80 => ⟨S800000x1, .i32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S512x128, .f32⟩
  | 89 => ⟨S128x128, .f32⟩
  | 90 => ⟨S128x128, .f32⟩
  | 91 => ⟨S128x128, .f32⟩
  | 92 => ⟨S50000x128, .f32⟩
  | 93 => ⟨S800000x1, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S800000x128, .f32⟩
  | 104 => ⟨S800000x128, .f32⟩
  | 105 => ⟨S_, .f32⟩
  | 106 => ⟨S50000x128, .f32⟩
  | 107 => ⟨S800000x1, .i32⟩
  | 108 => ⟨S50000x128, .f32⟩
  | 109 => ⟨S1x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S512x40, .f32⟩
  | 116 => ⟨S128x40, .f32⟩
  | 117 => ⟨S128x40, .f32⟩
  | 118 => ⟨S128x40, .f32⟩
  | 119 => ⟨S128x40, .f32⟩
  | 120 => ⟨S50000x40, .f32⟩
  | 121 => ⟨S800000x1, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x512, .f32⟩

abbrev hbmTy0_1 (i : Nat) : BufTy := match i % 128 with
  | 0 => ⟨S800000, .i32⟩
  | 1 => ⟨S800000x1, .i32⟩
  | 2 => ⟨S800000x40, .f32⟩
  | 3 => ⟨S800000x40, .f32⟩
  | 4 => ⟨S800000x40, .f32⟩
  | 5 => ⟨S_, .f32⟩
  | 6 => ⟨S50000x40, .f32⟩
  | 7 => ⟨S800000x1, .i32⟩
  | 8 => ⟨S50000x40, .f32⟩
  | 9 => ⟨S1x40, .f32⟩
  | 10 => ⟨S50000x40, .f32⟩
  | 11 => ⟨S50000x40, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x512, .f32⟩
  | .local _ .vmem, ⟨6, _⟩ => ⟨S2000x512, .f32⟩
  | .local _ .vmem, ⟨7, _⟩ => ⟨S2000x128, .f32⟩
  | .local _ .vmem, ⟨8, _⟩ => ⟨S2000x128, .f32⟩
  | .local _ .vmem, ⟨9, _⟩ => ⟨S512x128, .f32⟩
  | .local _ .vmem, ⟨10, _⟩ => ⟨S128x128, .f32⟩
  | .local _ .vmem, ⟨11, _⟩ => ⟨S2000x128, .f32⟩
  | .local _ .vmem, ⟨12, _⟩ => ⟨S2000x128, .f32⟩
  | .local _ .vmem, ⟨13, _⟩ => ⟨S2000x512, .f32⟩
  | .local _ .vmem, ⟨14, _⟩ => ⟨S2000x512, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S512x128, .f32⟩
  | .local _ .vmem, ⟨20, _⟩ => ⟨S128x128, .f32⟩
  | .local _ .vmem, ⟨21, _⟩ => ⟨S128x128, .f32⟩
  | .local _ .vmem, ⟨22, _⟩ => ⟨S2000x128, .f32⟩
  | .local _ .vmem, ⟨23, _⟩ => ⟨S2000x128, .f32⟩
  | .local _ .vmem, ⟨24, _⟩ => ⟨S2000x512, .f32⟩
  | .local _ .vmem, ⟨25, _⟩ => ⟨S2000x512, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S512x128, .f32⟩
  | .local _ .vmem, ⟨33, _⟩ => ⟨S128x128, .f32⟩
  | .local _ .vmem, ⟨34, _⟩ => ⟨S128x128, .f32⟩
  | .local _ .vmem, ⟨35, _⟩ => ⟨S128x128, .f32⟩
  | .local _ .vmem, ⟨36, _⟩ => ⟨S2000x128, .f32⟩
  | .local _ .vmem, ⟨37, _⟩ => ⟨S2000x128, .f32⟩
  | .local _ .vmem, ⟨38, _⟩ => ⟨S2000x512, .f32⟩
  | .local _ .vmem, ⟨39, _⟩ => ⟨S2000x512, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S512x40, .f32⟩
  | .local _ .vmem, ⟨49, _⟩ => ⟨S128x40, .f32⟩
  | .local _ .vmem, ⟨50, _⟩ => ⟨S128x40, .f32⟩
  | .local _ .vmem, ⟨51, _⟩ => ⟨S128x40, .f32⟩
  | .local _ .vmem, ⟨52, _⟩ => ⟨S128x40, .f32⟩
  | .local _ .vmem, ⟨53, _⟩ => ⟨S2000x40, .f32⟩
  | .local _ .vmem, ⟨54, _⟩ => ⟨S2000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call0_cst : Ref sig .tc := ⟨.hbm, 34, rfl⟩
abbrev main_call0_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_1 : Ref sig .tc := ⟨.hbm, 41, rfl⟩
abbrev main_v22 : Ref sig .tc := ⟨.hbm, 42, rfl⟩
abbrev main_v23 : Ref sig .tc := ⟨.hbm, 43, rfl⟩
abbrev main_c_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call1_cst : Ref sig .tc := ⟨.hbm, 59, rfl⟩
abbrev main_call1_v0 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_4 : Ref sig .tc := ⟨.hbm, 67, rfl⟩
abbrev main_v43 : Ref sig .tc := ⟨.hbm, 68, rfl⟩
abbrev main_v44 : Ref sig .tc := ⟨.hbm, 69, rfl⟩
abbrev main_c_5 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_6 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call2_cst : Ref sig .tc := ⟨.hbm, 85, rfl⟩
abbrev main_call2_v0 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_7 : Ref sig .tc := ⟨.hbm, 94, rfl⟩
abbrev main_v65 : Ref sig .tc := ⟨.hbm, 95, rfl⟩
abbrev main_v66 : Ref sig .tc := ⟨.hbm, 96, rfl⟩
abbrev main_c_8 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_9 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_call3_cst : Ref sig .tc := ⟨.hbm, 112, rfl⟩
abbrev main_call3_v0 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_10 : Ref sig .tc := ⟨.hbm, 122, rfl⟩
abbrev main_v88 : Ref sig .tc := ⟨.hbm, 123, rfl⟩
abbrev main_v89 : Ref sig .tc := ⟨.hbm, 124, rfl⟩
abbrev main_c_11 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_12 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg8_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg3_1 : Ref sig .tc := ⟨.vmem, 45, rfl⟩
abbrev cc4_stg4_0 : Ref sig .tc := ⟨.vmem, 46, rfl⟩
abbrev cc4_stg4_1 : Ref sig .tc := ⟨.vmem, 47, rfl⟩
abbrev cc4_stg5_0 : Ref sig .tc := ⟨.vmem, 48, rfl⟩
abbrev cc4_stg6_0 : Ref sig .tc := ⟨.vmem, 49, rfl⟩
abbrev cc4_stg7_0 : Ref sig .tc := ⟨.vmem, 50, rfl⟩
abbrev cc4_stg8_0 : Ref sig .tc := ⟨.vmem, 51, rfl⟩
abbrev cc4_stg9_0 : Ref sig .tc := ⟨.vmem, 52, rfl⟩
abbrev cc4_stg10_0 : Ref sig .tc := ⟨.vmem, 53, rfl⟩
abbrev cc4_stg10_1 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem8_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem3_1 : DmaSem sig := 45
abbrev cc4_sem4_0 : DmaSem sig := 46
abbrev cc4_sem4_1 : DmaSem sig := 47
abbrev cc4_sem5_0 : DmaSem sig := 48
abbrev cc4_sem6_0 : DmaSem sig := 49
abbrev cc4_sem7_0 : DmaSem sig := 50
abbrev cc4_sem8_0 : DmaSem sig := 51
abbrev cc4_sem9_0 : DmaSem sig := 52
abbrev cc4_sem10_0 : DmaSem sig := 53
abbrev cc4_sem10_1 : DmaSem sig := 54

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S512x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S512x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S512x40 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x40 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x40 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128x40 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S128x40 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 2 → Memref sig .tc .vmem S2000x40 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S640x128_S512x128_0_0 : S640x128.Slices ![0, 0] S512x128
  slices_S640x128_S128x128_512_0 : S640x128.Slices ![512, 0] S128x128
  shapeCasts_S512x128_S512x128 : S512x128.ShapeCasts S512x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S768x128_S512x128_0_0 : S768x128.Slices ![0, 0] S512x128
  slices_S768x128_S128x128_512_0 : S768x128.Slices ![512, 0] S128x128
  slices_S768x128_S128x128_640_0 : S768x128.Slices ![640, 0] S128x128
  slices_S896x128_S512x128_0_0 : S896x128.Slices ![0, 0] S512x128
  slices_S896x128_S128x128_512_0 : S896x128.Slices ![512, 0] S128x128
  slices_S896x128_S128x128_640_0 : S896x128.Slices ![640, 0] S128x128
  slices_S896x128_S128x128_768_0 : S896x128.Slices ![768, 0] S128x128
  slices_S1024x40_S512x40_0_0 : S1024x40.Slices ![0, 0] S512x40
  slices_S1024x40_S128x40_512_0 : S1024x40.Slices ![512, 0] S128x40
  slices_S1024x40_S128x40_640_0 : S1024x40.Slices ![640, 0] S128x40
  slices_S1024x40_S128x40_768_0 : S1024x40.Slices ![768, 0] S128x40
  slices_S1024x40_S128x40_896_0 : S1024x40.Slices ![896, 0] S128x40
  inb_S512x40_S512x40_0_0 : ∀ a, (![0, 0] : Fin 2 → Nat) a + S512x40.size a ≤ S512x40.size a
  h_S512x40 : 0 < S512x40.numel
  shapeCasts_S512x40_S512x40 : S512x40.ShapeCasts S512x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S2000x40_S2000x40_0_0 : ∀ a, (![0, 0] : Fin 2 → Nat) a + S2000x40.size a ≤ S2000x40.size a
  h_S2000x40 : 0 < S2000x40.numel
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S2000x512_S512x128_S2000x128_1_0_0_1_n_n_wf : DotDims.WF S2000x512 S512x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x512_S512x40_S2000x40_1_0_0_1_n_n_wf : DotDims.WF S2000x512 S512x40 S2000x40 [1] [0] [0] [1] [] []
  dot_S2000x128_S128x40_S2000x40_1_0_0_1_n_n_wf : DotDims.WF S2000x128 S128x40 S2000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S512x128.size a
  hwx1_2 : ∀ i : grid1.Coords, EltTy.bits .f32 = 32 ∨ (Rect.block (s := S512x128) S512x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x512.size a
  hwx2_0 : ∀ i : grid2.Coords, EltTy.bits .f32 = 32 ∨ (Rect.block (s := S50000x512) S2000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S512x128.size a
  hwx2_3 : ∀ i : grid2.Coords, EltTy.bits .f32 = 32 ∨ (Rect.block (s := S512x128) S512x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S50000x512.size a
  hwx3_0 : ∀ i : grid3.Coords, EltTy.bits .f32 = 32 ∨ (Rect.block (s := S50000x512) S2000x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x128.size a ≤ S512x128.size a
  hwx3_4 : ∀ i : grid3.Coords, EltTy.bits .f32 = 32 ∨ (Rect.block (s := S512x128) S512x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x128.size a ≤ S50000x128.size a
  hwx3_8 : ∀ i : grid3.Coords, EltTy.bits .f32 = 32 ∨ (Rect.block (s := S50000x128) S2000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x512.size a ≤ S50000x512.size a
  hwx4_0 : ∀ i : grid4.Coords, EltTy.bits .f32 = 32 ∨ (Rect.block (s := S50000x512) S2000x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S50000x128.size a
  hwx4_4 : ∀ i : grid4.Coords, EltTy.bits .f32 = 32 ∨ (Rect.block (s := S50000x128) S2000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x40.size a ≤ S512x40.size a
  hwx4_5 : ∀ i : grid4.Coords, EltTy.bits .f32 = 32 ∨ (Rect.block (s := S512x40) S512x40.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x40.size a ≤ S128x40.size a
  hwx4_6 : ∀ i : grid4.Coords, EltTy.bits .f32 = 32 ∨ (Rect.block (s := S128x40) S128x40.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x40.size a ≤ S128x40.size a
  hwx4_7 : ∀ i : grid4.Coords, EltTy.bits .f32 = 32 ∨ (Rect.block (s := S128x40) S128x40.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128x40.size a ≤ S128x40.size a
  hwx4_8 : ∀ i : grid4.Coords, EltTy.bits .f32 = 32 ∨ (Rect.block (s := S128x40) S128x40.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S128x40.size a ≤ S128x40.size a
  hwx4_9 : ∀ i : grid4.Coords, EltTy.bits .f32 = 32 ∨ (Rect.block (s := S128x40) S128x40.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S2000x40.size a ≤ S50000x40.size a
  hwx4_10 : ∀ i : grid4.Coords, EltTy.bits .f32 = 32 ∨ (Rect.block (s := S50000x40) S2000x40.size (cc4_transform_10 i) (hinb4_10 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x512_S512x40_S2000x40_1_0_0_1_n_n : DotDims S2000x512 S512x40 S2000x40 where
  lhsContracting := [1]
  rhsContracting := [0]
  lhsNonContracting := [0]
  rhsNonContracting := [1]
  lhsBatch := []
  rhsBatch := []
  wf := dot_S2000x512_S512x40_S2000x40_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S512x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S512x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg0) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S2000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v59) S512x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v61) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v62) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v63) S2000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_arg0) S2000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v17) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v37) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v58) S2000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v80) S2000x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v81) S512x40.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v82) S128x40.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v83) S128x40.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v84) S128x40.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v85) S128x40.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v86) S2000x40.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

class Facts : Prop extends Facts₀ where

variable [Facts]
-- ==== ReferenceIdeal.lean ====
abbrev S50000x512 : Shape := ⟨2, ![50000, 512]⟩
abbrev S800000 : Shape := ⟨1, ![800000]⟩
abbrev S512x128 : Shape := ⟨2, ![512, 128]⟩
abbrev S128 : Shape := ⟨1, ![128]⟩
abbrev S640x128 : Shape := ⟨2, ![640, 128]⟩
abbrev S768x128 : Shape := ⟨2, ![768, 128]⟩
abbrev S896x128 : Shape := ⟨2, ![896, 128]⟩
abbrev S1024x40 : Shape := ⟨2, ![1024, 40]⟩
abbrev S40 : Shape := ⟨1, ![40]⟩
abbrev S50000x128 : Shape := ⟨2, ![50000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S50000x640 : Shape := ⟨2, ![50000, 640]⟩
abbrev S50000x768 : Shape := ⟨2, ![50000, 768]⟩
abbrev S50000x896 : Shape := ⟨2, ![50000, 896]⟩
abbrev S50000x1024 : Shape := ⟨2, ![50000, 1024]⟩
abbrev S50000x40 : Shape := ⟨2, ![50000, 40]⟩
abbrev S800000x40 : Shape := ⟨2, ![800000, 40]⟩
abbrev S1x40 : Shape := ⟨2, ![1, 40]⟩

abbrev nBuf : Space → Nat
  | .hbm => 130
  | .vmem => 0
  | .smem => 0
  | _ => 0

abbrev hbmTy0_0 (i : Nat) : BufTy := match i % 128 with
  | 0 => ⟨S50000x512, .f32⟩
  | 1 => ⟨S800000, .i32⟩
  | 2 => ⟨S800000, .i32⟩
  | 3 => ⟨S800000, .f32⟩
  | 4 => ⟨S512x128, .f32⟩
  | 5 => ⟨S128, .f32⟩
  | 6 => ⟨S640x128, .f32⟩
  | 7 => ⟨S128, .f32⟩
  | 8 => ⟨S768x128, .f32⟩
  | 9 => ⟨S128, .f32⟩
  | 10 => ⟨S896x128, .f32⟩
  | 11 => ⟨S128, .f32⟩
  | 12 => ⟨S1024x40, .f32⟩
  | 13 => ⟨S40, .f32⟩
  | 14 => ⟨S50000x128, .f32⟩
  | 15 => ⟨S800000x1, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S800000x128, .f32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S1x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S50000x640, .f32⟩
  | 38 => ⟨S50000x128, .f32⟩
  | 39 => ⟨S800000x1, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S800000x128, .f32⟩
  | 50 => ⟨S800000x128, .f32⟩
  | 51 => ⟨S_, .f32⟩
  | 52 => ⟨S50000x128, .f32⟩
  | 53 => ⟨S800000x1, .i32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S50000x768, .f32⟩
  | 62 => ⟨S50000x128, .f32⟩
  | 63 => ⟨S800000x1, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .f32⟩
  | 73 => ⟨S800000x128, .f32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S50000x896, .f32⟩
  | 86 => ⟨S50000x128, .f32⟩
  | 87 => ⟨S800000x1, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S800000x128, .f32⟩
  | 98 => ⟨S800000x128, .f32⟩
  | 99 => ⟨S_, .f32⟩
  | 100 => ⟨S50000x128, .f32⟩
  | 101 => ⟨S800000x1, .i32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S50000x1024, .f32⟩
  | 110 => ⟨S50000x40, .f32⟩
  | 111 => ⟨S800000x1, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x40, .f32⟩
  | 121 => ⟨S800000x40, .f32⟩
  | 122 => ⟨S800000x40, .f32⟩
  | 123 => ⟨S_, .f32⟩
  | 124 => ⟨S50000x40, .f32⟩
  | 125 => ⟨S800000x1, .i32⟩
  | 126 => ⟨S50000x40, .f32⟩
  | 127 => ⟨S1x40, .f32⟩
  | _ => ⟨S50000x512, .f32⟩

abbrev hbmTy0_1 (i : Nat) : BufTy := match i % 128 with
  | 0 => ⟨S50000x40, .f32⟩
  | 1 => ⟨S50000x40, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call0_cst : Ref sig .tc := ⟨.hbm, 34, rfl⟩
abbrev main_call0_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_1 : Ref sig .tc := ⟨.hbm, 40, rfl⟩
abbrev main_v21 : Ref sig .tc := ⟨.hbm, 41, rfl⟩
abbrev main_v22 : Ref sig .tc := ⟨.hbm, 42, rfl⟩
abbrev main_c_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call1_cst : Ref sig .tc := ⟨.hbm, 58, rfl⟩
abbrev main_call1_v0 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_4 : Ref sig .tc := ⟨.hbm, 64, rfl⟩
abbrev main_v40 : Ref sig .tc := ⟨.hbm, 65, rfl⟩
abbrev main_v41 : Ref sig .tc := ⟨.hbm, 66, rfl⟩
abbrev main_c_5 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call2_cst : Ref sig .tc := ⟨.hbm, 82, rfl⟩
abbrev main_call2_v0 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_7 : Ref sig .tc := ⟨.hbm, 88, rfl⟩
abbrev main_v59 : Ref sig .tc := ⟨.hbm, 89, rfl⟩
abbrev main_v60 : Ref sig .tc := ⟨.hbm, 90, rfl⟩
abbrev main_c_8 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_9 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_call3_cst : Ref sig .tc := ⟨.hbm, 106, rfl⟩
abbrev main_call3_v0 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_c_10 : Ref sig .tc := ⟨.hbm, 112, rfl⟩
abbrev main_v78 : Ref sig .tc := ⟨.hbm, 113, rfl⟩
abbrev main_v79 : Ref sig .tc := ⟨.hbm, 114, rfl⟩
abbrev main_c_11 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_12 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x512_S50000x128_S50000x640_d1 : Shape.Concatenates [S50000x512, S50000x128] S50000x640 1
  concatenates_S50000x512_S50000x128_S50000x128_S50000x768_d1 : Shape.Concatenates [S50000x512, S50000x128, S50000x128] S50000x768 1
  concatenates_S50000x512_S50000x128_S50000x128_S50000x128_S50000x896_d1 : Shape.Concatenates [S50000x512, S50000x128, S50000x128, S50000x128] S50000x896 1
  concatenates_S50000x512_S50000x128_S50000x128_S50000x128_S50000x128_S50000x1024_d1 : Shape.Concatenates [S50000x512, S50000x128, S50000x128, S50000x128, S50000x128] S50000x1024 1
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x512_S512x128_S50000x128_1_0_0_1_n_n_wf : DotDims.WF S50000x512 S512x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x640_S640x128_S50000x128_1_0_0_1_n_n_wf : DotDims.WF S50000x640 S640x128 S50000x128 [1] [0] [0] [1] [] []
  dot_S50000x768_S768x128_S50000x128_1_0_0_1_n_n_wf : DotDims.WF S50000x768 S768x128 S50000x128 [1] [0] [0] [1] [] []
  dot_S50000x896_S896x128_S50000x128_1_0_0_1_n_n_wf : DotDims.WF S50000x896 S896x128 S50000x128 [1] [0] [0] [1] [] []
  dot_S50000x1024_S1024x40_S50000x40_1_0_0_1_n_n_wf : DotDims.WF S50000x1024 S1024x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x640_S640x128_S50000x128_1_0_0_1_n_n : DotDims S50000x640 S640x128 S50000x128 where
  lhsContracting := [1]
  rhsContracting := [0]
  lhsNonContracting := [0]
  rhsNonContracting := [1]
  lhsBatch := []
  rhsBatch := []
  wf := dot_S50000x640_S640x128_S50000x128_1_0_0_1_n_n_wf
def dot_S50000x768_S768x128_S50000x128_1_0_0_1_n_n : DotDims S50000x768 S768x128 S50000x128 where
  lhsContracting := [1]
  rhsContracting := [0]
  lhsNonContracting := [0]
  rhsNonContracting := [1]
  lhsBatch := []
  rhsBatch := []
  wf := dot_S50000x768_S768x128_S50000x128_1_0_0_1_n_n_wf
def dot_S50000x896_S896x128_S50000x128_1_0_0_1_n_n : DotDims S50000x896 S896x128 S50000x128 where
  lhsContracting := [1]
  rhsContracting := [0]
  lhsNonContracting := [0]
  rhsNonContracting := [1]
  lhsBatch := []
  rhsBatch := []
  wf := dot_S50000x896_S896x128_S50000x128_1_0_0_1_n_n_wf
def dot_S50000x1024_S1024x40_S50000x40_1_0_0_1_n_n : DotDims S50000x1024 S1024x40 S50000x40 where
  lhsContracting := [1]
  rhsContracting := [0]
  lhsNonContracting := [0]
  rhsNonContracting := [1]
  lhsBatch := []
  rhsBatch := []
  wf := dot_S50000x1024_S1024x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.RunLast.lean ====
/-
  The kernel's run, with the result buffer named.

  Every weakly fair execution of the program ends, nothing faulting, with every buffer that outlives the regions at the
  contents of the last boundary; read at the result buffer this names the result, beside the arguments as launched.
-/
import proofs.«114441_j62878321213489_1_alg».proof.Proof.Gen.KernelIdeal.Frame

set_option maxRecDepth 16384

noncomputable section

namespace Cert.KernelIdeal.Layers

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, read at the result buffer and at the arguments. -/
theorem run_last : θ_run defs (onTc (τ := τ) (main (F := F))) ⟨m, fun _ => 0, ρ⟩ (fun r => ∀ c : Dev nD,
      r.2.mem ((c.tc : Thread nD τ).loc main_v102) = W18 m ρ c (Proc.devRef .tc main_v102)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v102 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c)⟩)

end Cert.KernelIdeal.Layers

end
-- ==== Proof.LibPartialProducts.lean ====
/-
  A matrix laid side by side from blocks, multiplied into a weight matrix, entry by entry.

  Let the blocks `X₀ : [n, k₀]`, `X₁ : [n, k₁]`, … stand side by side as one `[n, k₀ + k₁ + …]` matrix, and let
  `W : [k₀ + k₁ + …, d]` be a weight matrix.  Entry `(p, q)` of the product is the sum over all columns; cutting that sum
  where the blocks meet gives one term per block: row `p` of block `i` against the rows `oᵢ, oᵢ + 1, …` of column `q` of
  `W`, where `oᵢ` is the number of columns before block `i`.  Such a term is a `band` here.  Only commutativity and
  associativity of the sum are used, so everything holds on the extended reals with no finiteness assumption.
-/
import Idealize.ShloMosaic.Lib.Pipeline.Value
import Idealize.ShloMosaic.Lib.ValueIdx
import Idealize.ShloMosaic.PureOps.Ideal.Laws

noncomputable section

namespace Cert.Snowball

open Idealize.ShloMosaic Idealize.ShloMosaic.ValueIdx

/-- A function of a row and a column as an array of shape `[n, d]`. -/
def arr2 {n d : ℕ} (f : Fin n → Fin d → EReal) : (⟨2, ![n, d]⟩ : Shape).Idx → EReal := fun j => f (j 0) (j 1)

theorem arr2_ix2 {n d : ℕ} (f : Fin n → Fin d → EReal) (p : Fin n) (q : Fin d) : arr2 f (ix2 p q) = f p q := rfl

/-- Row `p` of an `[n, k]` block against rows `o, …, o + k - 1` of column `q` of a `[K, d]` weight matrix. -/
def band {n k K d : ℕ} (X : (⟨2, ![n, k]⟩ : Shape).Idx → EReal) (W : (⟨2, ![K, d]⟩ : Shape).Idx → EReal)
    (o : ℕ) (ho : o + k ≤ K) (p : Fin n) (q : Fin d) : EReal :=
  ∑ c : Fin k, X (ix2 p c) * W (ix2 (⟨o + c.val, by have := c.isLt; omega⟩ : Fin K) q)

/-- A band read through the weights' rows `o, …, o + k - 1` cut out as a `[k, d]` matrix of their own. -/
theorem band_of_slice {n k K d : ℕ} (X : (⟨2, ![n, k]⟩ : Shape).Idx → EReal) (W : (⟨2, ![K, d]⟩ : Shape).Idx → EReal)
    (o : ℕ) (ho : o + k ≤ K) (hs : (⟨2, ![K, d]⟩ : Shape).Slices ![o, 0] ⟨2, ![k, d]⟩) (p : Fin n) (q : Fin d) :
    ∑ c : Fin k, X (ix2 p c) * extractStridedSlice ⟨2, ![k, d]⟩ ![o, 0] W hs (ix2 c q) = band X W o ho p q := by
  unfold band
  refine Finset.sum_congr rfl fun c _ => ?_
  congr 1
  refine extractStridedSlice_apply _ W hs (ix2 c q) _ fun a => ?_
  match a with
  | ⟨0, _⟩ => rfl
  | ⟨1, _⟩ => exact (Nat.zero_add _).symm

/-- The offsets of a block read or written whole. -/
theorem hz : (![0, 0] : Fin 2 → Nat) = fun _ => 0 := funext fun a => by fin_cases a <;> rfl

/-- A sum over `a + b` consecutive positions is the sum over the first `a` plus the sum over the next `b`. -/
theorem sum_cut {a b : ℕ} (f : Fin (a + b) → EReal) :
    ∑ k, f k = ∑ c : Fin a, f ⟨c.val, by have := c.isLt; omega⟩ + ∑ c : Fin b, f ⟨a + c.val, by have := c.isLt; omega⟩ :=
  Fin.sum_univ_add f

end Cert.Snowball

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.Region0.lean ====
/-
  Region 0 of the kernel: what it leaves in its output array.

  At grid point `t` the body multiplies rows `2000 t, …, 2000 t + 1999` of the features into
  its weight matrix; the 25 points' row blocks tile the 50000 rows.
-/
import proofs.«114441_j62878321213489_1_alg».proof.Proof.Gen.KernelIdeal.Frame
import proofs.«114441_j62878321213489_1_alg».proof.Proof.LibPartialProducts
import proofs.«114441_j62878321213489_1_alg».proof.Proof.LibPlainProduct
import Idealize.ShloMosaic.Lib.Pipeline.Value
import Idealize.ShloMosaic.Lib.ValueIdx

set_option maxRecDepth 16384

noncomputable section

namespace Cert.KernelIdeal.Layers

open Cert.KernelIdeal Cert.KernelIdeal.Gen Idealize.ShloMosaic Idealize.ShloMosaic.ValueIdx Cert.Snowball
open Idealize.ShloMosaic.TcCoe Idealize.SL.Sem
open Idealize.ShloMosaic.Pipeline (Dat Cfg Window)

/-- Entry `(p, q)` of the body's result: the product's entry. -/
theorem pay0_apply (x0 : Vec Ideal S2000x512 .f32) (w0 : Vec Ideal S512x128 .f32) (p : Fin 2000) (q : Fin 128) :
    k0_pay1 (F := Ideal) x0 w0 (ix2 p q)
      = ∑ c : Fin 512, x0 (ix2 p c) * w0 (ix2 c q) := by
  unfold k0_pay1
  exact (Cert.PlainProduct.matmul_nn_apply dot_S2000x512_S512x128_S2000x128_1_0_0_1_n_n.wf none _ _ p q)

/-- The product's entries, over all 50000 rows: what region 0 computes, as one array. -/
def lin0 (X0 : S50000x512.Idx → EReal) (W0 : S512x128.Idx → EReal) :
    S50000x128.Idx → EReal :=
  arr2 fun p q => ∑ c : Fin 512, X0 (ix2 p c) * W0 (ix2 c q)

/-- Grid point `t` reads row block `t` of each feature block and the whole of each weight matrix, and writes row
    block `t` of the result. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

variable (V : (c : Dev nD) → (b : Ref sig .tc) → Buf (Elt Ideal) ((c : Thread nD τ).loc b))

set_option maxHeartbeats 2000000 in
/-- What grid point `t` writes back is row block `t` of `lin0` of the arrays as the region finds them. -/
theorem flushed0 (c : Dev nD) (t : Fin cfg0.N) :
    (dat0 V c).flushed 2 t = ((cfg0.win 2).blk t).view.read (Elt Ideal)
      (lin0 (V c main_arg0) (V c main_arg4)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x128) hz]
  obtain ⟨e0r, e0c, e1r, e1c, e2r, e2c⟩ := idx0 t
  funext j
  obtain ⟨p, q, rfl⟩ : ∃ (p : Fin 2000) (q : Fin 128), j = ix2 p q := ⟨j 0, j 1, eq_ix2 j⟩
  refine (pay0_apply (iblk0 V c 0 t) (iblk0 V c 1 t) p q).trans ?_
  show _ = lin0 (V c main_arg0) (V c main_arg4) (((cfg0.win 2).blk t).view.emb (ix2 p q))
  unfold lin0 arr2
  refine Finset.sum_congr rfl fun k _ => congrArg₂ (· * ·) ?_ ?_
  · show V c main_arg0 (((cfg0.win 0).blk t).view.emb (ix2 p k)) = V c main_arg0 _
    refine congrArg (V c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  · show V c main_arg4 (((cfg0.win 1).blk t).view.emb (ix2 k q)) = V c main_arg4 _
    refine congrArg (V c main_arg4) (funext fun a => Fin.ext ?_)
    match a with
    | ⟨0, _⟩ => show win0_1.index t (0 : Fin 2) * 512 + 1 * k.val = k.val; omega
    | ⟨1, _⟩ => show win0_1.index t (1 : Fin 2) * 128 + 1 * q.val = win0_2.index t (1 : Fin 2) * 128 + 1 * q.val; omega

/-- An index lies in point `t`'s output block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v0).slice (win0_2.rect t)).set ↔ _
  rw [View.set_slice_whole, Rect.mem_set_unit]
  exact Iff.rfl

/-- Row `r` lies in the block of point `r / 2000`: the 25 row blocks tile the array. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 2000 < cfg0.N := by show _ < 25; omega
  obtain ⟨-, -, -, -, eor, eoc⟩ := idx0 ⟨(i 0).val / 2000, ht⟩
  refine ⟨⟨(i 0).val / 2000, ht⟩, flush0_2 _, ?_⟩
  rw [mem_blk0]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [eor]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    rw [eoc]; omega

/-- Region 0 leaves `lin0` of the arrays it found in its output array. -/
theorem final0 (c : Dev nD) :
    (dat0 V c).arrAt 2 cfg0.N = lin0 (V c main_arg0) (V c main_arg4) :=
  (dat0 V c).arrAt_eq_of_cover 2 _ (fun t _ => flushed0 V c t) cover0

end Cert.KernelIdeal.Layers

end
-- ==== Proof.Region1.lean ====
/-
  Region 1 of the kernel: what it leaves in its output array.

  At grid point `t` the body multiplies rows `2000 t, …, 2000 t + 1999` of the features and of the first hidden block into
  their weight matrices and adds the products, left to right; the 25 points' row blocks tile the 50000 rows.
-/
import proofs.«114441_j62878321213489_1_alg».proof.Proof.Gen.KernelIdeal.Frame
import proofs.«114441_j62878321213489_1_alg».proof.Proof.LibPartialProducts
import proofs.«114441_j62878321213489_1_alg».proof.Proof.LibPlainProduct
import Idealize.ShloMosaic.Lib.Pipeline.Value
import Idealize.ShloMosaic.Lib.ValueIdx

set_option maxRecDepth 16384

noncomputable section

namespace Cert.KernelIdeal.Layers

open Cert.KernelIdeal Cert.KernelIdeal.Gen Idealize.ShloMosaic Idealize.ShloMosaic.ValueIdx Cert.Snowball
open Idealize.ShloMosaic.TcCoe Idealize.SL.Sem
open Idealize.ShloMosaic.Pipeline (Dat Cfg Window)

/-- Entry `(p, q)` of the body's result: the products' entries added. -/
theorem pay1_apply (x0 : Vec Ideal S2000x512 .f32) (w0 : Vec Ideal S512x128 .f32) (x1 : Vec Ideal S2000x128 .f32) (w1 : Vec Ideal S128x128 .f32) (p : Fin 2000) (q : Fin 128) :
    k1_pay1 (F := Ideal) x0 w0 x1 w1 (ix2 p q)
      = (∑ c : Fin 512, x0 (ix2 p c) * w0 (ix2 c q)) + ∑ c : Fin 128, x1 (ix2 p c) * w1 (ix2 c q) := by
  unfold k1_pay1
  simp only [shapeCast_self]
  refine (congrArg₂ (· + ·) (Cert.PlainProduct.matmul_nn_apply dot_S2000x512_S512x128_S2000x128_1_0_0_1_n_n.wf none _ _ p q) (Cert.PlainProduct.matmul_nn_apply dot_S2000x128_S128x128_S2000x128_1_0_0_1_n_n.wf none _ _ p q)).trans ?_
  rfl

/-- The products' entries added, over all 50000 rows: what region 1 computes, as one array. -/
def lin1 (X0 : S50000x512.Idx → EReal) (X1 : S50000x128.Idx → EReal) (W0 : S512x128.Idx → EReal) (W1 : S128x128.Idx → EReal) :
    S50000x128.Idx → EReal :=
  arr2 fun p q => (∑ c : Fin 512, X0 (ix2 p c) * W0 (ix2 c q)) + ∑ c : Fin 128, X1 (ix2 p c) * W1 (ix2 c q)

/-- Grid point `t` reads row block `t` of each feature block and the whole of each weight matrix, and writes row
    block `t` of the result. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

variable (V : (c : Dev nD) → (b : Ref sig .tc) → Buf (Elt Ideal) ((c : Thread nD τ).loc b))

set_option maxHeartbeats 2000000 in
/-- What grid point `t` writes back is row block `t` of `lin1` of the arrays as the region finds them. -/
theorem flushed1 (c : Dev nD) (t : Fin cfg1.N) :
    (dat1 V c).flushed 4 t = ((cfg1.win 4).blk t).view.read (Elt Ideal)
      (lin1 (V c main_arg0) (V c main_v17) (V c main_v18) (V c main_v19)) := by
  show (cfg1.win 4).cut (grid1.coords t) ((dat1 V c).after 4 t) = _
  rw [after1_4]
  unfold out1_4
  rw [View.canon_unit_zero hz]
  simp only [View.ld_unit_zero (S := S2000x512) hz, View.ld_unit_zero (S := S2000x128) hz, View.ld_unit_zero (S := S512x128) hz, View.ld_unit_zero (S := S128x128) hz]
  obtain ⟨e0r, e0c, e1r, e1c, e2r, e2c, e3r, e3c, e4r, e4c⟩ := idx1 t
  funext j
  obtain ⟨p, q, rfl⟩ : ∃ (p : Fin 2000) (q : Fin 128), j = ix2 p q := ⟨j 0, j 1, eq_ix2 j⟩
  refine (pay1_apply (iblk1 V c 0 t) (iblk1 V c 2 t) (iblk1 V c 1 t) (iblk1 V c 3 t) p q).trans ?_
  show _ = lin1 (V c main_arg0) (V c main_v17) (V c main_v18) (V c main_v19) (((cfg1.win 4).blk t).view.emb (ix2 p q))
  unfold lin1 arr2
  refine congrArg₂ (· + ·) (Finset.sum_congr rfl fun k _ => congrArg₂ (· * ·) ?_ ?_) (Finset.sum_congr rfl fun k _ => congrArg₂ (· * ·) ?_ ?_)
  · show V c main_arg0 (((cfg1.win 0).blk t).view.emb (ix2 p k)) = V c main_arg0 _
    refine congrArg (V c main_arg0) (funext fun a => Fin.ext ?_)
    match a with
    | ⟨0, _⟩ => show win1_0.index t (0 : Fin 2) * 2000 + 1 * p.val = win1_4.index t (0 : Fin 2) * 2000 + 1 * p.val; omega
    | ⟨1, _⟩ => show win1_0.index t (1 : Fin 2) * 512 + 1 * k.val = k.val; omega
  · show V c main_v18 (((cfg1.win 2).blk t).view.emb (ix2 k q)) = V c main_v18 _
    refine congrArg (V c main_v18) (funext fun a => Fin.ext ?_)
    match a with
    | ⟨0, _⟩ => show win1_2.index t (0 : Fin 2) * 512 + 1 * k.val = k.val; omega
    | ⟨1, _⟩ => show win1_2.index t (1 : Fin 2) * 128 + 1 * q.val = win1_4.index t (1 : Fin 2) * 128 + 1 * q.val; omega
  · show V c main_v17 (((cfg1.win 1).blk t).view.emb (ix2 p k)) = V c main_v17 _
    refine congrArg (V c main_v17) (funext fun a => Fin.ext ?_)
    match a with
    | ⟨0, _⟩ => show win1_1.index t (0 : Fin 2) * 2000 + 1 * p.val = win1_4.index t (0 : Fin 2) * 2000 + 1 * p.val; omega
    | ⟨1, _⟩ => show win1_1.index t (1 : Fin 2) * 128 + 1 * k.val = k.val; omega
  · show V c main_v19 (((cfg1.win 3).blk t).view.emb (ix2 k q)) = V c main_v19 _
    refine congrArg (V c main_v19) (funext fun a => Fin.ext ?_)
    match a with
    | ⟨0, _⟩ => show win1_3.index t (0 : Fin 2) * 128 + 1 * k.val = k.val; omega
    | ⟨1, _⟩ => show win1_3.index t (1 : Fin 2) * 128 + 1 * q.val = win1_4.index t (1 : Fin 2) * 128 + 1 * q.val; omega

/-- An index lies in point `t`'s output block iff each coordinate is in the block's range on its axis. -/
theorem mem_blk1 (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v20).slice (win1_4.rect t)).set ↔ _
  rw [View.set_slice_whole, Rect.mem_set_unit]
  exact Iff.rfl

/-- Row `r` lies in the block of point `r / 2000`: the 25 row blocks tile the array. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have ht : (i 0).val / 2000 < cfg1.N := by show _ < 25; omega
  obtain ⟨-, -, -, -, -, -, -, -, eor, eoc⟩ := idx1 ⟨(i 0).val / 2000, ht⟩
  refine ⟨⟨(i 0).val / 2000, ht⟩, flush1_4 _, ?_⟩
  rw [mem_blk1]
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    rw [eor]; show (i 0).val / 2000 * 2000 ≤ (i 0).val ∧ (i 0).val < (i 0).val / 2000 * 2000 + 2000; omega
  | ⟨1, _⟩ =>
    show win1_4.index ⟨(i 0).val / 2000, ht⟩ (1 : Fin 2) * 128 ≤ (i 1).val
      ∧ (i 1).val < win1_4.index ⟨(i 0).val / 2000, ht⟩ (1 : Fin 2) * 128 + 128
    rw [eoc]; omega

/-- Region 1 leaves `lin1` of the arrays it found in its output array. -/
theorem final1 (c : Dev nD) :
    (dat1 V c).arrAt 4 cfg1.N = lin1 (V c main_arg0) (V c main_v17) (V c main_v18) (V c main_v19) :=
  (dat1 V c).arrAt_eq_of_cover 4 _ (fun t _ => flushed1 V c t) cover1

end Cert.KernelIdeal.Layers

end
-- ==== Proof.Region2.lean ====
/-
  Region 2 of the kernel: what it leaves in its output array.

  At grid point `t` the body multiplies rows `2000 t, …, 2000 t + 1999` of the features and of the first two hidden blocks into
  their weight matrices and adds the products, left to right; the 25 points' row blocks tile the 50000 rows.
-/
import proofs.«114441_j62878321213489_1_alg».proof.Proof.Gen.KernelIdeal.Frame
import proofs.«114441_j62878321213489_1_alg».proof.Proof.LibPartialProducts
import proofs.«114441_j62878321213489_1_alg».proof.Proof.LibPlainProduct
import Idealize.ShloMosaic.Lib.Pipeline.Value
import Idealize.ShloMosaic.Lib.ValueIdx

set_option maxRecDepth 16384

noncomputable section

namespace Cert.KernelIdeal.Layers

open Cert.KernelIdeal Cert.KernelIdeal.Gen Idealize.ShloMosaic Idealize.ShloMosaic.ValueIdx Cert.Snowball
open Idealize.ShloMosaic.TcCoe Idealize.SL.Sem
open Idealize.ShloMosaic.Pipeline (Dat Cfg Window)

/-- Entry `(p, q)` of the body's result: the products' entries added. -/
theorem pay2_apply (x0 : Vec Ideal S2000x512 .f32) (w0 : Vec Ideal S512x128 .f32) (x1 : Vec Ideal S2000x128 .f32) (w1 : Vec Ideal S128x128 .f32) (x2 : Vec Ideal S2000x128 .f32) (w2 : Vec Ideal S128x128 .f32) (p : Fin 2000) (q : Fin 128) :
    k2_pay1 (F := Ideal) x0 w0 x1 w1 x2 w2 (ix2 p q)
      = (∑ c : Fin 512, x0 (ix2 p c) * w0 (ix2 c q)) + ∑ c : Fin 128, x1 (ix2 p c) * w1 (ix2 c q) + ∑ c : Fin 128, x2 (ix2 p c) * w2 (ix2 c q) := by
  unfold k2_pay1
  simp only [shapeCast_self]
  refine (congrArg₂ (· + ·) (congrArg₂ (· + ·) (Cert.PlainProduct.matmul_nn_apply dot_S2000x512_S512x128_S2000x128_1_0_0_1_n_n.wf none _ _ p q) (Cert.PlainProduct.matmul_nn_apply dot_S2000x128_S128x128_S2000x128_1_0_0_1_n_n.wf none _ _ p q)) (Cert.PlainProduct.matmul_nn_apply dot_S2000x128_S128x128_S2000x128_1_0_0_1_n_n.wf none _ _ p q)).trans ?_
  rfl

/-- The products' entries added, over all 50000 rows: what region 2 computes, as one array. -/
def lin2 (X0 : S50000x512.Idx → EReal) (X1 : S50000x128.Idx → EReal) (X2 : S50000x128.Idx → EReal) (W0 : S512x128.Idx → EReal) (W1 : S128x128.Idx → EReal) (W2 : S128x128.Idx → EReal) :
    S50000x128.Idx → EReal :=
  arr2 fun p q => (∑ c : Fin 512, X0 (ix2 p c) * W0 (ix2 c q)) + ∑ c : Fin 128, X1 (ix2 p c) * W1 (ix2 c q) + ∑ c : Fin 128, X2 (ix2 p c) * W2 (ix2 c q)

/-- Grid point `t` reads row block `t` of each feature block and the whole of each weight matrix, and writes row
    block `t` of the result. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0 :=
  (by decide +kernel : ∀ t : Fin grid2.N, _)

variable (V : (c : Dev nD) → (b : Ref sig .tc) → Buf (Elt Ideal) ((c : Thread nD τ).loc b))

set_option maxHeartbeats 2000000 in
/-- What grid point `t` writes back is row block `t` of `lin2` of the arrays as the region finds them. -/
theorem flushed2 (c : Dev nD) (t : Fin cfg2.N) :
    (dat2 V c).flushed 6 t = ((cfg2.win 6).blk t).view.read (Elt Ideal)
      (lin2 (V c main_arg0) (V c main_v17) (V c main_v37) (V c main_v38) (V c main_v39) (V c main_v40)) := by
  show (cfg2.win 6).cut (grid2.coords t) ((dat2 V c).after 6 t) = _
  rw [after2_6]
  unfold out2_6
  rw [View.canon_unit_zero hz]
  simp only [View.ld_unit_zero (S := S2000x512) hz, View.ld_unit_zero (S := S2000x128) hz, View.ld_unit_zero (S := S512x128) hz, View.ld_unit_zero (S := S128x128) hz]
  obtain ⟨e0r, e0c, e1r, e1c, e2r, e2c, e3r, e3c, e4r, e4c, e5r, e5c, e6r, e6c⟩ := idx2 t
  funext j
  obtain ⟨p, q, rfl⟩ : ∃ (p : Fin 2000) (q : Fin 128), j = ix2 p q := ⟨j 0, j 1, eq_ix2 j⟩
  refine (pay2_apply (iblk2 V c 0 t) (iblk2 V c 3 t) (iblk2 V c 1 t) (iblk2 V c 4 t) (iblk2 V c 2 t) (iblk2 V c 5 t) p q).trans ?_
  show _ = lin2 (V c main_arg0) (V c main_v17) (V c main_v37) (V c main_v38) (V c main_v39) (V c main_v40) (((cfg2.win 6).blk t).view.emb (ix2 p q))
  unfold lin2 arr2
  refine congrArg₂ (· + ·) (congrArg₂ (· + ·) (Finset.sum_congr rfl fun k _ => congrArg₂ (· * ·) ?_ ?_) (Finset.sum_congr rfl fun k _ => congrArg₂ (· * ·) ?_ ?_)) (Finset.sum_congr rfl fun k _ => congrArg₂ (· * ·) ?_ ?_)
  · show V c main_arg0 (((cfg2.win 0).blk t).view.emb (ix2 p k)) = V c main_arg0 _
    refine congrArg (V c main_arg0) (funext fun a => Fin.ext ?_)
    match a with
    | ⟨0, _⟩ => show win2_0.index t (0 : Fin 2) * 2000 + 1 * p.val = win2_6.index t (0 : Fin 2) * 2000 + 1 * p.val; omega
    | ⟨1, _⟩ => show win2_0.index t (1 : Fin 2) * 512 + 1 * k.val = k.val; omega
  · show V c main_v38 (((cfg2.win 3).blk t).view.emb (ix2 k q)) = V c main_v38 _
    refine congrArg (V c main_v38) (funext fun a => Fin.ext ?_)
    match a with
    | ⟨0, _⟩ => show win2_3.index t (0 : Fin 2) * 512 + 1 * k.val = k.val; omega
    | ⟨1, _⟩ => show win2_3.index t (1 : Fin 2) * 128 + 1 * q.val = win2_6.index t (1 : Fin 2) * 128 + 1 * q.val; omega
  · show V c main_v17 (((cfg2.win 1).blk t).view.emb (ix2 p k)) = V c main_v17 _
    refine congrArg (V c main_v17) (funext fun a => Fin.ext ?_)
    match a with
    | ⟨0, _⟩ => show win2_1.index t (0 : Fin 2) * 2000 + 1 * p.val = win2_6.index t (0 : Fin 2) * 2000 + 1 * p.val; omega
    | ⟨1, _⟩ => show win2_1.index t (1 : Fin 2) * 128 + 1 * k.val = k.val; omega
  · show V c main_v39 (((cfg2.win 4).blk t).view.emb (ix2 k q)) = V c main_v39 _
    refine congrArg (V c main_v39) (funext fun a => Fin.ext ?_)
    match a with
    | ⟨0, _⟩ => show win2_4.index t (0 : Fin 2) * 128 + 1 * k.val = k.val; omega
    | ⟨1, _⟩ => show win2_4.index t (1 : Fin 2) * 128 + 1 * q.val = win2_6.index t (1 : Fin 2) * 128 + 1 * q.val; omega
  · show V c main_v37 (((cfg2.win 2).blk t).view.emb (ix2 p k)) = V c main_v37 _
    refine congrArg (V c main_v37) (funext fun a => Fin.ext ?_)
    match a with
    | ⟨0, _⟩ => show win2_2.index t (0 : Fin 2) * 2000 + 1 * p.val = win2_6.index t (0 : Fin 2) * 2000 + 1 * p.val; omega
    | ⟨1, _⟩ => show win2_2.index t (1 : Fin 2) * 128 + 1 * k.val = k.val; omega
  · show V c main_v40 (((cfg2.win 5).blk t).view.emb (ix2 k q)) = V c main_v40 _
    refine congrArg (V c main_v40) (funext fun a => Fin.ext ?_)
    match a with
    | ⟨0, _⟩ => show win2_5.index t (0 : Fin 2) * 128 + 1 * k.val = k.val; omega
    | ⟨1, _⟩ => show win2_5.index t (1 : Fin 2) * 128 + 1 * q.val = win2_6.index t (1 : Fin 2) * 128 + 1 * q.val; omega

/-- An index lies in point `t`'s output block iff each coordinate is in the block's range on its axis. -/
theorem mem_blk2 (t : Fin cfg2.N) (i : S50000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v41).slice (win2_6.rect t)).set ↔ _
  rw [View.set_slice_whole, Rect.mem_set_unit]
  exact Iff.rfl

/-- Row `r` lies in the block of point `r / 2000`: the 25 row blocks tile the array. -/
theorem cover2 (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have ht : (i 0).val / 2000 < cfg2.N := by show _ < 25; omega
  obtain ⟨-, -, -, -, -, -, -, -, -, -, -, -, eor, eoc⟩ := idx2 ⟨(i 0).val / 2000, ht⟩
  refine ⟨⟨(i 0).val / 2000, ht⟩, flush2_6 _, ?_⟩
  rw [mem_blk2]
  intro a
  match a with
  | ⟨0, _⟩ =>
    show win2_6.index ⟨(i 0).val / 2000, ht⟩ (0 : Fin 2) * 2000 ≤ (i 0).val
      ∧ (i 0).val < win2_6.index ⟨(i 0).val / 2000, ht⟩ (0 : Fin 2) * 2000 + 2000
    rw [eor]; show (i 0).val / 2000 * 2000 ≤ (i 0).val ∧ (i 0).val < (i 0).val / 2000 * 2000 + 2000; omega
  | ⟨1, _⟩ =>
    show win2_6.index ⟨(i 0).val / 2000, ht⟩ (1 : Fin 2) * 128 ≤ (i 1).val
      ∧ (i 1).val < win2_6.index ⟨(i 0).val / 2000, ht⟩ (1 : Fin 2) * 128 + 128
    rw [eoc]; omega

/-- Region 2 leaves `lin2` of the arrays it found in its output array. -/
theorem final2 (c : Dev nD) :
    (dat2 V c).arrAt 6 cfg2.N = lin2 (V c main_arg0) (V c main_v17) (V c main_v37) (V c main_v38) (V c main_v39) (V c main_v40) :=
  (dat2 V c).arrAt_eq_of_cover 6 _ (fun t _ => flushed2 V c t) cover2

end Cert.KernelIdeal.Layers

end
-- ==== Proof.Region3.lean ====
/-
  Region 3 of the kernel: what it leaves in its output array.

  At grid point `t` the body multiplies rows `2000 t, …, 2000 t + 1999` of the features and of the first three hidden blocks into
  their weight matrices and adds the products, left to right; the 25 points' row blocks tile the 50000 rows.
-/
import proofs.«114441_j62878321213489_1_alg».proof.Proof.Gen.KernelIdeal.Frame
import proofs.«114441_j62878321213489_1_alg».proof.Proof.LibPartialProducts
import proofs.«114441_j62878321213489_1_alg».proof.Proof.LibPlainProduct
import Idealize.ShloMosaic.Lib.Pipeline.Value
import Idealize.ShloMosaic.Lib.ValueIdx

set_option maxRecDepth 16384

noncomputable section

namespace Cert.KernelIdeal.Layers

open Cert.KernelIdeal Cert.KernelIdeal.Gen Idealize.ShloMosaic Idealize.ShloMosaic.ValueIdx Cert.Snowball
open Idealize.ShloMosaic.TcCoe Idealize.SL.Sem
open Idealize.ShloMosaic.Pipeline (Dat Cfg Window)

/-- Entry `(p, q)` of the body's result: the products' entries added. -/
theorem pay3_apply (x0 : Vec Ideal S2000x512 .f32) (w0 : Vec Ideal S512x128 .f32) (x1 : Vec Ideal S2000x128 .f32) (w1 : Vec Ideal S128x128 .f32) (x2 : Vec Ideal S2000x128 .f32) (w2 : Vec Ideal S128x128 .f32) (x3 : Vec Ideal S2000x128 .f32) (w3 : Vec Ideal S128x128 .f32) (p : Fin 2000) (q : Fin 128) :
    k3_pay1 (F := Ideal) x0 w0 x1 w1 x2 w2 x3 w3 (ix2 p q)
      = (∑ c : Fin 512, x0 (ix2 p c) * w0 (ix2 c q)) + ∑ c : Fin 128, x1 (ix2 p c) * w1 (ix2 c q) + ∑ c : Fin 128, x2 (ix2 p c) * w2 (ix2 c q) + ∑ c : Fin 128, x3 (ix2 p c) * w3 (ix2 c q) := by
  unfold k3_pay1
  simp only [shapeCast_self]
  refine (congrArg₂ (· + ·) (congrArg₂ (· + ·) (congrArg₂ (· + ·) (Cert.PlainProduct.matmul_nn_apply dot_S2000x512_S512x128_S2000x128_1_0_0_1_n_n.wf none _ _ p q) (Cert.PlainProduct.matmul_nn_apply dot_S2000x128_S128x128_S2000x128_1_0_0_1_n_n.wf none _ _ p q)) (Cert.PlainProduct.matmul_nn_apply dot_S2000x128_S128x128_S2000x128_1_0_0_1_n_n.wf none _ _ p q)) (Cert.PlainProduct.matmul_nn_apply dot_S2000x128_S128x128_S2000x128_1_0_0_1_n_n.wf none _ _ p q)).trans ?_
  rfl

/-- The products' entries added, over all 50000 rows: what region 3 computes, as one array. -/
def lin3 (X0 : S50000x512.Idx → EReal) (X1 : S50000x128.Idx → EReal) (X2 : S50000x128.Idx → EReal) (X3 : S50000x128.Idx → EReal) (W0 : S512x128.Idx → EReal) (W1 : S128x128.Idx → EReal) (W2 : S128x128.Idx → EReal) (W3 : S128x128.Idx → EReal) :
    S50000x128.Idx → EReal :=
  arr2 fun p q => (∑ c : Fin 512, X0 (ix2 p c) * W0 (ix2 c q)) + ∑ c : Fin 128, X1 (ix2 p c) * W1 (ix2 c q) + ∑ c : Fin 128, X2 (ix2 p c) * W2 (ix2 c q) + ∑ c : Fin 128, X3 (ix2 p c) * W3 (ix2 c q)

/-- Grid point `t` reads row block `t` of each feature block and the whole of each weight matrix, and writes row
    block `t` of the result. -/
theorem idx3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = t.val
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = t.val
    ∧ win3_8.index t (1 : Fin 2) = 0 :=
  (by decide +kernel : ∀ t : Fin grid3.N, _)

variable (V : (c : Dev nD) → (b : Ref sig .tc) → Buf (Elt Ideal) ((c : Thread nD τ).loc b))

set_option maxHeartbeats 2000000 in
/-- What grid point `t` writes back is row block `t` of `lin3` of the arrays as the region finds them. -/
theorem flushed3 (c : Dev nD) (t : Fin cfg3.N) :
    (dat3 V c).flushed 8 t = ((cfg3.win 8).blk t).view.read (Elt Ideal)
      (lin3 (V c main_arg0) (V c main_v17) (V c main_v37) (V c main_v58) (V c main_v59) (V c main_v60) (V c main_v61) (V c main_v62)) := by
  show (cfg3.win 8).cut (grid3.coords t) ((dat3 V c).after 8 t) = _
  rw [after3_8]
  unfold out3_8
  rw [View.canon_unit_zero hz]
  simp only [View.ld_unit_zero (S := S2000x512) hz, View.ld_unit_zero (S := S2000x128) hz, View.ld_unit_zero (S := S512x128) hz, View.ld_unit_zero (S := S128x128) hz]
  obtain ⟨e0r, e0c, e1r, e1c, e2r, e2c, e3r, e3c, e4r, e4c, e5r, e5c, e6r, e6c, e7r, e7c, e8r, e8c⟩ := idx3 t
  funext j
  obtain ⟨p, q, rfl⟩ : ∃ (p : Fin 2000) (q : Fin 128), j = ix2 p q := ⟨j 0, j 1, eq_ix2 j⟩
  refine (pay3_apply (iblk3 V c 0 t) (iblk3 V c 4 t) (iblk3 V c 1 t) (iblk3 V c 5 t) (iblk3 V c 2 t) (iblk3 V c 6 t) (iblk3 V c 3 t) (iblk3 V c 7 t) p q).trans ?_
  show _ = lin3 (V c main_arg0) (V c main_v17) (V c main_v37) (V c main_v58) (V c main_v59) (V c main_v60) (V c main_v61) (V c main_v62) (((cfg3.win 8).blk t).view.emb (ix2 p q))
  unfold lin3 arr2
  refine congrArg₂ (· + ·) (congrArg₂ (· + ·) (congrArg₂ (· + ·) (Finset.sum_congr rfl fun k _ => congrArg₂ (· * ·) ?_ ?_) (Finset.sum_congr rfl fun k _ => congrArg₂ (· * ·) ?_ ?_)) (Finset.sum_congr rfl fun k _ => congrArg₂ (· * ·) ?_ ?_)) (Finset.sum_congr rfl fun k _ => congrArg₂ (· * ·) ?_ ?_)
  · show V c main_arg0 (((cfg3.win 0).blk t).view.emb (ix2 p k)) = V c main_arg0 _
    refine congrArg (V c main_arg0) (funext fun a => Fin.ext ?_)
    match a with
    | ⟨0, _⟩ => show win3_0.index t (0 : Fin 2) * 2000 + 1 * p.val = win3_8.index t (0 : Fin 2) * 2000 + 1 * p.val; omega
    | ⟨1, _⟩ => show win3_0.index t (1 : Fin 2) * 512 + 1 * k.val = k.val; omega
  · show V c main_v59 (((cfg3.win 4).blk t).view.emb (ix2 k q)) = V c main_v59 _
    refine congrArg (V c main_v59) (funext fun a => Fin.ext ?_)
    match a with
    | ⟨0, _⟩ => show win3_4.index t (0 : Fin 2) * 512 + 1 * k.val = k.val; omega
    | ⟨1, _⟩ => show win3_4.index t (1 : Fin 2) * 128 + 1 * q.val = win3_8.index t (1 : Fin 2) * 128 + 1 * q.val; omega
  · show V c main_v17 (((cfg3.win 1).blk t).view.emb (ix2 p k)) = V c main_v17 _
    refine congrArg (V c main_v17) (funext fun a => Fin.ext ?_)
    match a with
    | ⟨0, _⟩ => show win3_1.index t (0 : Fin 2) * 2000 + 1 * p.val = win3_8.index t (0 : Fin 2) * 2000 + 1 * p.val; omega
    | ⟨1, _⟩ => show win3_1.index t (1 : Fin 2) * 128 + 1 * k.val = k.val; omega
  · show V c main_v60 (((cfg3.win 5).blk t).view.emb (ix2 k q)) = V c main_v60 _
    refine congrArg (V c main_v60) (funext fun a => Fin.ext ?_)
    match a with
    | ⟨0, _⟩ => show win3_5.index t (0 : Fin 2) * 128 + 1 * k.val = k.val; omega
    | ⟨1, _⟩ => show win3_5.index t (1 : Fin 2) * 128 + 1 * q.val = win3_8.index t (1 : Fin 2) * 128 + 1 * q.val; omega
  · show V c main_v37 (((cfg3.win 2).blk t).view.emb (ix2 p k)) = V c main_v37 _
    refine congrArg (V c main_v37) (funext fun a => Fin.ext ?_)
    match a with
    | ⟨0, _⟩ => show win3_2.index t (0 : Fin 2) * 2000 + 1 * p.val = win3_8.index t (0 : Fin 2) * 2000 + 1 * p.val; omega
    | ⟨1, _⟩ => show win3_2.index t (1 : Fin 2) * 128 + 1 * k.val = k.val; omega
  · show V c main_v61 (((cfg3.win 6).blk t).view.emb (ix2 k q)) = V c main_v61 _
    refine congrArg (V c main_v61) (funext fun a => Fin.ext ?_)
    match a with
    | ⟨0, _⟩ => show win3_6.index t (0 : Fin 2) * 128 + 1 * k.val = k.val; omega
    | ⟨1, _⟩ => show win3_6.index t (1 : Fin 2) * 128 + 1 * q.val = win3_8.index t (1 : Fin 2) * 128 + 1 * q.val; omega
  · show V c main_v58 (((cfg3.win 3).blk t).view.emb (ix2 p k)) = V c main_v58 _
    refine congrArg (V c main_v58) (funext fun a => Fin.ext ?_)
    match a with
    | ⟨0, _⟩ => show win3_3.index t (0 : Fin 2) * 2000 + 1 * p.val = win3_8.index t (0 : Fin 2) * 2000 + 1 * p.val; omega
    | ⟨1, _⟩ => show win3_3.index t (1 : Fin 2) * 128 + 1 * k.val = k.val; omega
  · show V c main_v62 (((cfg3.win 7).blk t).view.emb (ix2 k q)) = V c main_v62 _
    refine congrArg (V c main_v62) (funext fun a => Fin.ext ?_)
    match a with
    | ⟨0, _⟩ => show win3_7.index t (0 : Fin 2) * 128 + 1 * k.val = k.val; omega
    | ⟨1, _⟩ => show win3_7.index t (1 : Fin 2) * 128 + 1 * q.val = win3_8.index t (1 : Fin 2) * 128 + 1 * q.val; omega

/-- An index lies in point `t`'s output block iff each coordinate is in the block's range on its axis. -/
theorem mem_blk3 (t : Fin cfg3.N) (i : S50000x128.Idx) :
    i ∈ ((cfg3.win 8).blk t).view.set ↔ ∀ a : Fin 2, win3_8.index t a * S2000x128.size a ≤ (i a).val
      ∧ (i a).val < win3_8.index t a * S2000x128.size a + S2000x128.size a := by
  show i ∈ ((View.whole main_v63).slice (win3_8.rect t)).set ↔ _
  rw [View.set_slice_whole, Rect.mem_set_unit]
  exact Iff.rfl

/-- Row `r` lies in the block of point `r / 2000`: the 25 row blocks tile the array. -/
theorem cover3 (i : S50000x128.Idx) :
    ∃ t : Fin cfg3.N, (cfg3.win 8).flush t = true ∧ i ∈ ((cfg3.win 8).blk t).view.set := by
  have hi0 : (i 0).val < 50000 := (i 0).isLt
  have hi1 : (i 1).val < 128 := (i 1).isLt
  have ht : (i 0).val / 2000 < cfg3.N := by show _ < 25; omega
  obtain ⟨-, -, -, -, -, -, -, -, -, -, -, -, -, -, -, -, eor, eoc⟩ := idx3 ⟨(i 0).val / 2000, ht⟩
  refine ⟨⟨(i 0).val / 2000, ht⟩, flush3_8 _, ?_⟩
  rw [mem_blk3]
  intro a
  match a with
  | ⟨0, _⟩ =>
    show win3_8.index ⟨(i 0).val / 2000, ht⟩ (0 : Fin 2) * 2000 ≤ (i 0).val
      ∧ (i 0).val < win3_8.index ⟨(i 0).val / 2000, ht⟩ (0 : Fin 2) * 2000 + 2000
    rw [eor]; show (i 0).val / 2000 * 2000 ≤ (i 0).val ∧ (i 0).val < (i 0).val / 2000 * 2000 + 2000; omega
  | ⟨1, _⟩ =>
    show win3_8.index ⟨(i 0).val / 2000, ht⟩ (1 : Fin 2) * 128 ≤ (i 1).val
      ∧ (i 1).val < win3_8.index ⟨(i 0).val / 2000, ht⟩ (1 : Fin 2) * 128 + 128
    rw [eoc]; omega

/-- Region 3 leaves `lin3` of the arrays it found in its output array. -/
theorem final3 (c : Dev nD) :
    (dat3 V c).arrAt 8 cfg3.N = lin3 (V c main_arg0) (V c main_v17) (V c main_v37) (V c main_v58) (V c main_v59) (V c main_v60) (V c main_v61) (V c main_v62) :=
  (dat3 V c).arrAt_eq_of_cover 8 _ (fun t _ => flushed3 V c t) cover3

end Cert.KernelIdeal.Layers

end
-- ==== Proof.Region4.lean ====
/-
  Region 4 of the kernel: what it leaves in its output array.

  At grid point `t` the body multiplies rows `2000 t, …, 2000 t + 1999` of the features and of all four hidden blocks into
  their weight matrices and adds the products, left to right; the 25 points' row blocks tile the 50000 rows.
-/
import proofs.«114441_j62878321213489_1_alg».proof.Proof.Gen.KernelIdeal.Frame
import proofs.«114441_j62878321213489_1_alg».proof.Proof.LibPartialProducts
import proofs.«114441_j62878321213489_1_alg».proof.Proof.LibPlainProduct
import Idealize.ShloMosaic.Lib.Pipeline.Value
import Idealize.ShloMosaic.Lib.ValueIdx

set_option maxRecDepth 16384

noncomputable section

namespace Cert.KernelIdeal.Layers

open Cert.KernelIdeal Cert.KernelIdeal.Gen Idealize.ShloMosaic Idealize.ShloMosaic.ValueIdx Cert.Snowball
open Idealize.ShloMosaic.TcCoe Idealize.SL.Sem
open Idealize.ShloMosaic.Pipeline (Dat Cfg Window)

/-- Entry `(p, q)` of the body's result: the products' entries added. -/
theorem pay4_apply (x0 : Vec Ideal S2000x512 .f32) (w0 : Vec Ideal S512x40 .f32) (x1 : Vec Ideal S2000x128 .f32) (w1 : Vec Ideal S128x40 .f32) (x2 : Vec Ideal S2000x128 .f32) (w2 : Vec Ideal S128x40 .f32) (x3 : Vec Ideal S2000x128 .f32) (w3 : Vec Ideal S128x40 .f32) (x4 : Vec Ideal S2000x128 .f32) (w4 : Vec Ideal S128x40 .f32) (p : Fin 2000) (q : Fin 40) :
    k4_pay1 (F := Ideal) (k4_pay2 x0 w0 x1 w1 x2 w2 x3 w3) (k4_pay3 x4) (k4_pay4 w4) (ix2 p q)
      = (∑ c : Fin 512, x0 (ix2 p c) * w0 (ix2 c q)) + ∑ c : Fin 128, x1 (ix2 p c) * w1 (ix2 c q) + ∑ c : Fin 128, x2 (ix2 p c) * w2 (ix2 c q) + ∑ c : Fin 128, x3 (ix2 p c) * w3 (ix2 c q) + ∑ c : Fin 128, x4 (ix2 p c) * w4 (ix2 c q) := by
  unfold k4_pay1 k4_pay2 k4_pay3 k4_pay4
  simp only [shapeCast_self]
  refine (congrArg₂ (· + ·) (congrArg₂ (· + ·) (congrArg₂ (· + ·) (congrArg₂ (· + ·) (Cert.PlainProduct.matmul_nn_apply dot_S2000x512_S512x40_S2000x40_1_0_0_1_n_n.wf none _ _ p q) (Cert.PlainProduct.matmul_nn_apply dot_S2000x128_S128x40_S2000x40_1_0_0_1_n_n.wf none _ _ p q)) (Cert.PlainProduct.matmul_nn_apply dot_S2000x128_S128x40_S2000x40_1_0_0_1_n_n.wf none _ _ p q)) (Cert.PlainProduct.matmul_nn_apply dot_S2000x128_S128x40_S2000x40_1_0_0_1_n_n.wf none _ _ p q)) (Cert.PlainProduct.matmul_nn_apply dot_S2000x128_S128x40_S2000x40_1_0_0_1_n_n.wf none _ _ p q)).trans ?_
  rfl

/-- The products' entries added, over all 50000 rows: what region 4 computes, as one array. -/
def lin4 (X0 : S50000x512.Idx → EReal) (X1 : S50000x128.Idx → EReal) (X2 : S50000x128.Idx → EReal) (X3 : S50000x128.Idx → EReal) (X4 : S50000x128.Idx → EReal) (W0 : S512x40.Idx → EReal) (W1 : S128x40.Idx → EReal) (W2 : S128x40.Idx → EReal) (W3 : S128x40.Idx → EReal) (W4 : S128x40.Idx → EReal) :
    S50000x40.Idx → EReal :=
  arr2 fun p q => (∑ c : Fin 512, X0 (ix2 p c) * W0 (ix2 c q)) + ∑ c : Fin 128, X1 (ix2 p c) * W1 (ix2 c q) + ∑ c : Fin 128, X2 (ix2 p c) * W2 (ix2 c q) + ∑ c : Fin 128, X3 (ix2 p c) * W3 (ix2 c q) + ∑ c : Fin 128, X4 (ix2 p c) * W4 (ix2 c q)

/-- Grid point `t` reads row block `t` of each feature block and the whole of each weight matrix, and writes row
    block `t` of the result. -/
theorem idx4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_3.index t (0 : Fin 2) = t.val
    ∧ win4_3.index t (1 : Fin 2) = 0
    ∧ win4_4.index t (0 : Fin 2) = t.val
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = 0
    ∧ win4_7.index t (1 : Fin 2) = 0
    ∧ win4_8.index t (0 : Fin 2) = 0
    ∧ win4_8.index t (1 : Fin 2) = 0
    ∧ win4_9.index t (0 : Fin 2) = 0
    ∧ win4_9.index t (1 : Fin 2) = 0
    ∧ win4_10.index t (0 : Fin 2) = t.val
    ∧ win4_10.index t (1 : Fin 2) = 0 :=
  (by decide +kernel : ∀ t : Fin grid4.N, _)

variable (V : (c : Dev nD) → (b : Ref sig .tc) → Buf (Elt Ideal) ((c : Thread nD τ).loc b))

set_option maxHeartbeats 2000000 in
/-- What grid point `t` writes back is row block `t` of `lin4` of the arrays as the region finds them. -/
theorem flushed4 (c : Dev nD) (t : Fin cfg4.N) :
    (dat4 V c).flushed 10 t = ((cfg4.win 10).blk t).view.read (Elt Ideal)
      (lin4 (V c main_arg0) (V c main_v17) (V c main_v37) (V c main_v58) (V c main_v80) (V c main_v81) (V c main_v82) (V c main_v83) (V c main_v84) (V c main_v85)) := by
  show (cfg4.win 10).cut (grid4.coords t) ((dat4 V c).after 10 t) = _
  rw [after4_10]
  unfold out4_10
  rw [View.canon_unit_zero hz]
  simp only [View.ld_unit_zero (S := S2000x512) hz, View.ld_unit_zero (S := S2000x128) hz, View.ld_unit_zero (S := S512x40) hz, View.ld_unit_zero (S := S128x40) hz]
  obtain ⟨e0r, e0c, e1r, e1c, e2r, e2c, e3r, e3c, e4r, e4c, e5r, e5c, e6r, e6c, e7r, e7c, e8r, e8c, e9r, e9c, e10r, e10c⟩ := idx4 t
  funext j
  obtain ⟨p, q, rfl⟩ : ∃ (p : Fin 2000) (q : Fin 40), j = ix2 p q := ⟨j 0, j 1, eq_ix2 j⟩
  refine (pay4_apply (iblk4 V c 0 t) (iblk4 V c 5 t) (iblk4 V c 1 t) (iblk4 V c 6 t) (iblk4 V c 2 t) (iblk4 V c 7 t) (iblk4 V c 3 t) (iblk4 V c 8 t) (iblk4 V c 4 t) (iblk4 V c 9 t) p q).trans ?_
  show _ = lin4 (V c main_arg0) (V c main_v17) (V c main_v37) (V c main_v58) (V c main_v80) (V c main_v81) (V c main_v82) (V c main_v83) (V c main_v84) (V c main_v85) (((cfg4.win 10).blk t).view.emb (ix2 p q))
  unfold lin4 arr2
  refine congrArg₂ (· + ·) (congrArg₂ (· + ·) (congrArg₂ (· + ·) (congrArg₂ (· + ·) (Finset.sum_congr rfl fun k _ => congrArg₂ (· * ·) ?_ ?_) (Finset.sum_congr rfl fun k _ => congrArg₂ (· * ·) ?_ ?_)) (Finset.sum_congr rfl fun k _ => congrArg₂ (· * ·) ?_ ?_)) (Finset.sum_congr rfl fun k _ => congrArg₂ (· * ·) ?_ ?_)) (Finset.sum_congr rfl fun k _ => congrArg₂ (· * ·) ?_ ?_)
  · show V c main_arg0 (((cfg4.win 0).blk t).view.emb (ix2 p k)) = V c main_arg0 _
    refine congrArg (V c main_arg0) (funext fun a => Fin.ext ?_)
    match a with
    | ⟨0, _⟩ => show win4_0.index t (0 : Fin 2) * 2000 + 1 * p.val = win4_10.index t (0 : Fin 2) * 2000 + 1 * p.val; omega
    | ⟨1, _⟩ => show win4_0.index t (1 : Fin 2) * 512 + 1 * k.val = k.val; omega
  · show V c main_v81 (((cfg4.win 5).blk t).view.emb (ix2 k q)) = V c main_v81 _
    refine congrArg (V c main_v81) (funext fun a => Fin.ext ?_)
    match a with
    | ⟨0, _⟩ => show win4_5.index t (0 : Fin 2) * 512 + 1 * k.val = k.val; omega
    | ⟨1, _⟩ => show win4_5.index t (1 : Fin 2) * 40 + 1 * q.val = win4_10.index t (1 : Fin 2) * 40 + 1 * q.val; omega
  · show V c main_v17 (((cfg4.win 1).blk t).view.emb (ix2 p k)) = V c main_v17 _
    refine congrArg (V c main_v17) (funext fun a => Fin.ext ?_)
    match a with
    | ⟨0, _⟩ => show win4_1.index t (0 : Fin 2) * 2000 + 1 * p.val = win4_10.index t (0 : Fin 2) * 2000 + 1 * p.val; omega
    | ⟨1, _⟩ => show win4_1.index t (1 : Fin 2) * 128 + 1 * k.val = k.val; omega
  · show V c main_v82 (((cfg4.win 6).blk t).view.emb (ix2 k q)) = V c main_v82 _
    refine congrArg (V c main_v82) (funext fun a => Fin.ext ?_)
    match a with
    | ⟨0, _⟩ => show win4_6.index t (0 : Fin 2) * 128 + 1 * k.val = k.val; omega
    | ⟨1, _⟩ => show win4_6.index t (1 : Fin 2) * 40 + 1 * q.val = win4_10.index t (1 : Fin 2) * 40 + 1 * q.val; omega
  · show V c main_v37 (((cfg4.win 2).blk t).view.emb (ix2 p k)) = V c main_v37 _
    refine congrArg (V c main_v37) (funext fun a => Fin.ext ?_)
    match a with
    | ⟨0, _⟩ => show win4_2.index t (0 : Fin 2) * 2000 + 1 * p.val = win4_10.index t (0 : Fin 2) * 2000 + 1 * p.val; omega
    | ⟨1, _⟩ => show win4_2.index t (1 : Fin 2) * 128 + 1 * k.val = k.val; omega
  · show V c main_v83 (((cfg4.win 7).blk t).view.emb (ix2 k q)) = V c main_v83 _
    refine congrArg (V c main_v83) (funext fun a => Fin.ext ?_)
    match a with
    | ⟨0, _⟩ => show win4_7.index t (0 : Fin 2) * 128 + 1 * k.val = k.val; omega
    | ⟨1, _⟩ => show win4_7.index t (1 : Fin 2) * 40 + 1 * q.val = win4_10.index t (1 : Fin 2) * 40 + 1 * q.val; omega
  · show V c main_v58 (((cfg4.win 3).blk t).view.emb (ix2 p k)) = V c main_v58 _
    refine congrArg (V c main_v58) (funext fun a => Fin.ext ?_)
    match a with
    | ⟨0, _⟩ => show win4_3.index t (0 : Fin 2) * 2000 + 1 * p.val = win4_10.index t (0 : Fin 2) * 2000 + 1 * p.val; omega
    | ⟨1, _⟩ => show win4_3.index t (1 : Fin 2) * 128 + 1 * k.val = k.val; omega
  · show V c main_v84 (((cfg4.win 8).blk t).view.emb (ix2 k q)) = V c main_v84 _
    refine congrArg (V c main_v84) (funext fun a => Fin.ext ?_)
    match a with
    | ⟨0, _⟩ => show win4_8.index t (0 : Fin 2) * 128 + 1 * k.val = k.val; omega
    | ⟨1, _⟩ => show win4_8.index t (1 : Fin 2) * 40 + 1 * q.val = win4_10.index t (1 : Fin 2) * 40 + 1 * q.val; omega
  · show V c main_v80 (((cfg4.win 4).blk t).view.emb (ix2 p k)) = V c main_v80 _
    refine congrArg (V c main_v80) (funext fun a => Fin.ext ?_)
    match a with
    | ⟨0, _⟩ => show win4_4.index t (0 : Fin 2) * 2000 + 1 * p.val = win4_10.index t (0 : Fin 2) * 2000 + 1 * p.val; omega
    | ⟨1, _⟩ => show win4_4.index t (1 : Fin 2) * 128 + 1 * k.val = k.val; omega
  · show V c main_v85 (((cfg4.win 9).blk t).view.emb (ix2 k q)) = V c main_v85 _
    refine congrArg (V c main_v85) (funext fun a => Fin.ext ?_)
    match a with
    | ⟨0, _⟩ => show win4_9.index t (0 : Fin 2) * 128 + 1 * k.val = k.val; omega
    | ⟨1, _⟩ => show win4_9.index t (1 : Fin 2) * 40 + 1 * q.val = win4_10.index t (1 : Fin 2) * 40 + 1 * q.val; omega

/-- An index lies in point `t`'s output block iff each coordinate is in the block's range on its axis. -/
theorem mem_blk4 (t : Fin cfg4.N) (i : S50000x40.Idx) :
    i ∈ ((cfg4.win 10).blk t).view.set ↔ ∀ a : Fin 2, win4_10.index t a * S2000x40.size a ≤ (i a).val
      ∧ (i a).val < win4_10.index t a * S2000x40.size a + S2000x40.size a := by
  show i ∈ ((View.whole main_v86).slice (win4_10.rect t)).set ↔ _
  rw [View.set_slice_whole, Rect.mem_set_unit]
  exact Iff.rfl

/-- Row `r` lies in the block of point `r / 2000`: the 25 row blocks tile the array. -/
theorem cover4 (i : S50000x40.Idx) :
    ∃ t : Fin cfg4.N, (cfg4.win 10).flush t = true ∧ i ∈ ((cfg4.win 10).blk t).view.set := by
  have hi0 : (i 0).val < 50000 := (i 0).isLt
  have hi1 : (i 1).val < 40 := (i 1).isLt
  have ht : (i 0).val / 2000 < cfg4.N := by show _ < 25; omega
  obtain ⟨-, -, -, -, -, -, -, -, -, -, -, -, -, -, -, -, -, -, -, -, eor, eoc⟩ := idx4 ⟨(i 0).val / 2000, ht⟩
  refine ⟨⟨(i 0).val / 2000, ht⟩, flush4_10 _, ?_⟩
  rw [mem_blk4]
  intro a
  match a with
  | ⟨0, _⟩ =>
    show win4_10.index ⟨(i 0).val / 2000, ht⟩ (0 : Fin 2) * 2000 ≤ (i 0).val
      ∧ (i 0).val < win4_10.index ⟨(i 0).val / 2000, ht⟩ (0 : Fin 2) * 2000 + 2000
    rw [eor]; show (i 0).val / 2000 * 2000 ≤ (i 0).val ∧ (i 0).val < (i 0).val / 2000 * 2000 + 2000; omega
  | ⟨1, _⟩ =>
    show win4_10.index ⟨(i 0).val / 2000, ht⟩ (1 : Fin 2) * 40 ≤ (i 1).val
      ∧ (i 1).val < win4_10.index ⟨(i 0).val / 2000, ht⟩ (1 : Fin 2) * 40 + 40
    rw [eoc]; omega

/-- Region 4 leaves `lin4` of the arrays it found in its output array. -/
theorem final4 (c : Dev nD) :
    (dat4 V c).arrAt 10 cfg4.N = lin4 (V c main_arg0) (V c main_v17) (V c main_v37) (V c main_v58) (V c main_v80) (V c main_v81) (V c main_v82) (V c main_v83) (V c main_v84) (V c main_v85) :=
  (dat4 V c).arrAt_eq_of_cover 10 _ (fun t _ => flushed4 V c t) cover4

end Cert.KernelIdeal.Layers

end
-- ==== Proof.HostStretch.lean ====
/-
  The host's part of one layer, named.

  Between two device regions the host aggregates the layer's linear part over the graph's edges — each edge takes a
  source row, scales it by the edge's value and adds it into the destination row —, adds the bias row and, for a
  hidden layer, replaces every entry below zero by zero.  The operations are the program's own, in its order.
-/
import proofs.«114441_j62878321213489_1_alg».proof.Proof.Gen.KernelIdeal
import Idealize.ShloMosaic.PureOps.Ideal

noncomputable section

namespace Cert.KernelIdeal.Layers

open Cert.KernelIdeal Cert.KernelIdeal.Gen Idealize.ShloMosaic

/-- One layer's aggregation before the rectifier, as the host computes it from the layer's linear part `lin`: each edge
    `e` takes row `src e` of `lin` (an index below zero counted from the end), scales it by `val e`, and adds it into
    row `dst e` of an array of zeros; then the bias row is added to every row. -/
def preact (lin : FVec Ideal S50000x128 .f32) (src dst : (⟨S800000, .i32⟩ : BufTy).Contents (Elt Ideal))
    (val : FVec Ideal S800000 .f32) (b : FVec Ideal S128 .f32) : FVec Ideal S50000x128 .f32 :=
  addf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (mulf (broadcastInDim S800000x128 ![0, 1] bcast_S800000x1_S800000x128_0_1 (broadcastInDim S800000x1 ![0] bcast_S800000_S800000x1_0 val)) (Host.gather gather_S50000x128_S800000x1_S800000x128_1_0_n_n_0_1_1128 lin (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))))) (broadcastInDim S50000x128 ![0, 1] bcast_S1x128_S50000x128_0_1 (broadcastInDim S1x128 ![1] bcast_S128_S1x128_1 b))

/-- A hidden block: the aggregation with every entry below zero replaced by zero. -/
def hidden (lin : FVec Ideal S50000x128 .f32) (src dst : (⟨S800000, .i32⟩ : BufTy).Contents (Elt Ideal))
    (val : FVec Ideal S800000 .f32) (b : FVec Ideal S128 .f32) : FVec Ideal S50000x128 .f32 :=
  maximumf (preact lin src dst val b) (broadcastInDim S50000x128 ![] bcast_S_S50000x128 (constant S_ .f32 0x00000000#32))

/-- The output layer: the same aggregation at 40 columns, with no rectifier. -/
def logits (lin : FVec Ideal S50000x40 .f32) (src dst : (⟨S800000, .i32⟩ : BufTy).Contents (Elt Ideal))
    (val : FVec Ideal S800000 .f32) (b : FVec Ideal S40 .f32) : FVec Ideal S50000x40 .f32 :=
  addf (Host.scatterAdd scatter_S50000x40_S800000x1_S800000x40_1_0_0_1 (broadcastInDim S50000x40 ![] bcast_S_S50000x40 (constant S_ .f32 0x00000000#32)) (broadcastInDim S800000x1 ![0] bcast_S800000_S800000x1_0 dst) (mulf (broadcastInDim S800000x40 ![0, 1] bcast_S800000x1_S800000x40_0_1 (broadcastInDim S800000x1 ![0] bcast_S800000_S800000x1_0 val)) (Host.gather gather_S50000x40_S800000x1_S800000x40_1_0_n_n_0_1_140 lin (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))))) (broadcastInDim S50000x40 ![0, 1] bcast_S1x40_S50000x40_0_1 (broadcastInDim S1x40 ![1] bcast_S40_S1x40_1 b))

end Cert.KernelIdeal.Layers

end
-- ==== Proof.LibHostKept.lean ====
/-
  A buffer that no operation of a stretch of host lines writes keeps its contents.

  For a LITERAL list `ops` of host operations (the builders `nullary`, `unary`, `binary`, `ternary`, `quaternary`,
  `reshape`, and the outlined functions' typed forms of them) and a reference `b` that none of them writes,
  `after ops v b = v b` for any contents `v`.  The tactic `host_kept ops` closes such a goal: it walks the list once,
  reads each operation's written buffer, and decides the reference different from it.  Useful wherever a value is
  carried across a stretch that neither reads nor writes it — a program of several device regions among host lines,
  or a long host program read stretch by stretch.
-/
import Idealize.ShloMosaic.Lib.StableHlo.Run

namespace Cert.Kept

/-- Closes `after ops v b = v b` for a literal list `ops` (given by name) none of whose operations writes `b`. -/
macro "host_kept" l:ident : tactic => `(tactic| (
  refine Idealize.ShloMosaic.StableHlo.after_of_forall_not_mem _ _ (List.forall_iff_forall_mem.mp ?_)
  simp only [$l:ident, List.Forall, Idealize.ShloMosaic.StableHlo.nullary_writes, Idealize.ShloMosaic.StableHlo.unary_writes,
    Idealize.ShloMosaic.StableHlo.binary_writes, Idealize.ShloMosaic.StableHlo.ternary_writes,
    Idealize.ShloMosaic.StableHlo.quaternary_writes, Idealize.ShloMosaic.StableHlo.reshape_writes, Finset.mem_singleton]
  repeat' apply And.intro
  all_goals exact Idealize.ShloMosaic.StableHlo.devRef_ne_of_ne (by decide)))

end Cert.Kept
-- ==== Proof.LibTypedRef.lean ====
/-
  A value written into the buffer of a typed reference and read back through the same reference is the value.

  A typed reference names a buffer together with the type of the tensor value it holds and an equation saying that the
  buffer's own type is that type.  Contents pass between the value's type and the buffer's type by transport along that
  equation, in either direction.  The two transports are inverse to each other: to the buffer and back gives the value,
  and from the buffer and back gives the buffer's contents.  Both are proved for an arbitrary reference by making the
  equation the reflexive one, so neither statement asks what any particular reference's type is.

  Use: a stretch of host operations printed through typed references (the operations of an outlined function) leaves,
  once each operation's result has been rewritten to its function's value, every intermediate value wrapped in such a
  pair of transports.  Rewriting with the first lemma removes the pairs one by one, whichever proofs the two references
  carry, without the type of any reference being computed.
-/
import Idealize.ShloMosaic.Lib.StableHlo

namespace Cert.TypedRef

open Idealize.ShloMosaic Idealize.ShloMosaic.StableHlo

variable {sig : RefSig} {Val : EltTy → Type} {T : BufTy}

/-- Contents at the value's type, moved to the type of the reference's buffer and back, are unchanged. -/
theorem ofBuf_toBuf (x : TRef sig T) (w : T.Contents Val) : x.ofBuf (x.toBuf w) = w := by
  obtain ⟨r, h, _, _⟩ := x
  subst h
  rfl

/-- Contents of the reference's buffer, moved to the value's type and back, are unchanged. -/
theorem toBuf_ofBuf (x : TRef sig T) (w : x.ref.ty.Contents Val) : x.toBuf (x.ofBuf w) = w := by
  obtain ⟨r, h, _, _⟩ := x
  subst h
  rfl

end Cert.TypedRef
-- ==== Proof.Carried.lean ====
/-
  What every buffer that matters holds at every boundary of the kernel's run.

  The run goes region, host stretch, region, …; the generated frame names the buffer contents at each boundary.  An
  argument is written by nothing, so it holds its launch contents throughout.  A region's output array holds the sum of
  its blocks' products (the region modules).  A host stretch computes a hidden block from the region's output, the
  edge lists and the bias, and cuts the next layer's weight matrix into row bands.  A hidden block, once written, is
  only read.  Composing these facts boundary by boundary gives each region's entry contents, and at the last boundary
  the result, as closed forms of the launch contents.
-/
import proofs.«114441_j62878321213489_1_alg».proof.Proof.Region0
import proofs.«114441_j62878321213489_1_alg».proof.Proof.Region1
import proofs.«114441_j62878321213489_1_alg».proof.Proof.Region2
import proofs.«114441_j62878321213489_1_alg».proof.Proof.Region3
import proofs.«114441_j62878321213489_1_alg».proof.Proof.Region4
import proofs.«114441_j62878321213489_1_alg».proof.Proof.HostStretch
import proofs.«114441_j62878321213489_1_alg».proof.Proof.LibHostKept
import proofs.«114441_j62878321213489_1_alg».proof.Proof.LibTypedRef
import Idealize.ShloMosaic.Lib.StableHlo.Run

set_option maxRecDepth 16384

noncomputable section

namespace Cert.KernelIdeal.Layers

open Cert.KernelIdeal Cert.KernelIdeal.Gen Idealize.ShloMosaic Idealize.ShloMosaic.ValueIdx Cert.Snowball
open Idealize.ShloMosaic.TcCoe Idealize.SL.Sem Idealize.ShloMosaic.StableHlo Cert.Kept

variable (m : (ℓ : Loc nD τ sig) → Buf (Elt Ideal) ℓ) (ρ : Dev nD → PrngReg) (c : Dev nD)

/-- Region 0's result: the features times the first weight matrix. -/
def L0 : FVec Ideal S50000x128 .f32 := lin0 (m ((c : Thread nD τ).loc main_arg0)) (m ((c : Thread nD τ).loc main_arg4))
/-- Hidden block 1. -/
def H1 : FVec Ideal S50000x128 .f32 := hidden (L0 m c) (m ((c : Thread nD τ).loc main_arg1)) (m ((c : Thread nD τ).loc main_arg2)) (m ((c : Thread nD τ).loc main_arg3)) (m ((c : Thread nD τ).loc main_arg5))
/-- Region 1's result: the features and the hidden blocks so far, each times its rows of the layer's weight matrix, added. -/
def L1 : FVec Ideal S50000x128 .f32 := lin1 (m ((c : Thread nD τ).loc main_arg0)) (H1 m c) (extractStridedSlice S512x128 ![0, 0] (m ((c : Thread nD τ).loc main_arg6)) slices_S640x128_S512x128_0_0) (extractStridedSlice S128x128 ![512, 0] (m ((c : Thread nD τ).loc main_arg6)) slices_S640x128_S128x128_512_0)
/-- Hidden block 2. -/
def H2 : FVec Ideal S50000x128 .f32 := hidden (L1 m c) (m ((c : Thread nD τ).loc main_arg1)) (m ((c : Thread nD τ).loc main_arg2)) (m ((c : Thread nD τ).loc main_arg3)) (m ((c : Thread nD τ).loc main_arg7))
/-- Region 2's result: the features and the hidden blocks so far, each times its rows of the layer's weight matrix, added. -/
def L2 : FVec Ideal S50000x128 .f32 := lin2 (m ((c : Thread nD τ).loc main_arg0)) (H1 m c) (H2 m c) (extractStridedSlice S512x128 ![0, 0] (m ((c : Thread nD τ).loc main_arg8)) slices_S768x128_S512x128_0_0) (extractStridedSlice S128x128 ![512, 0] (m ((c : Thread nD τ).loc main_arg8)) slices_S768x128_S128x128_512_0) (extractStridedSlice S128x128 ![640, 0] (m ((c : Thread nD τ).loc main_arg8)) slices_S768x128_S128x128_640_0)
/-- Hidden block 3. -/
def H3 : FVec Ideal S50000x128 .f32 := hidden (L2 m c) (m ((c : Thread nD τ).loc main_arg1)) (m ((c : Thread nD τ).loc main_arg2)) (m ((c : Thread nD τ).loc main_arg3)) (m ((c : Thread nD τ).loc main_arg9))
/-- Region 3's result: the features and the hidden blocks so far, each times its rows of the layer's weight matrix, added. -/
def L3 : FVec Ideal S50000x128 .f32 := lin3 (m ((c : Thread nD τ).loc main_arg0)) (H1 m c) (H2 m c) (H3 m c) (extractStridedSlice S512x128 ![0, 0] (m ((c : Thread nD τ).loc main_arg10)) slices_S896x128_S512x128_0_0) (extractStridedSlice S128x128 ![512, 0] (m ((c : Thread nD τ).loc main_arg10)) slices_S896x128_S128x128_512_0) (extractStridedSlice S128x128 ![640, 0] (m ((c : Thread nD τ).loc main_arg10)) slices_S896x128_S128x128_640_0) (extractStridedSlice S128x128 ![768, 0] (m ((c : Thread nD τ).loc main_arg10)) slices_S896x128_S128x128_768_0)
/-- Hidden block 4. -/
def H4 : FVec Ideal S50000x128 .f32 := hidden (L3 m c) (m ((c : Thread nD τ).loc main_arg1)) (m ((c : Thread nD τ).loc main_arg2)) (m ((c : Thread nD τ).loc main_arg3)) (m ((c : Thread nD τ).loc main_arg11))
/-- Region 4's result: the features and the hidden blocks so far, each times its rows of the layer's weight matrix, added. -/
def L4 : FVec Ideal S50000x40 .f32 := lin4 (m ((c : Thread nD τ).loc main_arg0)) (H1 m c) (H2 m c) (H3 m c) (H4 m c) (extractStridedSlice S512x40 ![0, 0] (m ((c : Thread nD τ).loc main_arg12)) slices_S1024x40_S512x40_0_0) (extractStridedSlice S128x40 ![512, 0] (m ((c : Thread nD τ).loc main_arg12)) slices_S1024x40_S128x40_512_0) (extractStridedSlice S128x40 ![640, 0] (m ((c : Thread nD τ).loc main_arg12)) slices_S1024x40_S128x40_640_0) (extractStridedSlice S128x40 ![768, 0] (m ((c : Thread nD τ).loc main_arg12)) slices_S1024x40_S128x40_768_0) (extractStridedSlice S128x40 ![896, 0] (m ((c : Thread nD τ).loc main_arg12)) slices_S1024x40_S128x40_896_0)
/-- The kernel's result. -/
def result : FVec Ideal S50000x40 .f32 := logits (L4 m c) (m ((c : Thread nD τ).loc main_arg1)) (m ((c : Thread nD τ).loc main_arg2)) (m ((c : Thread nD τ).loc main_arg3)) (m ((c : Thread nD τ).loc main_arg13))

/-! ### Boundary 0 -/
theorem kept0_main_arg0 : W0 m ρ c (Proc.devRef .tc main_arg0) = (m ((c : Thread nD τ).loc main_arg0)) := rfl
theorem kept0_main_arg4 : W0 m ρ c (Proc.devRef .tc main_arg4) = (m ((c : Thread nD τ).loc main_arg4)) := rfl
theorem kept0_main_arg1 : W0 m ρ c (Proc.devRef .tc main_arg1) = (m ((c : Thread nD τ).loc main_arg1)) := rfl
theorem kept0_main_arg2 : W0 m ρ c (Proc.devRef .tc main_arg2) = (m ((c : Thread nD τ).loc main_arg2)) := rfl
theorem kept0_main_arg3 : W0 m ρ c (Proc.devRef .tc main_arg3) = (m ((c : Thread nD τ).loc main_arg3)) := rfl
theorem kept0_main_arg5 : W0 m ρ c (Proc.devRef .tc main_arg5) = (m ((c : Thread nD τ).loc main_arg5)) := rfl
theorem kept0_main_arg7 : W0 m ρ c (Proc.devRef .tc main_arg7) = (m ((c : Thread nD τ).loc main_arg7)) := rfl
theorem kept0_main_arg9 : W0 m ρ c (Proc.devRef .tc main_arg9) = (m ((c : Thread nD τ).loc main_arg9)) := rfl
theorem kept0_main_arg11 : W0 m ρ c (Proc.devRef .tc main_arg11) = (m ((c : Thread nD τ).loc main_arg11)) := rfl
theorem kept0_main_arg13 : W0 m ρ c (Proc.devRef .tc main_arg13) = (m ((c : Thread nD τ).loc main_arg13)) := rfl
theorem kept0_main_arg6 : W0 m ρ c (Proc.devRef .tc main_arg6) = (m ((c : Thread nD τ).loc main_arg6)) := rfl
theorem kept0_main_arg8 : W0 m ρ c (Proc.devRef .tc main_arg8) = (m ((c : Thread nD τ).loc main_arg8)) := rfl
theorem kept0_main_arg10 : W0 m ρ c (Proc.devRef .tc main_arg10) = (m ((c : Thread nD τ).loc main_arg10)) := rfl
theorem kept0_main_arg12 : W0 m ρ c (Proc.devRef .tc main_arg12) = (m ((c : Thread nD τ).loc main_arg12)) := rfl

/-! ### Boundary 1 -/
theorem kept1_main_arg0 : W1 m ρ c (Proc.devRef .tc main_arg0) = (m ((c : Thread nD τ).loc main_arg0)) :=
  ((W1_arr m ρ c 0).trans (((dat0 (V0 m ρ) c).arrAt_in 0 rfl _).trans (A_eq0 (V0 m ρ) c 0))).trans (kept0_main_arg0 m ρ c)
theorem kept1_main_arg1 : W1 m ρ c (Proc.devRef .tc main_arg1) = (m ((c : Thread nD τ).loc main_arg1)) :=
  (W1_of_ne m ρ c main_arg1 (by decide)).trans (kept0_main_arg1 m ρ c)
theorem kept1_main_arg2 : W1 m ρ c (Proc.devRef .tc main_arg2) = (m ((c : Thread nD τ).loc main_arg2)) :=
  (W1_of_ne m ρ c main_arg2 (by decide)).trans (kept0_main_arg2 m ρ c)
theorem kept1_main_arg3 : W1 m ρ c (Proc.devRef .tc main_arg3) = (m ((c : Thread nD τ).loc main_arg3)) :=
  (W1_of_ne m ρ c main_arg3 (by decide)).trans (kept0_main_arg3 m ρ c)
theorem kept1_main_arg5 : W1 m ρ c (Proc.devRef .tc main_arg5) = (m ((c : Thread nD τ).loc main_arg5)) :=
  (W1_of_ne m ρ c main_arg5 (by decide)).trans (kept0_main_arg5 m ρ c)
theorem kept1_main_arg7 : W1 m ρ c (Proc.devRef .tc main_arg7) = (m ((c : Thread nD τ).loc main_arg7)) :=
  (W1_of_ne m ρ c main_arg7 (by decide)).trans (kept0_main_arg7 m ρ c)
theorem kept1_main_arg9 : W1 m ρ c (Proc.devRef .tc main_arg9) = (m ((c : Thread nD τ).loc main_arg9)) :=
  (W1_of_ne m ρ c main_arg9 (by decide)).trans (kept0_main_arg9 m ρ c)
theorem kept1_main_arg11 : W1 m ρ c (Proc.devRef .tc main_arg11) = (m ((c : Thread nD τ).loc main_arg11)) :=
  (W1_of_ne m ρ c main_arg11 (by decide)).trans (kept0_main_arg11 m ρ c)
theorem kept1_main_arg13 : W1 m ρ c (Proc.devRef .tc main_arg13) = (m ((c : Thread nD τ).loc main_arg13)) :=
  (W1_of_ne m ρ c main_arg13 (by decide)).trans (kept0_main_arg13 m ρ c)
theorem kept1_main_arg6 : W1 m ρ c (Proc.devRef .tc main_arg6) = (m ((c : Thread nD τ).loc main_arg6)) :=
  (W1_of_ne m ρ c main_arg6 (by decide)).trans (kept0_main_arg6 m ρ c)
theorem kept1_main_arg8 : W1 m ρ c (Proc.devRef .tc main_arg8) = (m ((c : Thread nD τ).loc main_arg8)) :=
  (W1_of_ne m ρ c main_arg8 (by decide)).trans (kept0_main_arg8 m ρ c)
theorem kept1_main_arg10 : W1 m ρ c (Proc.devRef .tc main_arg10) = (m ((c : Thread nD τ).loc main_arg10)) :=
  (W1_of_ne m ρ c main_arg10 (by decide)).trans (kept0_main_arg10 m ρ c)
theorem kept1_main_arg12 : W1 m ρ c (Proc.devRef .tc main_arg12) = (m ((c : Thread nD τ).loc main_arg12)) :=
  (W1_of_ne m ρ c main_arg12 (by decide)).trans (kept0_main_arg12 m ρ c)
theorem w1_main_v0 : W1 m ρ c (Proc.devRef .tc main_v0) = L0 m c := by
  refine (W1_arr m ρ c 2).trans ((final0 (V0 m ρ) c).trans ?_)
  dsimp only [V0]
  rw [kept0_main_arg0 m ρ c, kept0_main_arg4 m ρ c]
  rfl

/-! ### Boundary 2 -/
theorem kept2_main_arg0 : W2 m ρ c (Proc.devRef .tc main_arg0) = (m ((c : Thread nD τ).loc main_arg0)) :=
  (by host_kept hostOps1 : W2 m ρ c (Proc.devRef .tc main_arg0) = W1 m ρ c (Proc.devRef .tc main_arg0)).trans (kept1_main_arg0 m ρ c)
theorem kept2_main_arg1 : W2 m ρ c (Proc.devRef .tc main_arg1) = (m ((c : Thread nD τ).loc main_arg1)) :=
  (by host_kept hostOps1 : W2 m ρ c (Proc.devRef .tc main_arg1) = W1 m ρ c (Proc.devRef .tc main_arg1)).trans (kept1_main_arg1 m ρ c)
theorem kept2_main_arg2 : W2 m ρ c (Proc.devRef .tc main_arg2) = (m ((c : Thread nD τ).loc main_arg2)) :=
  (by host_kept hostOps1 : W2 m ρ c (Proc.devRef .tc main_arg2) = W1 m ρ c (Proc.devRef .tc main_arg2)).trans (kept1_main_arg2 m ρ c)
theorem kept2_main_arg3 : W2 m ρ c (Proc.devRef .tc main_arg3) = (m ((c : Thread nD τ).loc main_arg3)) :=
  (by host_kept hostOps1 : W2 m ρ c (Proc.devRef .tc main_arg3) = W1 m ρ c (Proc.devRef .tc main_arg3)).trans (kept1_main_arg3 m ρ c)
theorem kept2_main_arg7 : W2 m ρ c (Proc.devRef .tc main_arg7) = (m ((c : Thread nD τ).loc main_arg7)) :=
  (by host_kept hostOps1 : W2 m ρ c (Proc.devRef .tc main_arg7) = W1 m ρ c (Proc.devRef .tc main_arg7)).trans (kept1_main_arg7 m ρ c)
theorem kept2_main_arg9 : W2 m ρ c (Proc.devRef .tc main_arg9) = (m ((c : Thread nD τ).loc main_arg9)) :=
  (by host_kept hostOps1 : W2 m ρ c (Proc.devRef .tc main_arg9) = W1 m ρ c (Proc.devRef .tc main_arg9)).trans (kept1_main_arg9 m ρ c)
theorem kept2_main_arg11 : W2 m ρ c (Proc.devRef .tc main_arg11) = (m ((c : Thread nD τ).loc main_arg11)) :=
  (by host_kept hostOps1 : W2 m ρ c (Proc.devRef .tc main_arg11) = W1 m ρ c (Proc.devRef .tc main_arg11)).trans (kept1_main_arg11 m ρ c)
theorem kept2_main_arg13 : W2 m ρ c (Proc.devRef .tc main_arg13) = (m ((c : Thread nD τ).loc main_arg13)) :=
  (by host_kept hostOps1 : W2 m ρ c (Proc.devRef .tc main_arg13) = W1 m ρ c (Proc.devRef .tc main_arg13)).trans (kept1_main_arg13 m ρ c)
theorem kept2_main_arg8 : W2 m ρ c (Proc.devRef .tc main_arg8) = (m ((c : Thread nD τ).loc main_arg8)) :=
  (by host_kept hostOps1 : W2 m ρ c (Proc.devRef .tc main_arg8) = W1 m ρ c (Proc.devRef .tc main_arg8)).trans (kept1_main_arg8 m ρ c)
theorem kept2_main_arg10 : W2 m ρ c (Proc.devRef .tc main_arg10) = (m ((c : Thread nD τ).loc main_arg10)) :=
  (by host_kept hostOps1 : W2 m ρ c (Proc.devRef .tc main_arg10) = W1 m ρ c (Proc.devRef .tc main_arg10)).trans (kept1_main_arg10 m ρ c)
theorem kept2_main_arg12 : W2 m ρ c (Proc.devRef .tc main_arg12) = (m ((c : Thread nD τ).loc main_arg12)) :=
  (by host_kept hostOps1 : W2 m ρ c (Proc.devRef .tc main_arg12) = W1 m ρ c (Proc.devRef .tc main_arg12)).trans (kept1_main_arg12 m ρ c)

/-! ### Boundary 3 -/
theorem kept3_main_arg0 : W3 m ρ c (Proc.devRef .tc main_arg0) = (m ((c : Thread nD τ).loc main_arg0)) :=
  (by host_kept hostOps1_1 : W3 m ρ c (Proc.devRef .tc main_arg0) = W2 m ρ c (Proc.devRef .tc main_arg0)).trans (kept2_main_arg0 m ρ c)
theorem kept3_main_arg1 : W3 m ρ c (Proc.devRef .tc main_arg1) = (m ((c : Thread nD τ).loc main_arg1)) :=
  (by host_kept hostOps1_1 : W3 m ρ c (Proc.devRef .tc main_arg1) = W2 m ρ c (Proc.devRef .tc main_arg1)).trans (kept2_main_arg1 m ρ c)
theorem kept3_main_arg2 : W3 m ρ c (Proc.devRef .tc main_arg2) = (m ((c : Thread nD τ).loc main_arg2)) :=
  (by host_kept hostOps1_1 : W3 m ρ c (Proc.devRef .tc main_arg2) = W2 m ρ c (Proc.devRef .tc main_arg2)).trans (kept2_main_arg2 m ρ c)
theorem kept3_main_arg3 : W3 m ρ c (Proc.devRef .tc main_arg3) = (m ((c : Thread nD τ).loc main_arg3)) :=
  (by host_kept hostOps1_1 : W3 m ρ c (Proc.devRef .tc main_arg3) = W2 m ρ c (Proc.devRef .tc main_arg3)).trans (kept2_main_arg3 m ρ c)
theorem kept3_main_arg7 : W3 m ρ c (Proc.devRef .tc main_arg7) = (m ((c : Thread nD τ).loc main_arg7)) :=
  (by host_kept hostOps1_1 : W3 m ρ c (Proc.devRef .tc main_arg7) = W2 m ρ c (Proc.devRef .tc main_arg7)).trans (kept2_main_arg7 m ρ c)
theorem kept3_main_arg9 : W3 m ρ c (Proc.devRef .tc main_arg9) = (m ((c : Thread nD τ).loc main_arg9)) :=
  (by host_kept hostOps1_1 : W3 m ρ c (Proc.devRef .tc main_arg9) = W2 m ρ c (Proc.devRef .tc main_arg9)).trans (kept2_main_arg9 m ρ c)
theorem kept3_main_arg11 : W3 m ρ c (Proc.devRef .tc main_arg11) = (m ((c : Thread nD τ).loc main_arg11)) :=
  (by host_kept hostOps1_1 : W3 m ρ c (Proc.devRef .tc main_arg11) = W2 m ρ c (Proc.devRef .tc main_arg11)).trans (kept2_main_arg11 m ρ c)
theorem kept3_main_arg13 : W3 m ρ c (Proc.devRef .tc main_arg13) = (m ((c : Thread nD τ).loc main_arg13)) :=
  (by host_kept hostOps1_1 : W3 m ρ c (Proc.devRef .tc main_arg13) = W2 m ρ c (Proc.devRef .tc main_arg13)).trans (kept2_main_arg13 m ρ c)
theorem kept3_main_arg8 : W3 m ρ c (Proc.devRef .tc main_arg8) = (m ((c : Thread nD τ).loc main_arg8)) :=
  (by host_kept hostOps1_1 : W3 m ρ c (Proc.devRef .tc main_arg8) = W2 m ρ c (Proc.devRef .tc main_arg8)).trans (kept2_main_arg8 m ρ c)
theorem kept3_main_arg10 : W3 m ρ c (Proc.devRef .tc main_arg10) = (m ((c : Thread nD τ).loc main_arg10)) :=
  (by host_kept hostOps1_1 : W3 m ρ c (Proc.devRef .tc main_arg10) = W2 m ρ c (Proc.devRef .tc main_arg10)).trans (kept2_main_arg10 m ρ c)
theorem kept3_main_arg12 : W3 m ρ c (Proc.devRef .tc main_arg12) = (m ((c : Thread nD τ).loc main_arg12)) :=
  (by host_kept hostOps1_1 : W3 m ρ c (Proc.devRef .tc main_arg12) = W2 m ρ c (Proc.devRef .tc main_arg12)).trans (kept2_main_arg12 m ρ c)
set_option maxHeartbeats 4000000 in
theorem kept3_main_v17 : W3 m ρ c (Proc.devRef .tc main_v17) = H1 m c := by
  show StableHlo.after hostOps1_1 (StableHlo.after hostOps1 (W1 m ρ c)) (Proc.devRef .tc main_v17) = _
  after_results_simp
  simp only [Cert.TypedRef.ofBuf_toBuf]
  refine (cast_eq _ _).trans ?_
  rw [w1_main_v0, kept1_main_arg1, kept1_main_arg2, kept1_main_arg3, kept1_main_arg5]
  exact congrArg (fun z => maximumf z _) (cast_eq _ _)

/-! ### Boundary 4 -/
theorem kept4_main_arg0 : W4 m ρ c (Proc.devRef .tc main_arg0) = (m ((c : Thread nD τ).loc main_arg0)) :=
  (by host_kept hostOps1_2 : W4 m ρ c (Proc.devRef .tc main_arg0) = W3 m ρ c (Proc.devRef .tc main_arg0)).trans (kept3_main_arg0 m ρ c)
theorem kept4_main_arg1 : W4 m ρ c (Proc.devRef .tc main_arg1) = (m ((c : Thread nD τ).loc main_arg1)) :=
  (by host_kept hostOps1_2 : W4 m ρ c (Proc.devRef .tc main_arg1) = W3 m ρ c (Proc.devRef .tc main_arg1)).trans (kept3_main_arg1 m ρ c)
theorem kept4_main_arg2 : W4 m ρ c (Proc.devRef .tc main_arg2) = (m ((c : Thread nD τ).loc main_arg2)) :=
  (by host_kept hostOps1_2 : W4 m ρ c (Proc.devRef .tc main_arg2) = W3 m ρ c (Proc.devRef .tc main_arg2)).trans (kept3_main_arg2 m ρ c)
theorem kept4_main_arg3 : W4 m ρ c (Proc.devRef .tc main_arg3) = (m ((c : Thread nD τ).loc main_arg3)) :=
  (by host_kept hostOps1_2 : W4 m ρ c (Proc.devRef .tc main_arg3) = W3 m ρ c (Proc.devRef .tc main_arg3)).trans (kept3_main_arg3 m ρ c)
theorem kept4_main_arg7 : W4 m ρ c (Proc.devRef .tc main_arg7) = (m ((c : Thread nD τ).loc main_arg7)) :=
  (by host_kept hostOps1_2 : W4 m ρ c (Proc.devRef .tc main_arg7) = W3 m ρ c (Proc.devRef .tc main_arg7)).trans (kept3_main_arg7 m ρ c)
theorem kept4_main_arg9 : W4 m ρ c (Proc.devRef .tc main_arg9) = (m ((c : Thread nD τ).loc main_arg9)) :=
  (by host_kept hostOps1_2 : W4 m ρ c (Proc.devRef .tc main_arg9) = W3 m ρ c (Proc.devRef .tc main_arg9)).trans (kept3_main_arg9 m ρ c)
theorem kept4_main_arg11 : W4 m ρ c (Proc.devRef .tc main_arg11) = (m ((c : Thread nD τ).loc main_arg11)) :=
  (by host_kept hostOps1_2 : W4 m ρ c (Proc.devRef .tc main_arg11) = W3 m ρ c (Proc.devRef .tc main_arg11)).trans (kept3_main_arg11 m ρ c)
theorem kept4_main_arg13 : W4 m ρ c (Proc.devRef .tc main_arg13) = (m ((c : Thread nD τ).loc main_arg13)) :=
  (by host_kept hostOps1_2 : W4 m ρ c (Proc.devRef .tc main_arg13) = W3 m ρ c (Proc.devRef .tc main_arg13)).trans (kept3_main_arg13 m ρ c)
theorem kept4_main_arg8 : W4 m ρ c (Proc.devRef .tc main_arg8) = (m ((c : Thread nD τ).loc main_arg8)) :=
  (by host_kept hostOps1_2 : W4 m ρ c (Proc.devRef .tc main_arg8) = W3 m ρ c (Proc.devRef .tc main_arg8)).trans (kept3_main_arg8 m ρ c)
theorem kept4_main_arg10 : W4 m ρ c (Proc.devRef .tc main_arg10) = (m ((c : Thread nD τ).loc main_arg10)) :=
  (by host_kept hostOps1_2 : W4 m ρ c (Proc.devRef .tc main_arg10) = W3 m ρ c (Proc.devRef .tc main_arg10)).trans (kept3_main_arg10 m ρ c)
theorem kept4_main_arg12 : W4 m ρ c (Proc.devRef .tc main_arg12) = (m ((c : Thread nD τ).loc main_arg12)) :=
  (by host_kept hostOps1_2 : W4 m ρ c (Proc.devRef .tc main_arg12) = W3 m ρ c (Proc.devRef .tc main_arg12)).trans (kept3_main_arg12 m ρ c)
theorem kept4_main_v17 : W4 m ρ c (Proc.devRef .tc main_v17) = H1 m c :=
  (by host_kept hostOps1_2 : W4 m ρ c (Proc.devRef .tc main_v17) = W3 m ρ c (Proc.devRef .tc main_v17)).trans (kept3_main_v17 m ρ c)
set_option maxHeartbeats 4000000 in
theorem w4_main_v18 : W4 m ρ c (Proc.devRef .tc main_v18) = (extractStridedSlice S512x128 ![0, 0] (m ((c : Thread nD τ).loc main_arg6)) slices_S640x128_S512x128_0_0) := by
  show StableHlo.after hostOps1_2 (W3 m ρ c) (Proc.devRef .tc main_v18) = _
  after_results_simp
  rw [kept1_main_arg6]
set_option maxHeartbeats 4000000 in
theorem w4_main_v19 : W4 m ρ c (Proc.devRef .tc main_v19) = (extractStridedSlice S128x128 ![512, 0] (m ((c : Thread nD τ).loc main_arg6)) slices_S640x128_S128x128_512_0) := by
  show StableHlo.after hostOps1_2 (W3 m ρ c) (Proc.devRef .tc main_v19) = _
  after_results_simp
  rw [kept1_main_arg6]

/-! ### Boundary 5 -/
theorem kept5_main_arg0 : W5 m ρ c (Proc.devRef .tc main_arg0) = (m ((c : Thread nD τ).loc main_arg0)) :=
  ((W5_arr m ρ c 0).trans (((dat1 (V4 m ρ) c).arrAt_in 0 rfl _).trans (A_eq1 (V4 m ρ) c 0))).trans (kept4_main_arg0 m ρ c)
theorem kept5_main_arg1 : W5 m ρ c (Proc.devRef .tc main_arg1) = (m ((c : Thread nD τ).loc main_arg1)) :=
  (W5_of_ne m ρ c main_arg1 (by decide)).trans (kept4_main_arg1 m ρ c)
theorem kept5_main_arg2 : W5 m ρ c (Proc.devRef .tc main_arg2) = (m ((c : Thread nD τ).loc main_arg2)) :=
  (W5_of_ne m ρ c main_arg2 (by decide)).trans (kept4_main_arg2 m ρ c)
theorem kept5_main_arg3 : W5 m ρ c (Proc.devRef .tc main_arg3) = (m ((c : Thread nD τ).loc main_arg3)) :=
  (W5_of_ne m ρ c main_arg3 (by decide)).trans (kept4_main_arg3 m ρ c)
theorem kept5_main_arg7 : W5 m ρ c (Proc.devRef .tc main_arg7) = (m ((c : Thread nD τ).loc main_arg7)) :=
  (W5_of_ne m ρ c main_arg7 (by decide)).trans (kept4_main_arg7 m ρ c)
theorem kept5_main_arg9 : W5 m ρ c (Proc.devRef .tc main_arg9) = (m ((c : Thread nD τ).loc main_arg9)) :=
  (W5_of_ne m ρ c main_arg9 (by decide)).trans (kept4_main_arg9 m ρ c)
theorem kept5_main_arg11 : W5 m ρ c (Proc.devRef .tc main_arg11) = (m ((c : Thread nD τ).loc main_arg11)) :=
  (W5_of_ne m ρ c main_arg11 (by decide)).trans (kept4_main_arg11 m ρ c)
theorem kept5_main_arg13 : W5 m ρ c (Proc.devRef .tc main_arg13) = (m ((c : Thread nD τ).loc main_arg13)) :=
  (W5_of_ne m ρ c main_arg13 (by decide)).trans (kept4_main_arg13 m ρ c)
theorem kept5_main_arg8 : W5 m ρ c (Proc.devRef .tc main_arg8) = (m ((c : Thread nD τ).loc main_arg8)) :=
  (W5_of_ne m ρ c main_arg8 (by decide)).trans (kept4_main_arg8 m ρ c)
theorem kept5_main_arg10 : W5 m ρ c (Proc.devRef .tc main_arg10) = (m ((c : Thread nD τ).loc main_arg10)) :=
  (W5_of_ne m ρ c main_arg10 (by decide)).trans (kept4_main_arg10 m ρ c)
theorem kept5_main_arg12 : W5 m ρ c (Proc.devRef .tc main_arg12) = (m ((c : Thread nD τ).loc main_arg12)) :=
  (W5_of_ne m ρ c main_arg12 (by decide)).trans (kept4_main_arg12 m ρ c)
theorem kept5_main_v17 : W5 m ρ c (Proc.devRef .tc main_v17) = H1 m c :=
  ((W5_arr m ρ c 1).trans (((dat1 (V4 m ρ) c).arrAt_in 1 rfl _).trans (A_eq1 (V4 m ρ) c 1))).trans (kept4_main_v17 m ρ c)
theorem w5_main_v20 : W5 m ρ c (Proc.devRef .tc main_v20) = L1 m c := by
  refine (W5_arr m ρ c 4).trans ((final1 (V4 m ρ) c).trans ?_)
  dsimp only [V4]
  rw [kept4_main_arg0 m ρ c, kept4_main_v17 m ρ c, w4_main_v18 m ρ c, w4_main_v19 m ρ c]
  rfl

/-! ### Boundary 6 -/
theorem kept6_main_arg0 : W6 m ρ c (Proc.devRef .tc main_arg0) = (m ((c : Thread nD τ).loc main_arg0)) :=
  (by host_kept hostOps2 : W6 m ρ c (Proc.devRef .tc main_arg0) = W5 m ρ c (Proc.devRef .tc main_arg0)).trans (kept5_main_arg0 m ρ c)
theorem kept6_main_arg1 : W6 m ρ c (Proc.devRef .tc main_arg1) = (m ((c : Thread nD τ).loc main_arg1)) :=
  (by host_kept hostOps2 : W6 m ρ c (Proc.devRef .tc main_arg1) = W5 m ρ c (Proc.devRef .tc main_arg1)).trans (kept5_main_arg1 m ρ c)
theorem kept6_main_arg2 : W6 m ρ c (Proc.devRef .tc main_arg2) = (m ((c : Thread nD τ).loc main_arg2)) :=
  (by host_kept hostOps2 : W6 m ρ c (Proc.devRef .tc main_arg2) = W5 m ρ c (Proc.devRef .tc main_arg2)).trans (kept5_main_arg2 m ρ c)
theorem kept6_main_arg3 : W6 m ρ c (Proc.devRef .tc main_arg3) = (m ((c : Thread nD τ).loc main_arg3)) :=
  (by host_kept hostOps2 : W6 m ρ c (Proc.devRef .tc main_arg3) = W5 m ρ c (Proc.devRef .tc main_arg3)).trans (kept5_main_arg3 m ρ c)
theorem kept6_main_arg9 : W6 m ρ c (Proc.devRef .tc main_arg9) = (m ((c : Thread nD τ).loc main_arg9)) :=
  (by host_kept hostOps2 : W6 m ρ c (Proc.devRef .tc main_arg9) = W5 m ρ c (Proc.devRef .tc main_arg9)).trans (kept5_main_arg9 m ρ c)
theorem kept6_main_arg11 : W6 m ρ c (Proc.devRef .tc main_arg11) = (m ((c : Thread nD τ).loc main_arg11)) :=
  (by host_kept hostOps2 : W6 m ρ c (Proc.devRef .tc main_arg11) = W5 m ρ c (Proc.devRef .tc main_arg11)).trans (kept5_main_arg11 m ρ c)
theorem kept6_main_arg13 : W6 m ρ c (Proc.devRef .tc main_arg13) = (m ((c : Thread nD τ).loc main_arg13)) :=
  (by host_kept hostOps2 : W6 m ρ c (Proc.devRef .tc main_arg13) = W5 m ρ c (Proc.devRef .tc main_arg13)).trans (kept5_main_arg13 m ρ c)
theorem kept6_main_arg10 : W6 m ρ c (Proc.devRef .tc main_arg10) = (m ((c : Thread nD τ).loc main_arg10)) :=
  (by host_kept hostOps2 : W6 m ρ c (Proc.devRef .tc main_arg10) = W5 m ρ c (Proc.devRef .tc main_arg10)).trans (kept5_main_arg10 m ρ c)
theorem kept6_main_arg12 : W6 m ρ c (Proc.devRef .tc main_arg12) = (m ((c : Thread nD τ).loc main_arg12)) :=
  (by host_kept hostOps2 : W6 m ρ c (Proc.devRef .tc main_arg12) = W5 m ρ c (Proc.devRef .tc main_arg12)).trans (kept5_main_arg12 m ρ c)
theorem kept6_main_v17 : W6 m ρ c (Proc.devRef .tc main_v17) = H1 m c :=
  (by host_kept hostOps2 : W6 m ρ c (Proc.devRef .tc main_v17) = W5 m ρ c (Proc.devRef .tc main_v17)).trans (kept5_main_v17 m ρ c)

/-! ### Boundary 7 -/
theorem kept7_main_arg0 : W7 m ρ c (Proc.devRef .tc main_arg0) = (m ((c : Thread nD τ).loc main_arg0)) :=
  (by host_kept hostOps2_1 : W7 m ρ c (Proc.devRef .tc main_arg0) = W6 m ρ c (Proc.devRef .tc main_arg0)).trans (kept6_main_arg0 m ρ c)
theorem kept7_main_arg1 : W7 m ρ c (Proc.devRef .tc main_arg1) = (m ((c : Thread nD τ).loc main_arg1)) :=
  (by host_kept hostOps2_1 : W7 m ρ c (Proc.devRef .tc main_arg1) = W6 m ρ c (Proc.devRef .tc main_arg1)).trans (kept6_main_arg1 m ρ c)
theorem kept7_main_arg2 : W7 m ρ c (Proc.devRef .tc main_arg2) = (m ((c : Thread nD τ).loc main_arg2)) :=
  (by host_kept hostOps2_1 : W7 m ρ c (Proc.devRef .tc main_arg2) = W6 m ρ c (Proc.devRef .tc main_arg2)).trans (kept6_main_arg2 m ρ c)
theorem kept7_main_arg3 : W7 m ρ c (Proc.devRef .tc main_arg3) = (m ((c : Thread nD τ).loc main_arg3)) :=
  (by host_kept hostOps2_1 : W7 m ρ c (Proc.devRef .tc main_arg3) = W6 m ρ c (Proc.devRef .tc main_arg3)).trans (kept6_main_arg3 m ρ c)
theorem kept7_main_arg9 : W7 m ρ c (Proc.devRef .tc main_arg9) = (m ((c : Thread nD τ).loc main_arg9)) :=
  (by host_kept hostOps2_1 : W7 m ρ c (Proc.devRef .tc main_arg9) = W6 m ρ c (Proc.devRef .tc main_arg9)).trans (kept6_main_arg9 m ρ c)
theorem kept7_main_arg11 : W7 m ρ c (Proc.devRef .tc main_arg11) = (m ((c : Thread nD τ).loc main_arg11)) :=
  (by host_kept hostOps2_1 : W7 m ρ c (Proc.devRef .tc main_arg11) = W6 m ρ c (Proc.devRef .tc main_arg11)).trans (kept6_main_arg11 m ρ c)
theorem kept7_main_arg13 : W7 m ρ c (Proc.devRef .tc main_arg13) = (m ((c : Thread nD τ).loc main_arg13)) :=
  (by host_kept hostOps2_1 : W7 m ρ c (Proc.devRef .tc main_arg13) = W6 m ρ c (Proc.devRef .tc main_arg13)).trans (kept6_main_arg13 m ρ c)
theorem kept7_main_arg10 : W7 m ρ c (Proc.devRef .tc main_arg10) = (m ((c : Thread nD τ).loc main_arg10)) :=
  (by host_kept hostOps2_1 : W7 m ρ c (Proc.devRef .tc main_arg10) = W6 m ρ c (Proc.devRef .tc main_arg10)).trans (kept6_main_arg10 m ρ c)
theorem kept7_main_arg12 : W7 m ρ c (Proc.devRef .tc main_arg12) = (m ((c : Thread nD τ).loc main_arg12)) :=
  (by host_kept hostOps2_1 : W7 m ρ c (Proc.devRef .tc main_arg12) = W6 m ρ c (Proc.devRef .tc main_arg12)).trans (kept6_main_arg12 m ρ c)
theorem kept7_main_v17 : W7 m ρ c (Proc.devRef .tc main_v17) = H1 m c :=
  (by host_kept hostOps2_1 : W7 m ρ c (Proc.devRef .tc main_v17) = W6 m ρ c (Proc.devRef .tc main_v17)).trans (kept6_main_v17 m ρ c)
set_option maxHeartbeats 4000000 in
theorem kept7_main_v37 : W7 m ρ c (Proc.devRef .tc main_v37) = H2 m c := by
  show StableHlo.after hostOps2_1 (StableHlo.after hostOps2 (W5 m ρ c)) (Proc.devRef .tc main_v37) = _
  after_results_simp
  simp only [Cert.TypedRef.ofBuf_toBuf]
  refine (cast_eq _ _).trans ?_
  rw [w5_main_v20, kept5_main_arg1, kept5_main_arg2, kept5_main_arg3, kept5_main_arg7]
  exact congrArg (fun z => maximumf z _) (cast_eq _ _)

/-! ### Boundary 8 -/
theorem kept8_main_arg0 : W8 m ρ c (Proc.devRef .tc main_arg0) = (m ((c : Thread nD τ).loc main_arg0)) :=
  (by host_kept hostOps2_2 : W8 m ρ c (Proc.devRef .tc main_arg0) = W7 m ρ c (Proc.devRef .tc main_arg0)).trans (kept7_main_arg0 m ρ c)
theorem kept8_main_arg1 : W8 m ρ c (Proc.devRef .tc main_arg1) = (m ((c : Thread nD τ).loc main_arg1)) :=
  (by host_kept hostOps2_2 : W8 m ρ c (Proc.devRef .tc main_arg1) = W7 m ρ c (Proc.devRef .tc main_arg1)).trans (kept7_main_arg1 m ρ c)
theorem kept8_main_arg2 : W8 m ρ c (Proc.devRef .tc main_arg2) = (m ((c : Thread nD τ).loc main_arg2)) :=
  (by host_kept hostOps2_2 : W8 m ρ c (Proc.devRef .tc main_arg2) = W7 m ρ c (Proc.devRef .tc main_arg2)).trans (kept7_main_arg2 m ρ c)
theorem kept8_main_arg3 : W8 m ρ c (Proc.devRef .tc main_arg3) = (m ((c : Thread nD τ).loc main_arg3)) :=
  (by host_kept hostOps2_2 : W8 m ρ c (Proc.devRef .tc main_arg3) = W7 m ρ c (Proc.devRef .tc main_arg3)).trans (kept7_main_arg3 m ρ c)
theorem kept8_main_arg9 : W8 m ρ c (Proc.devRef .tc main_arg9) = (m ((c : Thread nD τ).loc main_arg9)) :=
  (by host_kept hostOps2_2 : W8 m ρ c (Proc.devRef .tc main_arg9) = W7 m ρ c (Proc.devRef .tc main_arg9)).trans (kept7_main_arg9 m ρ c)
theorem kept8_main_arg11 : W8 m ρ c (Proc.devRef .tc main_arg11) = (m ((c : Thread nD τ).loc main_arg11)) :=
  (by host_kept hostOps2_2 : W8 m ρ c (Proc.devRef .tc main_arg11) = W7 m ρ c (Proc.devRef .tc main_arg11)).trans (kept7_main_arg11 m ρ c)
theorem kept8_main_arg13 : W8 m ρ c (Proc.devRef .tc main_arg13) = (m ((c : Thread nD τ).loc main_arg13)) :=
  (by host_kept hostOps2_2 : W8 m ρ c (Proc.devRef .tc main_arg13) = W7 m ρ c (Proc.devRef .tc main_arg13)).trans (kept7_main_arg13 m ρ c)
theorem kept8_main_arg10 : W8 m ρ c (Proc.devRef .tc main_arg10) = (m ((c : Thread nD τ).loc main_arg10)) :=
  (by host_kept hostOps2_2 : W8 m ρ c (Proc.devRef .tc main_arg10) = W7 m ρ c (Proc.devRef .tc main_arg10)).trans (kept7_main_arg10 m ρ c)
theorem kept8_main_arg12 : W8 m ρ c (Proc.devRef .tc main_arg12) = (m ((c : Thread nD τ).loc main_arg12)) :=
  (by host_kept hostOps2_2 : W8 m ρ c (Proc.devRef .tc main_arg12) = W7 m ρ c (Proc.devRef .tc main_arg12)).trans (kept7_main_arg12 m ρ c)
theorem kept8_main_v17 : W8 m ρ c (Proc.devRef .tc main_v17) = H1 m c :=
  (by host_kept hostOps2_2 : W8 m ρ c (Proc.devRef .tc main_v17) = W7 m ρ c (Proc.devRef .tc main_v17)).trans (kept7_main_v17 m ρ c)
theorem kept8_main_v37 : W8 m ρ c (Proc.devRef .tc main_v37) = H2 m c :=
  (by host_kept hostOps2_2 : W8 m ρ c (Proc.devRef .tc main_v37) = W7 m ρ c (Proc.devRef .tc main_v37)).trans (kept7_main_v37 m ρ c)
set_option maxHeartbeats 4000000 in
theorem w8_main_v38 : W8 m ρ c (Proc.devRef .tc main_v38) = (extractStridedSlice S512x128 ![0, 0] (m ((c : Thread nD τ).loc main_arg8)) slices_S768x128_S512x128_0_0) := by
  show StableHlo.after hostOps2_2 (W7 m ρ c) (Proc.devRef .tc main_v38) = _
  after_results_simp
  rw [kept5_main_arg8]
set_option maxHeartbeats 4000000 in
theorem w8_main_v39 : W8 m ρ c (Proc.devRef .tc main_v39) = (extractStridedSlice S128x128 ![512, 0] (m ((c : Thread nD τ).loc main_arg8)) slices_S768x128_S128x128_512_0) := by
  show StableHlo.after hostOps2_2 (W7 m ρ c) (Proc.devRef .tc main_v39) = _
  after_results_simp
  rw [kept5_main_arg8]
set_option maxHeartbeats 4000000 in
theorem w8_main_v40 : W8 m ρ c (Proc.devRef .tc main_v40) = (extractStridedSlice S128x128 ![640, 0] (m ((c : Thread nD τ).loc main_arg8)) slices_S768x128_S128x128_640_0) := by
  show StableHlo.after hostOps2_2 (W7 m ρ c) (Proc.devRef .tc main_v40) = _
  after_results_simp
  rw [kept5_main_arg8]

/-! ### Boundary 9 -/
theorem kept9_main_arg0 : W9 m ρ c (Proc.devRef .tc main_arg0) = (m ((c : Thread nD τ).loc main_arg0)) :=
  ((W9_arr m ρ c 0).trans (((dat2 (V8 m ρ) c).arrAt_in 0 rfl _).trans (A_eq2 (V8 m ρ) c 0))).trans (kept8_main_arg0 m ρ c)
theorem kept9_main_arg1 : W9 m ρ c (Proc.devRef .tc main_arg1) = (m ((c : Thread nD τ).loc main_arg1)) :=
  (W9_of_ne m ρ c main_arg1 (by decide)).trans (kept8_main_arg1 m ρ c)
theorem kept9_main_arg2 : W9 m ρ c (Proc.devRef .tc main_arg2) = (m ((c : Thread nD τ).loc main_arg2)) :=
  (W9_of_ne m ρ c main_arg2 (by decide)).trans (kept8_main_arg2 m ρ c)
theorem kept9_main_arg3 : W9 m ρ c (Proc.devRef .tc main_arg3) = (m ((c : Thread nD τ).loc main_arg3)) :=
  (W9_of_ne m ρ c main_arg3 (by decide)).trans (kept8_main_arg3 m ρ c)
theorem kept9_main_arg9 : W9 m ρ c (Proc.devRef .tc main_arg9) = (m ((c : Thread nD τ).loc main_arg9)) :=
  (W9_of_ne m ρ c main_arg9 (by decide)).trans (kept8_main_arg9 m ρ c)
theorem kept9_main_arg11 : W9 m ρ c (Proc.devRef .tc main_arg11) = (m ((c : Thread nD τ).loc main_arg11)) :=
  (W9_of_ne m ρ c main_arg11 (by decide)).trans (kept8_main_arg11 m ρ c)
theorem kept9_main_arg13 : W9 m ρ c (Proc.devRef .tc main_arg13) = (m ((c : Thread nD τ).loc main_arg13)) :=
  (W9_of_ne m ρ c main_arg13 (by decide)).trans (kept8_main_arg13 m ρ c)
theorem kept9_main_arg10 : W9 m ρ c (Proc.devRef .tc main_arg10) = (m ((c : Thread nD τ).loc main_arg10)) :=
  (W9_of_ne m ρ c main_arg10 (by decide)).trans (kept8_main_arg10 m ρ c)
theorem kept9_main_arg12 : W9 m ρ c (Proc.devRef .tc main_arg12) = (m ((c : Thread nD τ).loc main_arg12)) :=
  (W9_of_ne m ρ c main_arg12 (by decide)).trans (kept8_main_arg12 m ρ c)
theorem kept9_main_v17 : W9 m ρ c (Proc.devRef .tc main_v17) = H1 m c :=
  ((W9_arr m ρ c 1).trans (((dat2 (V8 m ρ) c).arrAt_in 1 rfl _).trans (A_eq2 (V8 m ρ) c 1))).trans (kept8_main_v17 m ρ c)
theorem kept9_main_v37 : W9 m ρ c (Proc.devRef .tc main_v37) = H2 m c :=
  ((W9_arr m ρ c 2).trans (((dat2 (V8 m ρ) c).arrAt_in 2 rfl _).trans (A_eq2 (V8 m ρ) c 2))).trans (kept8_main_v37 m ρ c)
theorem w9_main_v41 : W9 m ρ c (Proc.devRef .tc main_v41) = L2 m c := by
  refine (W9_arr m ρ c 6).trans ((final2 (V8 m ρ) c).trans ?_)
  dsimp only [V8]
  rw [kept8_main_arg0 m ρ c, kept8_main_v17 m ρ c, kept8_main_v37 m ρ c, w8_main_v38 m ρ c, w8_main_v39 m ρ c, w8_main_v40 m ρ c]
  rfl

/-! ### Boundary 10 -/
theorem kept10_main_arg0 : W10 m ρ c (Proc.devRef .tc main_arg0) = (m ((c : Thread nD τ).loc main_arg0)) :=
  (by host_kept hostOps3 : W10 m ρ c (Proc.devRef .tc main_arg0) = W9 m ρ c (Proc.devRef .tc main_arg0)).trans (kept9_main_arg0 m ρ c)
theorem kept10_main_arg1 : W10 m ρ c (Proc.devRef .tc main_arg1) = (m ((c : Thread nD τ).loc main_arg1)) :=
  (by host_kept hostOps3 : W10 m ρ c (Proc.devRef .tc main_arg1) = W9 m ρ c (Proc.devRef .tc main_arg1)).trans (kept9_main_arg1 m ρ c)
theorem kept10_main_arg2 : W10 m ρ c (Proc.devRef .tc main_arg2) = (m ((c : Thread nD τ).loc main_arg2)) :=
  (by host_kept hostOps3 : W10 m ρ c (Proc.devRef .tc main_arg2) = W9 m ρ c (Proc.devRef .tc main_arg2)).trans (kept9_main_arg2 m ρ c)
theorem kept10_main_arg3 : W10 m ρ c (Proc.devRef .tc main_arg3) = (m ((c : Thread nD τ).loc main_arg3)) :=
  (by host_kept hostOps3 : W10 m ρ c (Proc.devRef .tc main_arg3) = W9 m ρ c (Proc.devRef .tc main_arg3)).trans (kept9_main_arg3 m ρ c)
theorem kept10_main_arg11 : W10 m ρ c (Proc.devRef .tc main_arg11) = (m ((c : Thread nD τ).loc main_arg11)) :=
  (by host_kept hostOps3 : W10 m ρ c (Proc.devRef .tc main_arg11) = W9 m ρ c (Proc.devRef .tc main_arg11)).trans (kept9_main_arg11 m ρ c)
theorem kept10_main_arg13 : W10 m ρ c (Proc.devRef .tc main_arg13) = (m ((c : Thread nD τ).loc main_arg13)) :=
  (by host_kept hostOps3 : W10 m ρ c (Proc.devRef .tc main_arg13) = W9 m ρ c (Proc.devRef .tc main_arg13)).trans (kept9_main_arg13 m ρ c)
theorem kept10_main_arg12 : W10 m ρ c (Proc.devRef .tc main_arg12) = (m ((c : Thread nD τ).loc main_arg12)) :=
  (by host_kept hostOps3 : W10 m ρ c (Proc.devRef .tc main_arg12) = W9 m ρ c (Proc.devRef .tc main_arg12)).trans (kept9_main_arg12 m ρ c)
theorem kept10_main_v17 : W10 m ρ c (Proc.devRef .tc main_v17) = H1 m c :=
  (by host_kept hostOps3 : W10 m ρ c (Proc.devRef .tc main_v17) = W9 m ρ c (Proc.devRef .tc main_v17)).trans (kept9_main_v17 m ρ c)
theorem kept10_main_v37 : W10 m ρ c (Proc.devRef .tc main_v37) = H2 m c :=
  (by host_kept hostOps3 : W10 m ρ c (Proc.devRef .tc main_v37) = W9 m ρ c (Proc.devRef .tc main_v37)).trans (kept9_main_v37 m ρ c)

/-! ### Boundary 11 -/
theorem kept11_main_arg0 : W11 m ρ c (Proc.devRef .tc main_arg0) = (m ((c : Thread nD τ).loc main_arg0)) :=
  (by host_kept hostOps3_1 : W11 m ρ c (Proc.devRef .tc main_arg0) = W10 m ρ c (Proc.devRef .tc main_arg0)).trans (kept10_main_arg0 m ρ c)
theorem kept11_main_arg1 : W11 m ρ c (Proc.devRef .tc main_arg1) = (m ((c : Thread nD τ).loc main_arg1)) :=
  (by host_kept hostOps3_1 : W11 m ρ c (Proc.devRef .tc main_arg1) = W10 m ρ c (Proc.devRef .tc main_arg1)).trans (kept10_main_arg1 m ρ c)
theorem kept11_main_arg2 : W11 m ρ c (Proc.devRef .tc main_arg2) = (m ((c : Thread nD τ).loc main_arg2)) :=
  (by host_kept hostOps3_1 : W11 m ρ c (Proc.devRef .tc main_arg2) = W10 m ρ c (Proc.devRef .tc main_arg2)).trans (kept10_main_arg2 m ρ c)
theorem kept11_main_arg3 : W11 m ρ c (Proc.devRef .tc main_arg3) = (m ((c : Thread nD τ).loc main_arg3)) :=
  (by host_kept hostOps3_1 : W11 m ρ c (Proc.devRef .tc main_arg3) = W10 m ρ c (Proc.devRef .tc main_arg3)).trans (kept10_main_arg3 m ρ c)
theorem kept11_main_arg11 : W11 m ρ c (Proc.devRef .tc main_arg11) = (m ((c : Thread nD τ).loc main_arg11)) :=
  (by host_kept hostOps3_1 : W11 m ρ c (Proc.devRef .tc main_arg11) = W10 m ρ c (Proc.devRef .tc main_arg11)).trans (kept10_main_arg11 m ρ c)
theorem kept11_main_arg13 : W11 m ρ c (Proc.devRef .tc main_arg13) = (m ((c : Thread nD τ).loc main_arg13)) :=
  (by host_kept hostOps3_1 : W11 m ρ c (Proc.devRef .tc main_arg13) = W10 m ρ c (Proc.devRef .tc main_arg13)).trans (kept10_main_arg13 m ρ c)
theorem kept11_main_arg12 : W11 m ρ c (Proc.devRef .tc main_arg12) = (m ((c : Thread nD τ).loc main_arg12)) :=
  (by host_kept hostOps3_1 : W11 m ρ c (Proc.devRef .tc main_arg12) = W10 m ρ c (Proc.devRef .tc main_arg12)).trans (kept10_main_arg12 m ρ c)
theorem kept11_main_v17 : W11 m ρ c (Proc.devRef .tc main_v17) = H1 m c :=
  (by host_kept hostOps3_1 : W11 m ρ c (Proc.devRef .tc main_v17) = W10 m ρ c (Proc.devRef .tc main_v17)).trans (kept10_main_v17 m ρ c)
theorem kept11_main_v37 : W11 m ρ c (Proc.devRef .tc main_v37) = H2 m c :=
  (by host_kept hostOps3_1 : W11 m ρ c (Proc.devRef .tc main_v37) = W10 m ρ c (Proc.devRef .tc main_v37)).trans (kept10_main_v37 m ρ c)
set_option maxHeartbeats 4000000 in
theorem kept11_main_v58 : W11 m ρ c (Proc.devRef .tc main_v58) = H3 m c := by
  show StableHlo.after hostOps3_1 (StableHlo.after hostOps3 (W9 m ρ c)) (Proc.devRef .tc main_v58) = _
  after_results_simp
  simp only [Cert.TypedRef.ofBuf_toBuf]
  refine (cast_eq _ _).trans ?_
  rw [w9_main_v41, kept9_main_arg1, kept9_main_arg2, kept9_main_arg3, kept9_main_arg9]
  exact congrArg (fun z => maximumf z _) (cast_eq _ _)

/-! ### Boundary 12 -/
theorem kept12_main_arg0 : W12 m ρ c (Proc.devRef .tc main_arg0) = (m ((c : Thread nD τ).loc main_arg0)) :=
  (by host_kept hostOps3_2 : W12 m ρ c (Proc.devRef .tc main_arg0) = W11 m ρ c (Proc.devRef .tc main_arg0)).trans (kept11_main_arg0 m ρ c)
theorem kept12_main_arg1 : W12 m ρ c (Proc.devRef .tc main_arg1) = (m ((c : Thread nD τ).loc main_arg1)) :=
  (by host_kept hostOps3_2 : W12 m ρ c (Proc.devRef .tc main_arg1) = W11 m ρ c (Proc.devRef .tc main_arg1)).trans (kept11_main_arg1 m ρ c)
theorem kept12_main_arg2 : W12 m ρ c (Proc.devRef .tc main_arg2) = (m ((c : Thread nD τ).loc main_arg2)) :=
  (by host_kept hostOps3_2 : W12 m ρ c (Proc.devRef .tc main_arg2) = W11 m ρ c (Proc.devRef .tc main_arg2)).trans (kept11_main_arg2 m ρ c)
theorem kept12_main_arg3 : W12 m ρ c (Proc.devRef .tc main_arg3) = (m ((c : Thread nD τ).loc main_arg3)) :=
  (by host_kept hostOps3_2 : W12 m ρ c (Proc.devRef .tc main_arg3) = W11 m ρ c (Proc.devRef .tc main_arg3)).trans (kept11_main_arg3 m ρ c)
theorem kept12_main_arg11 : W12 m ρ c (Proc.devRef .tc main_arg11) = (m ((c : Thread nD τ).loc main_arg11)) :=
  (by host_kept hostOps3_2 : W12 m ρ c (Proc.devRef .tc main_arg11) = W11 m ρ c (Proc.devRef .tc main_arg11)).trans (kept11_main_arg11 m ρ c)
theorem kept12_main_arg13 : W12 m ρ c (Proc.devRef .tc main_arg13) = (m ((c : Thread nD τ).loc main_arg13)) :=
  (by host_kept hostOps3_2 : W12 m ρ c (Proc.devRef .tc main_arg13) = W11 m ρ c (Proc.devRef .tc main_arg13)).trans (kept11_main_arg13 m ρ c)
theorem kept12_main_arg12 : W12 m ρ c (Proc.devRef .tc main_arg12) = (m ((c : Thread nD τ).loc main_arg12)) :=
  (by host_kept hostOps3_2 : W12 m ρ c (Proc.devRef .tc main_arg12) = W11 m ρ c (Proc.devRef .tc main_arg12)).trans (kept11_main_arg12 m ρ c)
theorem kept12_main_v17 : W12 m ρ c (Proc.devRef .tc main_v17) = H1 m c :=
  (by host_kept hostOps3_2 : W12 m ρ c (Proc.devRef .tc main_v17) = W11 m ρ c (Proc.devRef .tc main_v17)).trans (kept11_main_v17 m ρ c)
theorem kept12_main_v37 : W12 m ρ c (Proc.devRef .tc main_v37) = H2 m c :=
  (by host_kept hostOps3_2 : W12 m ρ c (Proc.devRef .tc main_v37) = W11 m ρ c (Proc.devRef .tc main_v37)).trans (kept11_main_v37 m ρ c)
theorem kept12_main_v58 : W12 m ρ c (Proc.devRef .tc main_v58) = H3 m c :=
  (by host_kept hostOps3_2 : W12 m ρ c (Proc.devRef .tc main_v58) = W11 m ρ c (Proc.devRef .tc main_v58)).trans (kept11_main_v58 m ρ c)
set_option maxHeartbeats 4000000 in
theorem w12_main_v59 : W12 m ρ c (Proc.devRef .tc main_v59) = (extractStridedSlice S512x128 ![0, 0] (m ((c : Thread nD τ).loc main_arg10)) slices_S896x128_S512x128_0_0) := by
  show StableHlo.after hostOps3_2 (W11 m ρ c) (Proc.devRef .tc main_v59) = _
  after_results_simp
  rw [kept9_main_arg10]
set_option maxHeartbeats 4000000 in
theorem w12_main_v60 : W12 m ρ c (Proc.devRef .tc main_v60) = (extractStridedSlice S128x128 ![512, 0] (m ((c : Thread nD τ).loc main_arg10)) slices_S896x128_S128x128_512_0) := by
  show StableHlo.after hostOps3_2 (W11 m ρ c) (Proc.devRef .tc main_v60) = _
  after_results_simp
  rw [kept9_main_arg10]
set_option maxHeartbeats 4000000 in
theorem w12_main_v61 : W12 m ρ c (Proc.devRef .tc main_v61) = (extractStridedSlice S128x128 ![640, 0] (m ((c : Thread nD τ).loc main_arg10)) slices_S896x128_S128x128_640_0) := by
  show StableHlo.after hostOps3_2 (W11 m ρ c) (Proc.devRef .tc main_v61) = _
  after_results_simp
  rw [kept9_main_arg10]
set_option maxHeartbeats 4000000 in
theorem w12_main_v62 : W12 m ρ c (Proc.devRef .tc main_v62) = (extractStridedSlice S128x128 ![768, 0] (m ((c : Thread nD τ).loc main_arg10)) slices_S896x128_S128x128_768_0) := by
  show StableHlo.after hostOps3_2 (W11 m ρ c) (Proc.devRef .tc main_v62) = _
  after_results_simp
  rw [kept9_main_arg10]

/-! ### Boundary 13 -/
theorem kept13_main_arg0 : W13 m ρ c (Proc.devRef .tc main_arg0) = (m ((c : Thread nD τ).loc main_arg0)) :=
  ((W13_arr m ρ c 0).trans (((dat3 (V12 m ρ) c).arrAt_in 0 rfl _).trans (A_eq3 (V12 m ρ) c 0))).trans (kept12_main_arg0 m ρ c)
theorem kept13_main_arg1 : W13 m ρ c (Proc.devRef .tc main_arg1) = (m ((c : Thread nD τ).loc main_arg1)) :=
  (W13_of_ne m ρ c main_arg1 (by decide)).trans (kept12_main_arg1 m ρ c)
theorem kept13_main_arg2 : W13 m ρ c (Proc.devRef .tc main_arg2) = (m ((c : Thread nD τ).loc main_arg2)) :=
  (W13_of_ne m ρ c main_arg2 (by decide)).trans (kept12_main_arg2 m ρ c)
theorem kept13_main_arg3 : W13 m ρ c (Proc.devRef .tc main_arg3) = (m ((c : Thread nD τ).loc main_arg3)) :=
  (W13_of_ne m ρ c main_arg3 (by decide)).trans (kept12_main_arg3 m ρ c)
theorem kept13_main_arg11 : W13 m ρ c (Proc.devRef .tc main_arg11) = (m ((c : Thread nD τ).loc main_arg11)) :=
  (W13_of_ne m ρ c main_arg11 (by decide)).trans (kept12_main_arg11 m ρ c)
theorem kept13_main_arg13 : W13 m ρ c (Proc.devRef .tc main_arg13) = (m ((c : Thread nD τ).loc main_arg13)) :=
  (W13_of_ne m ρ c main_arg13 (by decide)).trans (kept12_main_arg13 m ρ c)
theorem kept13_main_arg12 : W13 m ρ c (Proc.devRef .tc main_arg12) = (m ((c : Thread nD τ).loc main_arg12)) :=
  (W13_of_ne m ρ c main_arg12 (by decide)).trans (kept12_main_arg12 m ρ c)
theorem kept13_main_v17 : W13 m ρ c (Proc.devRef .tc main_v17) = H1 m c :=
  ((W13_arr m ρ c 1).trans (((dat3 (V12 m ρ) c).arrAt_in 1 rfl _).trans (A_eq3 (V12 m ρ) c 1))).trans (kept12_main_v17 m ρ c)
theorem kept13_main_v37 : W13 m ρ c (Proc.devRef .tc main_v37) = H2 m c :=
  ((W13_arr m ρ c 2).trans (((dat3 (V12 m ρ) c).arrAt_in 2 rfl _).trans (A_eq3 (V12 m ρ) c 2))).trans (kept12_main_v37 m ρ c)
theorem kept13_main_v58 : W13 m ρ c (Proc.devRef .tc main_v58) = H3 m c :=
  ((W13_arr m ρ c 3).trans (((dat3 (V12 m ρ) c).arrAt_in 3 rfl _).trans (A_eq3 (V12 m ρ) c 3))).trans (kept12_main_v58 m ρ c)
theorem w13_main_v63 : W13 m ρ c (Proc.devRef .tc main_v63) = L3 m c := by
  refine (W13_arr m ρ c 8).trans ((final3 (V12 m ρ) c).trans ?_)
  dsimp only [V12]
  rw [kept12_main_arg0 m ρ c, kept12_main_v17 m ρ c, kept12_main_v37 m ρ c, kept12_main_v58 m ρ c, w12_main_v59 m ρ c, w12_main_v60 m ρ c, w12_main_v61 m ρ c, w12_main_v62 m ρ c]
  rfl

/-! ### Boundary 14 -/
theorem kept14_main_arg0 : W14 m ρ c (Proc.devRef .tc main_arg0) = (m ((c : Thread nD τ).loc main_arg0)) :=
  (by host_kept hostOps4 : W14 m ρ c (Proc.devRef .tc main_arg0) = W13 m ρ c (Proc.devRef .tc main_arg0)).trans (kept13_main_arg0 m ρ c)
theorem kept14_main_arg1 : W14 m ρ c (Proc.devRef .tc main_arg1) = (m ((c : Thread nD τ).loc main_arg1)) :=
  (by host_kept hostOps4 : W14 m ρ c (Proc.devRef .tc main_arg1) = W13 m ρ c (Proc.devRef .tc main_arg1)).trans (kept13_main_arg1 m ρ c)
theorem kept14_main_arg2 : W14 m ρ c (Proc.devRef .tc main_arg2) = (m ((c : Thread nD τ).loc main_arg2)) :=
  (by host_kept hostOps4 : W14 m ρ c (Proc.devRef .tc main_arg2) = W13 m ρ c (Proc.devRef .tc main_arg2)).trans (kept13_main_arg2 m ρ c)
theorem kept14_main_arg3 : W14 m ρ c (Proc.devRef .tc main_arg3) = (m ((c : Thread nD τ).loc main_arg3)) :=
  (by host_kept hostOps4 : W14 m ρ c (Proc.devRef .tc main_arg3) = W13 m ρ c (Proc.devRef .tc main_arg3)).trans (kept13_main_arg3 m ρ c)
theorem kept14_main_arg13 : W14 m ρ c (Proc.devRef .tc main_arg13) = (m ((c : Thread nD τ).loc main_arg13)) :=
  (by host_kept hostOps4 : W14 m ρ c (Proc.devRef .tc main_arg13) = W13 m ρ c (Proc.devRef .tc main_arg13)).trans (kept13_main_arg13 m ρ c)
theorem kept14_main_v17 : W14 m ρ c (Proc.devRef .tc main_v17) = H1 m c :=
  (by host_kept hostOps4 : W14 m ρ c (Proc.devRef .tc main_v17) = W13 m ρ c (Proc.devRef .tc main_v17)).trans (kept13_main_v17 m ρ c)
theorem kept14_main_v37 : W14 m ρ c (Proc.devRef .tc main_v37) = H2 m c :=
  (by host_kept hostOps4 : W14 m ρ c (Proc.devRef .tc main_v37) = W13 m ρ c (Proc.devRef .tc main_v37)).trans (kept13_main_v37 m ρ c)
theorem kept14_main_v58 : W14 m ρ c (Proc.devRef .tc main_v58) = H3 m c :=
  (by host_kept hostOps4 : W14 m ρ c (Proc.devRef .tc main_v58) = W13 m ρ c (Proc.devRef .tc main_v58)).trans (kept13_main_v58 m ρ c)

/-! ### Boundary 15 -/
theorem kept15_main_arg0 : W15 m ρ c (Proc.devRef .tc main_arg0) = (m ((c : Thread nD τ).loc main_arg0)) :=
  (by host_kept hostOps4_1 : W15 m ρ c (Proc.devRef .tc main_arg0) = W14 m ρ c (Proc.devRef .tc main_arg0)).trans (kept14_main_arg0 m ρ c)
theorem kept15_main_arg1 : W15 m ρ c (Proc.devRef .tc main_arg1) = (m ((c : Thread nD τ).loc main_arg1)) :=
  (by host_kept hostOps4_1 : W15 m ρ c (Proc.devRef .tc main_arg1) = W14 m ρ c (Proc.devRef .tc main_arg1)).trans (kept14_main_arg1 m ρ c)
theorem kept15_main_arg2 : W15 m ρ c (Proc.devRef .tc main_arg2) = (m ((c : Thread nD τ).loc main_arg2)) :=
  (by host_kept hostOps4_1 : W15 m ρ c (Proc.devRef .tc main_arg2) = W14 m ρ c (Proc.devRef .tc main_arg2)).trans (kept14_main_arg2 m ρ c)
theorem kept15_main_arg3 : W15 m ρ c (Proc.devRef .tc main_arg3) = (m ((c : Thread nD τ).loc main_arg3)) :=
  (by host_kept hostOps4_1 : W15 m ρ c (Proc.devRef .tc main_arg3) = W14 m ρ c (Proc.devRef .tc main_arg3)).trans (kept14_main_arg3 m ρ c)
theorem kept15_main_arg13 : W15 m ρ c (Proc.devRef .tc main_arg13) = (m ((c : Thread nD τ).loc main_arg13)) :=
  (by host_kept hostOps4_1 : W15 m ρ c (Proc.devRef .tc main_arg13) = W14 m ρ c (Proc.devRef .tc main_arg13)).trans (kept14_main_arg13 m ρ c)
theorem kept15_main_v17 : W15 m ρ c (Proc.devRef .tc main_v17) = H1 m c :=
  (by host_kept hostOps4_1 : W15 m ρ c (Proc.devRef .tc main_v17) = W14 m ρ c (Proc.devRef .tc main_v17)).trans (kept14_main_v17 m ρ c)
theorem kept15_main_v37 : W15 m ρ c (Proc.devRef .tc main_v37) = H2 m c :=
  (by host_kept hostOps4_1 : W15 m ρ c (Proc.devRef .tc main_v37) = W14 m ρ c (Proc.devRef .tc main_v37)).trans (kept14_main_v37 m ρ c)
theorem kept15_main_v58 : W15 m ρ c (Proc.devRef .tc main_v58) = H3 m c :=
  (by host_kept hostOps4_1 : W15 m ρ c (Proc.devRef .tc main_v58) = W14 m ρ c (Proc.devRef .tc main_v58)).trans (kept14_main_v58 m ρ c)
set_option maxHeartbeats 4000000 in
theorem kept15_main_v80 : W15 m ρ c (Proc.devRef .tc main_v80) = H4 m c := by
  show StableHlo.after hostOps4_1 (StableHlo.after hostOps4 (W13 m ρ c)) (Proc.devRef .tc main_v80) = _
  after_results_simp
  simp only [Cert.TypedRef.ofBuf_toBuf]
  refine (cast_eq _ _).trans ?_
  rw [w13_main_v63, kept13_main_arg1, kept13_main_arg2, kept13_main_arg3, kept13_main_arg11]
  exact congrArg (fun z => maximumf z _) (cast_eq _ _)

/-! ### Boundary 16 -/
theorem kept16_main_arg0 : W16 m ρ c (Proc.devRef .tc main_arg0) = (m ((c : Thread nD τ).loc main_arg0)) :=
  (by host_kept hostOps4_2 : W16 m ρ c (Proc.devRef .tc main_arg0) = W15 m ρ c (Proc.devRef .tc main_arg0)).trans (kept15_main_arg0 m ρ c)
theorem kept16_main_arg1 : W16 m ρ c (Proc.devRef .tc main_arg1) = (m ((c : Thread nD τ).loc main_arg1)) :=
  (by host_kept hostOps4_2 : W16 m ρ c (Proc.devRef .tc main_arg1) = W15 m ρ c (Proc.devRef .tc main_arg1)).trans (kept15_main_arg1 m ρ c)
theorem kept16_main_arg2 : W16 m ρ c (Proc.devRef .tc main_arg2) = (m ((c : Thread nD τ).loc main_arg2)) :=
  (by host_kept hostOps4_2 : W16 m ρ c (Proc.devRef .tc main_arg2) = W15 m ρ c (Proc.devRef .tc main_arg2)).trans (kept15_main_arg2 m ρ c)
theorem kept16_main_arg3 : W16 m ρ c (Proc.devRef .tc main_arg3) = (m ((c : Thread nD τ).loc main_arg3)) :=
  (by host_kept hostOps4_2 : W16 m ρ c (Proc.devRef .tc main_arg3) = W15 m ρ c (Proc.devRef .tc main_arg3)).trans (kept15_main_arg3 m ρ c)
theorem kept16_main_arg13 : W16 m ρ c (Proc.devRef .tc main_arg13) = (m ((c : Thread nD τ).loc main_arg13)) :=
  (by host_kept hostOps4_2 : W16 m ρ c (Proc.devRef .tc main_arg13) = W15 m ρ c (Proc.devRef .tc main_arg13)).trans (kept15_main_arg13 m ρ c)
theorem kept16_main_v17 : W16 m ρ c (Proc.devRef .tc main_v17) = H1 m c :=
  (by host_kept hostOps4_2 : W16 m ρ c (Proc.devRef .tc main_v17) = W15 m ρ c (Proc.devRef .tc main_v17)).trans (kept15_main_v17 m ρ c)
theorem kept16_main_v37 : W16 m ρ c (Proc.devRef .tc main_v37) = H2 m c :=
  (by host_kept hostOps4_2 : W16 m ρ c (Proc.devRef .tc main_v37) = W15 m ρ c (Proc.devRef .tc main_v37)).trans (kept15_main_v37 m ρ c)
theorem kept16_main_v58 : W16 m ρ c (Proc.devRef .tc main_v58) = H3 m c :=
  (by host_kept hostOps4_2 : W16 m ρ c (Proc.devRef .tc main_v58) = W15 m ρ c (Proc.devRef .tc main_v58)).trans (kept15_main_v58 m ρ c)
theorem kept16_main_v80 : W16 m ρ c (Proc.devRef .tc main_v80) = H4 m c :=
  (by host_kept hostOps4_2 : W16 m ρ c (Proc.devRef .tc main_v80) = W15 m ρ c (Proc.devRef .tc main_v80)).trans (kept15_main_v80 m ρ c)
set_option maxHeartbeats 4000000 in
theorem w16_main_v81 : W16 m ρ c (Proc.devRef .tc main_v81) = (extractStridedSlice S512x40 ![0, 0] (m ((c : Thread nD τ).loc main_arg12)) slices_S1024x40_S512x40_0_0) := by
  show StableHlo.after hostOps4_2 (W15 m ρ c) (Proc.devRef .tc main_v81) = _
  after_results_simp
  rw [kept13_main_arg12]
set_option maxHeartbeats 4000000 in
theorem w16_main_v82 : W16 m ρ c (Proc.devRef .tc main_v82) = (extractStridedSlice S128x40 ![512, 0] (m ((c : Thread nD τ).loc main_arg12)) slices_S1024x40_S128x40_512_0) := by
  show StableHlo.after hostOps4_2 (W15 m ρ c) (Proc.devRef .tc main_v82) = _
  after_results_simp
  rw [kept13_main_arg12]
set_option maxHeartbeats 4000000 in
theorem w16_main_v83 : W16 m ρ c (Proc.devRef .tc main_v83) = (extractStridedSlice S128x40 ![640, 0] (m ((c : Thread nD τ).loc main_arg12)) slices_S1024x40_S128x40_640_0) := by
  show StableHlo.after hostOps4_2 (W15 m ρ c) (Proc.devRef .tc main_v83) = _
  after_results_simp
  rw [kept13_main_arg12]
set_option maxHeartbeats 4000000 in
theorem w16_main_v84 : W16 m ρ c (Proc.devRef .tc main_v84) = (extractStridedSlice S128x40 ![768, 0] (m ((c : Thread nD τ).loc main_arg12)) slices_S1024x40_S128x40_768_0) := by
  show StableHlo.after hostOps4_2 (W15 m ρ c) (Proc.devRef .tc main_v84) = _
  after_results_simp
  rw [kept13_main_arg12]
set_option maxHeartbeats 4000000 in
theorem w16_main_v85 : W16 m ρ c (Proc.devRef .tc main_v85) = (extractStridedSlice S128x40 ![896, 0] (m ((c : Thread nD τ).loc main_arg12)) slices_S1024x40_S128x40_896_0) := by
  show StableHlo.after hostOps4_2 (W15 m ρ c) (Proc.devRef .tc main_v85) = _
  after_results_simp
  rw [kept13_main_arg12]

/-! ### Boundary 17 -/
theorem kept17_main_arg1 : W17 m ρ c (Proc.devRef .tc main_arg1) = (m ((c : Thread nD τ).loc main_arg1)) :=
  (W17_of_ne m ρ c main_arg1 (by decide)).trans (kept16_main_arg1 m ρ c)
theorem kept17_main_arg2 : W17 m ρ c (Proc.devRef .tc main_arg2) = (m ((c : Thread nD τ).loc main_arg2)) :=
  (W17_of_ne m ρ c main_arg2 (by decide)).trans (kept16_main_arg2 m ρ c)
theorem kept17_main_arg3 : W17 m ρ c (Proc.devRef .tc main_arg3) = (m ((c : Thread nD τ).loc main_arg3)) :=
  (W17_of_ne m ρ c main_arg3 (by decide)).trans (kept16_main_arg3 m ρ c)
theorem kept17_main_arg13 : W17 m ρ c (Proc.devRef .tc main_arg13) = (m ((c : Thread nD τ).loc main_arg13)) :=
  (W17_of_ne m ρ c main_arg13 (by decide)).trans (kept16_main_arg13 m ρ c)
theorem w17_main_v86 : W17 m ρ c (Proc.devRef .tc main_v86) = L4 m c := by
  refine (W17_arr m ρ c 10).trans ((final4 (V16 m ρ) c).trans ?_)
  dsimp only [V16]
  rw [kept16_main_arg0 m ρ c, kept16_main_v17 m ρ c, kept16_main_v37 m ρ c, kept16_main_v58 m ρ c, kept16_main_v80 m ρ c, w16_main_v81 m ρ c, w16_main_v82 m ρ c, w16_main_v83 m ρ c, w16_main_v84 m ρ c, w16_main_v85 m ρ c]
  rfl

/-! ### Boundary 18 -/
set_option maxHeartbeats 4000000 in
theorem w18_main_v102 : W18 m ρ c (Proc.devRef .tc main_v102) = result m c := by
  show StableHlo.after hostOps5 (W17 m ρ c) (Proc.devRef .tc main_v102) = _
  after_results_simp
  rw [w17_main_v86, kept17_main_arg1, kept17_main_arg2, kept17_main_arg3, kept17_main_arg13]
  rfl

end Cert.KernelIdeal.Layers

end
-- ==== Proof.RefLayers.lean ====
/-
  The reference program's result, layer by layer.

  Each layer multiplies the features and the hidden blocks so far, laid side by side, into the layer's weight matrix,
  aggregates the product over the graph's edges, adds the bias and, for a hidden layer, applies the rectifier.  The
  program's composed term is this composition, read off operation by operation.
-/
import proofs.«114441_j62878321213489_1_alg».proof.Proof.Gen.ReferenceIdeal.Run
import Idealize.ShloMosaic.PureOps.Ideal

set_option maxRecDepth 16384

noncomputable section

namespace Cert.ReferenceIdeal.Layers

open Cert.ReferenceIdeal Cert.ReferenceIdeal.Gen Cert.ReferenceIdeal.Value Idealize.ShloMosaic Idealize.ShloMosaic.TcCoe Idealize.SL.Sem

/-- One layer's aggregation before the rectifier, as the host computes it from the layer's linear part `lin`: each edge
    `e` takes row `src e` of `lin` (an index below zero counted from the end), scales it by `val e`, and adds it into
    row `dst e` of an array of zeros; then the bias row is added to every row. -/
def preact (lin : FVec Ideal S50000x128 .f32) (src dst : (⟨S800000, .i32⟩ : BufTy).Contents (Elt Ideal))
    (val : FVec Ideal S800000 .f32) (b : FVec Ideal S128 .f32) : FVec Ideal S50000x128 .f32 :=
  addf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (mulf (broadcastInDim S800000x128 ![0, 1] bcast_S800000x1_S800000x128_0_1 (broadcastInDim S800000x1 ![0] bcast_S800000_S800000x1_0 val)) (Host.gather gather_S50000x128_S800000x1_S800000x128_1_0_n_n_0_1_1128 lin (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))))) (broadcastInDim S50000x128 ![0, 1] bcast_S1x128_S50000x128_0_1 (broadcastInDim S1x128 ![1] bcast_S128_S1x128_1 b))

/-- A hidden block: the aggregation with every entry below zero replaced by zero. -/
def hidden (lin : FVec Ideal S50000x128 .f32) (src dst : (⟨S800000, .i32⟩ : BufTy).Contents (Elt Ideal))
    (val : FVec Ideal S800000 .f32) (b : FVec Ideal S128 .f32) : FVec Ideal S50000x128 .f32 :=
  maximumf (preact lin src dst val b) (broadcastInDim S50000x128 ![] bcast_S_S50000x128 (constant S_ .f32 0x00000000#32))

/-- The output layer: the same aggregation at 40 columns, with no rectifier. -/
def logits (lin : FVec Ideal S50000x40 .f32) (src dst : (⟨S800000, .i32⟩ : BufTy).Contents (Elt Ideal))
    (val : FVec Ideal S800000 .f32) (b : FVec Ideal S40 .f32) : FVec Ideal S50000x40 .f32 :=
  addf (Host.scatterAdd scatter_S50000x40_S800000x1_S800000x40_1_0_0_1 (broadcastInDim S50000x40 ![] bcast_S_S50000x40 (constant S_ .f32 0x00000000#32)) (broadcastInDim S800000x1 ![0] bcast_S800000_S800000x1_0 dst) (mulf (broadcastInDim S800000x40 ![0, 1] bcast_S800000x1_S800000x40_0_1 (broadcastInDim S800000x1 ![0] bcast_S800000_S800000x1_0 val)) (Host.gather gather_S50000x40_S800000x1_S800000x40_1_0_n_n_0_1_140 lin (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))))) (broadcastInDim S50000x40 ![0, 1] bcast_S1x40_S50000x40_0_1 (broadcastInDim S1x40 ![1] bcast_S40_S1x40_1 b))

variable (m : (ℓ : Loc nD τ sig) → Buf (Elt Ideal) ℓ) (c : Dev nD)

/-- Layer 0's linear part: the features times the layer's weight matrix. -/
def P0 : FVec Ideal S50000x128 .f32 :=
  Host.dotGeneral (φ₁ := .f32) (φ₂ := .f32) dot_S50000x512_S512x128_S50000x128_1_0_0_1_n_n none (m ((c : Thread nD τ).loc main_arg0)) (m ((c : Thread nD τ).loc main_arg4))
/-- Hidden block 1. -/
def G1 : FVec Ideal S50000x128 .f32 := hidden (P0 m c) (m ((c : Thread nD τ).loc main_arg1)) (m ((c : Thread nD τ).loc main_arg2)) (m ((c : Thread nD τ).loc main_arg3)) (m ((c : Thread nD τ).loc main_arg5))
/-- Layer 1's linear part: the features and the hidden blocks so far, side by side, times the layer's weight matrix. -/
def P1 : FVec Ideal S50000x128 .f32 :=
  Host.dotGeneral (φ₁ := .f32) (φ₂ := .f32) dot_S50000x640_S640x128_S50000x128_1_0_0_1_n_n none (concatenate S50000x640 1 [⟨S50000x512, (m ((c : Thread nD τ).loc main_arg0))⟩, ⟨S50000x128, (G1 m c)⟩] concatenates_S50000x512_S50000x128_S50000x640_d1) (m ((c : Thread nD τ).loc main_arg6))
/-- Hidden block 2. -/
def G2 : FVec Ideal S50000x128 .f32 := hidden (P1 m c) (m ((c : Thread nD τ).loc main_arg1)) (m ((c : Thread nD τ).loc main_arg2)) (m ((c : Thread nD τ).loc main_arg3)) (m ((c : Thread nD τ).loc main_arg7))
/-- Layer 2's linear part: the features and the hidden blocks so far, side by side, times the layer's weight matrix. -/
def P2 : FVec Ideal S50000x128 .f32 :=
  Host.dotGeneral (φ₁ := .f32) (φ₂ := .f32) dot_S50000x768_S768x128_S50000x128_1_0_0_1_n_n none (concatenate S50000x768 1 [⟨S50000x512, (m ((c : Thread nD τ).loc main_arg0))⟩, ⟨S50000x128, (G1 m c)⟩, ⟨S50000x128, (G2 m c)⟩] concatenates_S50000x512_S50000x128_S50000x128_S50000x768_d1) (m ((c : Thread nD τ).loc main_arg8))
/-- Hidden block 3. -/
def G3 : FVec Ideal S50000x128 .f32 := hidden (P2 m c) (m ((c : Thread nD τ).loc main_arg1)) (m ((c : Thread nD τ).loc main_arg2)) (m ((c : Thread nD τ).loc main_arg3)) (m ((c : Thread nD τ).loc main_arg9))
/-- Layer 3's linear part: the features and the hidden blocks so far, side by side, times the layer's weight matrix. -/
def P3 : FVec Ideal S50000x128 .f32 :=
  Host.dotGeneral (φ₁ := .f32) (φ₂ := .f32) dot_S50000x896_S896x128_S50000x128_1_0_0_1_n_n none (concatenate S50000x896 1 [⟨S50000x512, (m ((c : Thread nD τ).loc main_arg0))⟩, ⟨S50000x128, (G1 m c)⟩, ⟨S50000x128, (G2 m c)⟩, ⟨S50000x128, (G3 m c)⟩] concatenates_S50000x512_S50000x128_S50000x128_S50000x128_S50000x896_d1) (m ((c : Thread nD τ).loc main_arg10))
/-- Hidden block 4. -/
def G4 : FVec Ideal S50000x128 .f32 := hidden (P3 m c) (m ((c : Thread nD τ).loc main_arg1)) (m ((c : Thread nD τ).loc main_arg2)) (m ((c : Thread nD τ).loc main_arg3)) (m ((c : Thread nD τ).loc main_arg11))
/-- Layer 4's linear part: the features and the hidden blocks so far, side by side, times the layer's weight matrix. -/
def P4 : FVec Ideal S50000x40 .f32 :=
  Host.dotGeneral (φ₁ := .f32) (φ₂ := .f32) dot_S50000x1024_S1024x40_S50000x40_1_0_0_1_n_n none (concatenate S50000x1024 1 [⟨S50000x512, (m ((c : Thread nD τ).loc main_arg0))⟩, ⟨S50000x128, (G1 m c)⟩, ⟨S50000x128, (G2 m c)⟩, ⟨S50000x128, (G3 m c)⟩, ⟨S50000x128, (G4 m c)⟩] concatenates_S50000x512_S50000x128_S50000x128_S50000x128_S50000x128_S50000x1024_d1) (m ((c : Thread nD τ).loc main_arg12))
/-- The reference's result. -/
def refResult : FVec Ideal S50000x40 .f32 := logits (P4 m c) (m ((c : Thread nD τ).loc main_arg1)) (m ((c : Thread nD τ).loc main_arg2)) (m ((c : Thread nD τ).loc main_arg3)) (m ((c : Thread nD τ).loc main_arg13))

set_option maxHeartbeats 4000000 in
/-- The program's composed term is the layers' composition. -/
theorem res_eq : res_main_v92 (F := Ideal) m c = refResult m c := by
  unfold res_main_v92 refResult logits P4 G4 hidden preact P3 G3 P2 G2 P1 G1 P0
  rfl

end Cert.ReferenceIdeal.Layers

end
-- ==== Proof.LibHostProduct.lean ====
/-
  The host's matrix product and two of its broadcasts, read at an index, at the ideal values.

  For `A : [m, k]` and `B : [k, n]`, the host's product contracting the second axis of `A` with the first of `B` has at
  `(a, b)` the sum over `c` of `A (a, c) · B (c, b)`: it has no accumulator, so this is the whole entry.  An `[a, 1]`
  column laid along the columns of an `[a, b]` array has at `(p, c)` the column's entry `p`, and a vector of length `n`
  laid as a `[1, n]` row has at `(0, q)` its entry `q`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

variable {α : Type}

/-- An `[a, 1]` column laid along the columns of an `[a, b]` array: entry `(p, c)` is the column's entry `p`. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ =>
    show (0 : ℕ) = if (1 : ℕ) = 1 then 0 else _
    simp

/-- A vector laid as a one-row matrix by the host: entry `(0, q)` is the vector's entry `q`. -/
theorem broadcastInDim_row_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) ?_
  intro ax
  match ax with
  | ⟨0, _⟩ =>
    show q.val = if n = 1 then 0 else q.val
    split
    · have := q.isLt; omega
    · rfl

end Cert.HostProduct

end
-- ==== Proof.LibConcatProduct.lean ====
/-
  The host's product of a side-by-side matrix with a weight matrix is the sum of the blocks' bands.

  Column `o + c` of the side-by-side matrix is column `c` of the block that begins at column `o`; the host's product
  contracts over all columns; cutting the sum where the blocks meet gives the bands, associated to the left:
  `((band₀ + band₁) + band₂) + …`.
-/
import proofs.«114441_j62878321213489_1_alg».proof.Proof.LibPartialProducts
import proofs.«114441_j62878321213489_1_alg».proof.Proof.LibHostProduct

noncomputable section

namespace Cert.Snowball

open Idealize.ShloMosaic Idealize.ShloMosaic.ValueIdx

/-- Column `kk = o + c` of the side-by-side `[n, K]` matrix is column `c` of its `i`-th block `X : [n, k]`, when the
    blocks before it have `o` columns together. -/
theorem cat_at {n K : ℕ} (xs : List ((s : Shape) × (s.Idx → EReal)))
    (h : Shape.Concatenates (xs.map (·.1)) ⟨2, ![n, K]⟩ 1)
    (i : ℕ) (hi : i < xs.length) {k : ℕ} (X : (⟨2, ![n, k]⟩ : Shape).Idx → EReal) (hx : xs[i] = ⟨⟨2, ![n, k]⟩, X⟩) (o : ℕ)
    (hpre : (((xs.take i).map (·.1)).map fun s : Shape =>
      if h : s.rank = (⟨2, ![n, K]⟩ : Shape).rank then s.size ((1 : Fin (⟨2, ![n, K]⟩ : Shape).rank).cast h.symm) else 0).sum = o)
    (p : Fin n) (c : Fin k) (kk : Fin K) (hkk : kk.val = o + c.val) :
    concatenate ⟨2, ![n, K]⟩ 1 xs h (ix2 p kk) = X (ix2 p c) :=
  concatenate_apply_piece 1 xs h (ix2 p kk) i hi _ X hx rfl o hpre (ix2 p c)
    (fun b hb => by
      match b with
      | ⟨0, _⟩ => rfl
      | ⟨1, _⟩ => exact absurd rfl hb)
    hkk.symm

/-- The first band starts at row `0`. -/
theorem band_zero {n k K d : ℕ} (X : (⟨2, ![n, k]⟩ : Shape).Idx → EReal) (W : (⟨2, ![K, d]⟩ : Shape).Idx → EReal)
    (ho : 0 + k ≤ K) (p : Fin n) (q : Fin d) :
    band X W 0 ho p q = ∑ c : Fin k, X (ix2 p c) * W (ix2 (⟨c.val, by have := c.isLt; omega⟩ : Fin K) q) := by
  unfold band
  refine Finset.sum_congr rfl fun c _ => ?_
  congr 2
  exact congrArg (fun r => ix2 r q) (Fin.ext (Nat.zero_add _))

/-- One block: the host's product itself is the band from row `0`. -/
theorem dot_cat1 {n k0 d : ℕ}
    (w : DotDims.WF ⟨2, ![n, k0]⟩ ⟨2, ![k0, d]⟩ ⟨2, ![n, d]⟩ [1] [0] [0] [1] [] [])
    (X0 : FVec Ideal ⟨2, ![n, k0]⟩ .f32) (W : FVec Ideal ⟨2, ![k0, d]⟩ .f32) (p : Fin n) (q : Fin d) :
    Host.dotGeneral (⟨[1], [0], [0], [1], [], [], w⟩ : DotDims _ _ _) none X0 W (ix2 p q)
      = band X0 W 0 (by omega) p q := by
  rw [Cert.HostProduct.dotGeneral_nn_apply, band_zero]

/-- Two blocks. -/
theorem dot_cat2 {n k0 k1 d : ℕ}
    (hc : Shape.Concatenates [(⟨2, ![n, k0]⟩ : Shape), ⟨2, ![n, k1]⟩] ⟨2, ![n, k0 + k1]⟩ 1)
    (w : DotDims.WF ⟨2, ![n, k0 + k1]⟩ ⟨2, ![k0 + k1, d]⟩ ⟨2, ![n, d]⟩ [1] [0] [0] [1] [] [])
    (X0 : FVec Ideal ⟨2, ![n, k0]⟩ .f32) (X1 : FVec Ideal ⟨2, ![n, k1]⟩ .f32)
    (W : FVec Ideal ⟨2, ![k0 + k1, d]⟩ .f32) (p : Fin n) (q : Fin d) :
    Host.dotGeneral (⟨[1], [0], [0], [1], [], [], w⟩ : DotDims _ _ _) none
        (concatenate ⟨2, ![n, k0 + k1]⟩ 1 [⟨⟨2, ![n, k0]⟩, X0⟩, ⟨⟨2, ![n, k1]⟩, X1⟩] hc : FVec Ideal _ .f32) W (ix2 p q)
      = band X0 W 0 (by omega) p q + band X1 W (k0) (by omega) p q := by
  rw [Cert.HostProduct.dotGeneral_nn_apply, sum_cut, band_zero]
  congr 1
  · refine Finset.sum_congr rfl fun c _ => ?_
    rw [cat_at [⟨⟨2, ![n, k0]⟩, X0⟩, ⟨⟨2, ![n, k1]⟩, X1⟩] hc 0 (by show (0 : ℕ) < 2; omega) X0 rfl 0 rfl p c _ (Nat.zero_add _).symm]
  · unfold band
    refine Finset.sum_congr rfl fun c _ => ?_
    rw [cat_at [⟨⟨2, ![n, k0]⟩, X0⟩, ⟨⟨2, ![n, k1]⟩, X1⟩] hc 1 (by show (1 : ℕ) < 2; omega) X1 rfl (k0) (by show k0 + (0) = k0; omega) p c _ rfl]

/-- Three blocks. -/
theorem dot_cat3 {n k0 k1 k2 d : ℕ}
    (hc : Shape.Concatenates [(⟨2, ![n, k0]⟩ : Shape), ⟨2, ![n, k1]⟩, ⟨2, ![n, k2]⟩] ⟨2, ![n, k0 + k1 + k2]⟩ 1)
    (w : DotDims.WF ⟨2, ![n, k0 + k1 + k2]⟩ ⟨2, ![k0 + k1 + k2, d]⟩ ⟨2, ![n, d]⟩ [1] [0] [0] [1] [] [])
    (X0 : FVec Ideal ⟨2, ![n, k0]⟩ .f32) (X1 : FVec Ideal ⟨2, ![n, k1]⟩ .f32) (X2 : FVec Ideal ⟨2, ![n, k2]⟩ .f32)
    (W : FVec Ideal ⟨2, ![k0 + k1 + k2, d]⟩ .f32) (p : Fin n) (q : Fin d) :
    Host.dotGeneral (⟨[1], [0], [0], [1], [], [], w⟩ : DotDims _ _ _) none
        (concatenate ⟨2, ![n, k0 + k1 + k2]⟩ 1 [⟨⟨2, ![n, k0]⟩, X0⟩, ⟨⟨2, ![n, k1]⟩, X1⟩, ⟨⟨2, ![n, k2]⟩, X2⟩] hc : FVec Ideal _ .f32) W (ix2 p q)
      = band X0 W 0 (by omega) p q + band X1 W (k0) (by omega) p q + band X2 W (k0 + k1) (by omega) p q := by
  rw [Cert.HostProduct.dotGeneral_nn_apply, sum_cut, sum_cut, band_zero]
  congr 1
  · congr 1
    · refine Finset.sum_congr rfl fun c _ => ?_
      rw [cat_at [⟨⟨2, ![n, k0]⟩, X0⟩, ⟨⟨2, ![n, k1]⟩, X1⟩, ⟨⟨2, ![n, k2]⟩, X2⟩] hc 0 (by show (0 : ℕ) < 3; omega) X0 rfl 0 rfl p c _ (Nat.zero_add _).symm]
    · unfold band
      refine Finset.sum_congr rfl fun c _ => ?_
      rw [cat_at [⟨⟨2, ![n, k0]⟩, X0⟩, ⟨⟨2, ![n, k1]⟩, X1⟩, ⟨⟨2, ![n, k2]⟩, X2⟩] hc 1 (by show (1 : ℕ) < 3; omega) X1 rfl (k0) (by show k0 + (0) = k0; omega) p c _ rfl]
  · unfold band
    refine Finset.sum_congr rfl fun c _ => ?_
    rw [cat_at [⟨⟨2, ![n, k0]⟩, X0⟩, ⟨⟨2, ![n, k1]⟩, X1⟩, ⟨⟨2, ![n, k2]⟩, X2⟩] hc 2 (by show (2 : ℕ) < 3; omega) X2 rfl (k0 + k1) (by show k0 + (k1 + (0)) = k0 + k1; omega) p c _ rfl]

/-- Four blocks. -/
theorem dot_cat4 {n k0 k1 k2 k3 d : ℕ}
    (hc : Shape.Concatenates [(⟨2, ![n, k0]⟩ : Shape), ⟨2, ![n, k1]⟩, ⟨2, ![n, k2]⟩, ⟨2, ![n, k3]⟩] ⟨2, ![n, k0 + k1 + k2 + k3]⟩ 1)
    (w : DotDims.WF ⟨2, ![n, k0 + k1 + k2 + k3]⟩ ⟨2, ![k0 + k1 + k2 + k3, d]⟩ ⟨2, ![n, d]⟩ [1] [0] [0] [1] [] [])
    (X0 : FVec Ideal ⟨2, ![n, k0]⟩ .f32) (X1 : FVec Ideal ⟨2, ![n, k1]⟩ .f32) (X2 : FVec Ideal ⟨2, ![n, k2]⟩ .f32) (X3 : FVec Ideal ⟨2, ![n, k3]⟩ .f32)
    (W : FVec Ideal ⟨2, ![k0 + k1 + k2 + k3, d]⟩ .f32) (p : Fin n) (q : Fin d) :
    Host.dotGeneral (⟨[1], [0], [0], [1], [], [], w⟩ : DotDims _ _ _) none
        (concatenate ⟨2, ![n, k0 + k1 + k2 + k3]⟩ 1 [⟨⟨2, ![n, k0]⟩, X0⟩, ⟨⟨2, ![n, k1]⟩, X1⟩, ⟨⟨2, ![n, k2]⟩, X2⟩, ⟨⟨2, ![n, k3]⟩, X3⟩] hc : FVec Ideal _ .f32) W (ix2 p q)
      = band X0 W 0 (by omega) p q + band X1 W (k0) (by omega) p q + band X2 W (k0 + k1) (by omega) p q + band X3 W (k0 + k1 + k2) (by omega) p q := by
  rw [Cert.HostProduct.dotGeneral_nn_apply, sum_cut, sum_cut, sum_cut, band_zero]
  congr 1
  · congr 1
    · congr 1
      · refine Finset.sum_congr rfl fun c _ => ?_
        rw [cat_at [⟨⟨2, ![n, k0]⟩, X0⟩, ⟨⟨2, ![n, k1]⟩, X1⟩, ⟨⟨2, ![n, k2]⟩, X2⟩, ⟨⟨2, ![n, k3]⟩, X3⟩] hc 0 (by show (0 : ℕ) < 4; omega) X0 rfl 0 rfl p c _ (Nat.zero_add _).symm]
      · unfold band
        refine Finset.sum_congr rfl fun c _ => ?_
        rw [cat_at [⟨⟨2, ![n, k0]⟩, X0⟩, ⟨⟨2, ![n, k1]⟩, X1⟩, ⟨⟨2, ![n, k2]⟩, X2⟩, ⟨⟨2, ![n, k3]⟩, X3⟩] hc 1 (by show (1 : ℕ) < 4; omega) X1 rfl (k0) (by show k0 + (0) = k0; omega) p c _ rfl]
    · unfold band
      refine Finset.sum_congr rfl fun c _ => ?_
      rw [cat_at [⟨⟨2, ![n, k0]⟩, X0⟩, ⟨⟨2, ![n, k1]⟩, X1⟩, ⟨⟨2, ![n, k2]⟩, X2⟩, ⟨⟨2, ![n, k3]⟩, X3⟩] hc 2 (by show (2 : ℕ) < 4; omega) X2 rfl (k0 + k1) (by show k0 + (k1 + (0)) = k0 + k1; omega) p c _ rfl]
  · unfold band
    refine Finset.sum_congr rfl fun c _ => ?_
    rw [cat_at [⟨⟨2, ![n, k0]⟩, X0⟩, ⟨⟨2, ![n, k1]⟩, X1⟩, ⟨⟨2, ![n, k2]⟩, X2⟩, ⟨⟨2, ![n, k3]⟩, X3⟩] hc 3 (by show (3 : ℕ) < 4; omega) X3 rfl (k0 + k1 + k2) (by show k0 + (k1 + (k2 + (0))) = k0 + k1 + k2; omega) p c _ rfl]

/-- Five blocks. -/
theorem dot_cat5 {n k0 k1 k2 k3 k4 d : ℕ}
    (hc : Shape.Concatenates [(⟨2, ![n, k0]⟩ : Shape), ⟨2, ![n, k1]⟩, ⟨2, ![n, k2]⟩, ⟨2, ![n, k3]⟩, ⟨2, ![n, k4]⟩] ⟨2, ![n, k0 + k1 + k2 + k3 + k4]⟩ 1)
    (w : DotDims.WF ⟨2, ![n, k0 + k1 + k2 + k3 + k4]⟩ ⟨2, ![k0 + k1 + k2 + k3 + k4, d]⟩ ⟨2, ![n, d]⟩ [1] [0] [0] [1] [] [])
    (X0 : FVec Ideal ⟨2, ![n, k0]⟩ .f32) (X1 : FVec Ideal ⟨2, ![n, k1]⟩ .f32) (X2 : FVec Ideal ⟨2, ![n, k2]⟩ .f32) (X3 : FVec Ideal ⟨2, ![n, k3]⟩ .f32) (X4 : FVec Ideal ⟨2, ![n, k4]⟩ .f32)
    (W : FVec Ideal ⟨2, ![k0 + k1 + k2 + k3 + k4, d]⟩ .f32) (p : Fin n) (q : Fin d) :
    Host.dotGeneral (⟨[1], [0], [0], [1], [], [], w⟩ : DotDims _ _ _) none
        (concatenate ⟨2, ![n, k0 + k1 + k2 + k3 + k4]⟩ 1 [⟨⟨2, ![n, k0]⟩, X0⟩, ⟨⟨2, ![n, k1]⟩, X1⟩, ⟨⟨2, ![n, k2]⟩, X2⟩, ⟨⟨2, ![n, k3]⟩, X3⟩, ⟨⟨2, ![n, k4]⟩, X4⟩] hc : FVec Ideal _ .f32) W (ix2 p q)
      = band X0 W 0 (by omega) p q + band X1 W (k0) (by omega) p q + band X2 W (k0 + k1) (by omega) p q + band X3 W (k0 + k1 + k2) (by omega) p q + band X4 W (k0 + k1 + k2 + k3) (by omega) p q := by
  rw [Cert.HostProduct.dotGeneral_nn_apply, sum_cut, sum_cut, sum_cut, sum_cut, band_zero]
  congr 1
  · congr 1
    · congr 1
      · congr 1
        · refine Finset.sum_congr rfl fun c _ => ?_
          rw [cat_at [⟨⟨2, ![n, k0]⟩, X0⟩, ⟨⟨2, ![n, k1]⟩, X1⟩, ⟨⟨2, ![n, k2]⟩, X2⟩, ⟨⟨2, ![n, k3]⟩, X3⟩, ⟨⟨2, ![n, k4]⟩, X4⟩] hc 0 (by show (0 : ℕ) < 5; omega) X0 rfl 0 rfl p c _ (Nat.zero_add _).symm]
        · unfold band
          refine Finset.sum_congr rfl fun c _ => ?_
          rw [cat_at [⟨⟨2, ![n, k0]⟩, X0⟩, ⟨⟨2, ![n, k1]⟩, X1⟩, ⟨⟨2, ![n, k2]⟩, X2⟩, ⟨⟨2, ![n, k3]⟩, X3⟩, ⟨⟨2, ![n, k4]⟩, X4⟩] hc 1 (by show (1 : ℕ) < 5; omega) X1 rfl (k0) (by show k0 + (0) = k0; omega) p c _ rfl]
      · unfold band
        refine Finset.sum_congr rfl fun c _ => ?_
        rw [cat_at [⟨⟨2, ![n, k0]⟩, X0⟩, ⟨⟨2, ![n, k1]⟩, X1⟩, ⟨⟨2, ![n, k2]⟩, X2⟩, ⟨⟨2, ![n, k3]⟩, X3⟩, ⟨⟨2, ![n, k4]⟩, X4⟩] hc 2 (by show (2 : ℕ) < 5; omega) X2 rfl (k0 + k1) (by show k0 + (k1 + (0)) = k0 + k1; omega) p c _ rfl]
    · unfold band
      refine Finset.sum_congr rfl fun c _ => ?_
      rw [cat_at [⟨⟨2, ![n, k0]⟩, X0⟩, ⟨⟨2, ![n, k1]⟩, X1⟩, ⟨⟨2, ![n, k2]⟩, X2⟩, ⟨⟨2, ![n, k3]⟩, X3⟩, ⟨⟨2, ![n, k4]⟩, X4⟩] hc 3 (by show (3 : ℕ) < 5; omega) X3 rfl (k0 + k1 + k2) (by show k0 + (k1 + (k2 + (0))) = k0 + k1 + k2; omega) p c _ rfl]
  · unfold band
    refine Finset.sum_congr rfl fun c _ => ?_
    rw [cat_at [⟨⟨2, ![n, k0]⟩, X0⟩, ⟨⟨2, ![n, k1]⟩, X1⟩, ⟨⟨2, ![n, k2]⟩, X2⟩, ⟨⟨2, ![n, k3]⟩, X3⟩, ⟨⟨2, ![n, k4]⟩, X4⟩] hc 4 (by show (4 : ℕ) < 5; omega) X4 rfl (k0 + k1 + k2 + k3) (by show k0 + (k1 + (k2 + (k3 + (0)))) = k0 + k1 + k2 + k3; omega) p c _ rfl]

end Cert.Snowball

end
-- ==== Proof.Bridge.lean ====
/-
  The two programs compute one function.

  Layer by layer the reference multiplies the features and the hidden blocks so far, laid side by side, into the layer's
  weight matrix; the kernel multiplies each block into its own rows of that matrix and adds the products.  The two are
  equal entry by entry (the sum over all columns cut where the blocks meet), and what the host does between the regions
  is the same sequence of operations in both programs.  So hidden block by hidden block, and at last the results, agree
  whenever the arguments do.  No entry needs to be finite.
-/
import proofs.«114441_j62878321213489_1_alg».proof.Proof.Carried
import proofs.«114441_j62878321213489_1_alg».proof.Proof.RefLayers
import proofs.«114441_j62878321213489_1_alg».proof.Proof.LibConcatProduct

set_option maxRecDepth 16384

noncomputable section

namespace Cert.Snowball

open Idealize.ShloMosaic Idealize.ShloMosaic.ValueIdx Idealize.ShloMosaic.TcCoe Idealize.SL.Sem

/-- Layer 0: the host's product is the kernel's. -/
theorem lin0_eq (X : FVec Ideal Cert.ReferenceIdeal.S50000x512 .f32) (W : FVec Ideal Cert.ReferenceIdeal.S512x128 .f32) :
    Host.dotGeneral Cert.ReferenceIdeal.dot_S50000x512_S512x128_S50000x128_1_0_0_1_n_n none X W
      = Cert.KernelIdeal.Layers.lin0 X W := by
  funext j
  obtain ⟨p, q, rfl⟩ : ∃ (p : Fin 50000) (q : Fin 128), j = ix2 p q := ⟨j 0, j 1, eq_ix2 j⟩
  exact Cert.HostProduct.dotGeneral_nn_apply Cert.ReferenceIdeal.dot_S50000x512_S512x128_S50000x128_1_0_0_1_n_n.wf none X W p q

/-- Layer 1: the host's product with the blocks side by side is the kernel's sum of the blocks' products with the weights' row bands. -/
theorem lin1_eq (X : FVec Ideal Cert.ReferenceIdeal.S50000x512 .f32) (H1 : FVec Ideal Cert.ReferenceIdeal.S50000x128 .f32) (W : FVec Ideal Cert.ReferenceIdeal.S640x128 .f32) :
    Host.dotGeneral Cert.ReferenceIdeal.dot_S50000x640_S640x128_S50000x128_1_0_0_1_n_n none (concatenate Cert.ReferenceIdeal.S50000x640 1 [⟨Cert.ReferenceIdeal.S50000x512, X⟩, ⟨Cert.ReferenceIdeal.S50000x128, H1⟩] Cert.ReferenceIdeal.Facts₀.concatenates_S50000x512_S50000x128_S50000x640_d1) W
      = Cert.KernelIdeal.Layers.lin1 X H1 (extractStridedSlice Cert.KernelIdeal.S512x128 ![0, 0] W Cert.KernelIdeal.Facts₀.slices_S640x128_S512x128_0_0) (extractStridedSlice Cert.KernelIdeal.S128x128 ![512, 0] W Cert.KernelIdeal.Facts₀.slices_S640x128_S128x128_512_0) := by
  funext j
  obtain ⟨p, q, rfl⟩ : ∃ (p : Fin 50000) (q : Fin 128), j = ix2 p q := ⟨j 0, j 1, eq_ix2 j⟩
  refine (dot_cat2 (n := 50000) (k0 := 512) (k1 := 128) (d := 128) Cert.ReferenceIdeal.Facts₀.concatenates_S50000x512_S50000x128_S50000x640_d1 Cert.ReferenceIdeal.dot_S50000x640_S640x128_S50000x128_1_0_0_1_n_n.wf X H1 W p q).trans ?_
  exact congrArg₂ (· + ·) (band_of_slice X W 0 (by norm_num) Cert.KernelIdeal.Facts₀.slices_S640x128_S512x128_0_0 p q).symm (band_of_slice H1 W 512 (by norm_num) Cert.KernelIdeal.Facts₀.slices_S640x128_S128x128_512_0 p q).symm

/-- Layer 2: the host's product with the blocks side by side is the kernel's sum of the blocks' products with the weights' row bands. -/
theorem lin2_eq (X : FVec Ideal Cert.ReferenceIdeal.S50000x512 .f32) (H1 : FVec Ideal Cert.ReferenceIdeal.S50000x128 .f32) (H2 : FVec Ideal Cert.ReferenceIdeal.S50000x128 .f32) (W : FVec Ideal Cert.ReferenceIdeal.S768x128 .f32) :
    Host.dotGeneral Cert.ReferenceIdeal.dot_S50000x768_S768x128_S50000x128_1_0_0_1_n_n none (concatenate Cert.ReferenceIdeal.S50000x768 1 [⟨Cert.ReferenceIdeal.S50000x512, X⟩, ⟨Cert.ReferenceIdeal.S50000x128, H1⟩, ⟨Cert.ReferenceIdeal.S50000x128, H2⟩] Cert.ReferenceIdeal.Facts₀.concatenates_S50000x512_S50000x128_S50000x128_S50000x768_d1) W
      = Cert.KernelIdeal.Layers.lin2 X H1 H2 (extractStridedSlice Cert.KernelIdeal.S512x128 ![0, 0] W Cert.KernelIdeal.Facts₀.slices_S768x128_S512x128_0_0) (extractStridedSlice Cert.KernelIdeal.S128x128 ![512, 0] W Cert.KernelIdeal.Facts₀.slices_S768x128_S128x128_512_0) (extractStridedSlice Cert.KernelIdeal.S128x128 ![640, 0] W Cert.KernelIdeal.Facts₀.slices_S768x128_S128x128_640_0) := by
  funext j
  obtain ⟨p, q, rfl⟩ : ∃ (p : Fin 50000) (q : Fin 128), j = ix2 p q := ⟨j 0, j 1, eq_ix2 j⟩
  refine (dot_cat3 (n := 50000) (k0 := 512) (k1 := 128) (k2 := 128) (d := 128) Cert.ReferenceIdeal.Facts₀.concatenates_S50000x512_S50000x128_S50000x128_S50000x768_d1 Cert.ReferenceIdeal.dot_S50000x768_S768x128_S50000x128_1_0_0_1_n_n.wf X H1 H2 W p q).trans ?_
  exact congrArg₂ (· + ·) (congrArg₂ (· + ·) (band_of_slice X W 0 (by norm_num) Cert.KernelIdeal.Facts₀.slices_S768x128_S512x128_0_0 p q).symm (band_of_slice H1 W 512 (by norm_num) Cert.KernelIdeal.Facts₀.slices_S768x128_S128x128_512_0 p q).symm) (band_of_slice H2 W 640 (by norm_num) Cert.KernelIdeal.Facts₀.slices_S768x128_S128x128_640_0 p q).symm

/-- Layer 3: the host's product with the blocks side by side is the kernel's sum of the blocks' products with the weights' row bands. -/
theorem lin3_eq (X : FVec Ideal Cert.ReferenceIdeal.S50000x512 .f32) (H1 : FVec Ideal Cert.ReferenceIdeal.S50000x128 .f32) (H2 : FVec Ideal Cert.ReferenceIdeal.S50000x128 .f32) (H3 : FVec Ideal Cert.ReferenceIdeal.S50000x128 .f32) (W : FVec Ideal Cert.ReferenceIdeal.S896x128 .f32) :
    Host.dotGeneral Cert.ReferenceIdeal.dot_S50000x896_S896x128_S50000x128_1_0_0_1_n_n none (concatenate Cert.ReferenceIdeal.S50000x896 1 [⟨Cert.ReferenceIdeal.S50000x512, X⟩, ⟨Cert.ReferenceIdeal.S50000x128, H1⟩, ⟨Cert.ReferenceIdeal.S50000x128, H2⟩, ⟨Cert.ReferenceIdeal.S50000x128, H3⟩] Cert.ReferenceIdeal.Facts₀.concatenates_S50000x512_S50000x128_S50000x128_S50000x128_S50000x896_d1) W
      = Cert.KernelIdeal.Layers.lin3 X H1 H2 H3 (extractStridedSlice Cert.KernelIdeal.S512x128 ![0, 0] W Cert.KernelIdeal.Facts₀.slices_S896x128_S512x128_0_0) (extractStridedSlice Cert.KernelIdeal.S128x128 ![512, 0] W Cert.KernelIdeal.Facts₀.slices_S896x128_S128x128_512_0) (extractStridedSlice Cert.KernelIdeal.S128x128 ![640, 0] W Cert.KernelIdeal.Facts₀.slices_S896x128_S128x128_640_0) (extractStridedSlice Cert.KernelIdeal.S128x128 ![768, 0] W Cert.KernelIdeal.Facts₀.slices_S896x128_S128x128_768_0) := by
  funext j
  obtain ⟨p, q, rfl⟩ : ∃ (p : Fin 50000) (q : Fin 128), j = ix2 p q := ⟨j 0, j 1, eq_ix2 j⟩
  refine (dot_cat4 (n := 50000) (k0 := 512) (k1 := 128) (k2 := 128) (k3 := 128) (d := 128) Cert.ReferenceIdeal.Facts₀.concatenates_S50000x512_S50000x128_S50000x128_S50000x128_S50000x896_d1 Cert.ReferenceIdeal.dot_S50000x896_S896x128_S50000x128_1_0_0_1_n_n.wf X H1 H2 H3 W p q).trans ?_
  exact congrArg₂ (· + ·) (congrArg₂ (· + ·) (congrArg₂ (· + ·) (band_of_slice X W 0 (by norm_num) Cert.KernelIdeal.Facts₀.slices_S896x128_S512x128_0_0 p q).symm (band_of_slice H1 W 512 (by norm_num) Cert.KernelIdeal.Facts₀.slices_S896x128_S128x128_512_0 p q).symm) (band_of_slice H2 W 640 (by norm_num) Cert.KernelIdeal.Facts₀.slices_S896x128_S128x128_640_0 p q).symm) (band_of_slice H3 W 768 (by norm_num) Cert.KernelIdeal.Facts₀.slices_S896x128_S128x128_768_0 p q).symm

/-- Layer 4: the host's product with the blocks side by side is the kernel's sum of the blocks' products with the weights' row bands. -/
theorem lin4_eq (X : FVec Ideal Cert.ReferenceIdeal.S50000x512 .f32) (H1 : FVec Ideal Cert.ReferenceIdeal.S50000x128 .f32) (H2 : FVec Ideal Cert.ReferenceIdeal.S50000x128 .f32) (H3 : FVec Ideal Cert.ReferenceIdeal.S50000x128 .f32) (H4 : FVec Ideal Cert.ReferenceIdeal.S50000x128 .f32) (W : FVec Ideal Cert.ReferenceIdeal.S1024x40 .f32) :
    Host.dotGeneral Cert.ReferenceIdeal.dot_S50000x1024_S1024x40_S50000x40_1_0_0_1_n_n none (concatenate Cert.ReferenceIdeal.S50000x1024 1 [⟨Cert.ReferenceIdeal.S50000x512, X⟩, ⟨Cert.ReferenceIdeal.S50000x128, H1⟩, ⟨Cert.ReferenceIdeal.S50000x128, H2⟩, ⟨Cert.ReferenceIdeal.S50000x128, H3⟩, ⟨Cert.ReferenceIdeal.S50000x128, H4⟩] Cert.ReferenceIdeal.Facts₀.concatenates_S50000x512_S50000x128_S50000x128_S50000x128_S50000x128_S50000x1024_d1) W
      = Cert.KernelIdeal.Layers.lin4 X H1 H2 H3 H4 (extractStridedSlice Cert.KernelIdeal.S512x40 ![0, 0] W Cert.KernelIdeal.Facts₀.slices_S1024x40_S512x40_0_0) (extractStridedSlice Cert.KernelIdeal.S128x40 ![512, 0] W Cert.KernelIdeal.Facts₀.slices_S1024x40_S128x40_512_0) (extractStridedSlice Cert.KernelIdeal.S128x40 ![640, 0] W Cert.KernelIdeal.Facts₀.slices_S1024x40_S128x40_640_0) (extractStridedSlice Cert.KernelIdeal.S128x40 ![768, 0] W Cert.KernelIdeal.Facts₀.slices_S1024x40_S128x40_768_0) (extractStridedSlice Cert.KernelIdeal.S128x40 ![896, 0] W Cert.KernelIdeal.Facts₀.slices_S1024x40_S128x40_896_0) := by
  funext j
  obtain ⟨p, q, rfl⟩ : ∃ (p : Fin 50000) (q : Fin 40), j = ix2 p q := ⟨j 0, j 1, eq_ix2 j⟩
  refine (dot_cat5 (n := 50000) (k0 := 512) (k1 := 128) (k2 := 128) (k3 := 128) (k4 := 128) (d := 40) Cert.ReferenceIdeal.Facts₀.concatenates_S50000x512_S50000x128_S50000x128_S50000x128_S50000x128_S50000x1024_d1 Cert.ReferenceIdeal.dot_S50000x1024_S1024x40_S50000x40_1_0_0_1_n_n.wf X H1 H2 H3 H4 W p q).trans ?_
  exact congrArg₂ (· + ·) (congrArg₂ (· + ·) (congrArg₂ (· + ·) (congrArg₂ (· + ·) (band_of_slice X W 0 (by norm_num) Cert.KernelIdeal.Facts₀.slices_S1024x40_S512x40_0_0 p q).symm (band_of_slice H1 W 512 (by norm_num) Cert.KernelIdeal.Facts₀.slices_S1024x40_S128x40_512_0 p q).symm) (band_of_slice H2 W 640 (by norm_num) Cert.KernelIdeal.Facts₀.slices_S1024x40_S128x40_640_0 p q).symm) (band_of_slice H3 W 768 (by norm_num) Cert.KernelIdeal.Facts₀.slices_S1024x40_S128x40_768_0 p q).symm) (band_of_slice H4 W 896 (by norm_num) Cert.KernelIdeal.Facts₀.slices_S1024x40_S128x40_896_0 p q).symm

set_option maxHeartbeats 4000000 in
/-- From arguments that agree, the reference's result is the kernel's. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.Layers.refResult m' c = Cert.KernelIdeal.Layers.result m c := by
  have e0 : Cert.ReferenceIdeal.Layers.P0 m' c = Cert.KernelIdeal.Layers.L0 m c := by
    unfold Cert.ReferenceIdeal.Layers.P0 Cert.KernelIdeal.Layers.L0
    rw [h0, h4]
    exact lin0_eq _ _
  have g1 : Cert.ReferenceIdeal.Layers.G1 m' c = Cert.KernelIdeal.Layers.H1 m c := by
    unfold Cert.ReferenceIdeal.Layers.G1 Cert.KernelIdeal.Layers.H1
    rw [e0, h1, h2, h3, h5]
    rfl
  have e1 : Cert.ReferenceIdeal.Layers.P1 m' c = Cert.KernelIdeal.Layers.L1 m c := by
    unfold Cert.ReferenceIdeal.Layers.P1 Cert.KernelIdeal.Layers.L1
    rw [g1, h0, h6]
    exact lin1_eq _ _ _
  have g2 : Cert.ReferenceIdeal.Layers.G2 m' c = Cert.KernelIdeal.Layers.H2 m c := by
    unfold Cert.ReferenceIdeal.Layers.G2 Cert.KernelIdeal.Layers.H2
    rw [e1, h1, h2, h3, h7]
    rfl
  have e2 : Cert.ReferenceIdeal.Layers.P2 m' c = Cert.KernelIdeal.Layers.L2 m c := by
    unfold Cert.ReferenceIdeal.Layers.P2 Cert.KernelIdeal.Layers.L2
    rw [g1, g2, h0, h8]
    exact lin2_eq _ _ _ _
  have g3 : Cert.ReferenceIdeal.Layers.G3 m' c = Cert.KernelIdeal.Layers.H3 m c := by
    unfold Cert.ReferenceIdeal.Layers.G3 Cert.KernelIdeal.Layers.H3
    rw [e2, h1, h2, h3, h9]
    rfl
  have e3 : Cert.ReferenceIdeal.Layers.P3 m' c = Cert.KernelIdeal.Layers.L3 m c := by
    unfold Cert.ReferenceIdeal.Layers.P3 Cert.KernelIdeal.Layers.L3
    rw [g1, g2, g3, h0, h10]
    exact lin3_eq _ _ _ _ _
  have g4 : Cert.ReferenceIdeal.Layers.G4 m' c = Cert.KernelIdeal.Layers.H4 m c := by
    unfold Cert.ReferenceIdeal.Layers.G4 Cert.KernelIdeal.Layers.H4
    rw [e3, h1, h2, h3, h11]
    rfl
  have e4 : Cert.ReferenceIdeal.Layers.P4 m' c = Cert.KernelIdeal.Layers.L4 m c := by
    unfold Cert.ReferenceIdeal.Layers.P4 Cert.KernelIdeal.Layers.L4
    rw [g1, g2, g3, g4, h0, h12]
    exact lin4_eq _ _ _ _ _ _
  unfold Cert.ReferenceIdeal.Layers.refResult Cert.KernelIdeal.Layers.result
  rw [e4, h1, h2, h3, h13]
  rfl

end Cert.Snowball

end
-- ==== Proof.lean ====
/-
  The certificate: a five-layer graph network whose layers take the features and all earlier hidden blocks as input.

  The kernel computes each layer's linear part on the device as a sum of partial products, one per input block against
  its rows of the layer's weight matrix, and leaves the aggregation over the graph's edges, the bias and the rectifier to
  the host; the reference lays the blocks side by side and multiplies once.  At exact arithmetic the two linear parts
  are the same sum cut at the blocks' borders, and the host's part is the same in both programs, so the results are
  equal for all inputs, finite or not.  The three frames are the generated ones; nothing was rewritten by the
  idealization, so there is nothing to preserve.
-/
import proofs.«114441_j62878321213489_1_alg».proof.Defs
import proofs.«114441_j62878321213489_1_alg».proof.Proof.Gen.Kernel
import proofs.«114441_j62878321213489_1_alg».proof.Proof.Gen.Kernel.Skeleton
import proofs.«114441_j62878321213489_1_alg».proof.Proof.Gen.Kernel.Launch
import proofs.«114441_j62878321213489_1_alg».proof.Proof.Gen.Kernel.Points
import proofs.«114441_j62878321213489_1_alg».proof.Proof.Gen.Kernel.Frame
import proofs.«114441_j62878321213489_1_alg».proof.Proof.Gen.KernelIdeal
import proofs.«114441_j62878321213489_1_alg».proof.Proof.Gen.KernelIdeal.Skeleton
import proofs.«114441_j62878321213489_1_alg».proof.Proof.Gen.KernelIdeal.Launch
import proofs.«114441_j62878321213489_1_alg».proof.Proof.Gen.KernelIdeal.Points
import proofs.«114441_j62878321213489_1_alg».proof.Proof.Gen.KernelIdeal.Frame
import proofs.«114441_j62878321213489_1_alg».proof.Proof.Gen.ReferenceIdeal
import proofs.«114441_j62878321213489_1_alg».proof.Proof.Gen.Pre_finite_inputs
import proofs.«114441_j62878321213489_1_alg».proof.Proof.Gen.ReferenceIdeal.Run
import proofs.«114441_j62878321213489_1_alg».proof.Proof.RunLast
import proofs.«114441_j62878321213489_1_alg».proof.Proof.Carried
import proofs.«114441_j62878321213489_1_alg».proof.Proof.RefLayers
import proofs.«114441_j62878321213489_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Both programs end with the same result: the kernel's run read at the last boundary, the reference's at its
    composed term, and the two closed forms equal layer by layer. -/
theorem algebraic : Cert.algebraic_KernelIdeal_ReferenceIdeal := by
  intro m ρ m' ρ' _ hagree
  refine ⟨fun c => Cert.KernelIdeal.Layers.result m c, ?_, ?_⟩
  · refine (θ_run Cert.KernelIdeal.defs _ _).mono (fun _ h c => ⟨(h c).1.trans ?_, (h c).2⟩)
      (Cert.KernelIdeal.Layers.run_last (F := Ideal) m ρ)
    exact Cert.KernelIdeal.Layers.w18_main_v102 m ρ c
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13⟩ := hagree c
    exact (Cert.ReferenceIdeal.Layers.res_eq m' c).trans
      (Cert.Snowball.results_agree m m' c h0 h1 h2 h3 h4 h5 h6 h7 h8 h9 h10 h11 h12 h13)

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
